-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v130)) (v1 : (c : Dev Cert.KernelIdeal.nD) → Buf (Elt Ideal) ((c.tc : Thread Cert.KernelIdeal.nD Cert.KernelIdeal.τ).loc Cert.KernelIdeal.main_v128)) (v2 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_v128) = v1 c
          ∧ r.2.mem ((c.tc : Thread Cert.KernelIdeal.nD Cert.KernelIdeal.τ).loc Cert.KernelIdeal.main_v129) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v171) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S16384 : Shape := ⟨1, ![16384]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 50000#32
  let main_v18 : IVec S16384 32 := broadcastInDim S16384 ![] bcast_S_S16384 main_c_6
  let main_v19 : IVec S16384 1 := cmpi .slt main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : FVec F S100000x64 .f32) (main_arg1 : FVec F S50000x64 .f32) (main_arg2 : IVec S16384 32) (main_arg3 : IVec S16384 32) (main_arg4 : IVec S1000000 32) (main_arg5 : IVec S1000000 32) (main_arg6 : IVec S1000000 32) (main_arg7 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 100000#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S100000x64 : Shape := ⟨2, ![100000, 64]⟩
abbrev S50000x64 : Shape := ⟨2, ![50000, 64]⟩
abbrev S16384 : Shape := ⟨1, ![16384]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S50000 : Shape := ⟨1, ![50000]⟩
abbrev S50000x1 : Shape := ⟨2, ![50000, 1]⟩
abbrev S1000000x64 : Shape := ⟨2, ![1000000, 64]⟩
abbrev S2000x64 : Shape := ⟨2, ![2000, 64]⟩
abbrev S100000x1x64 : Shape := ⟨3, ![100000, 1, 64]⟩
abbrev S50000x1x64 : Shape := ⟨3, ![50000, 1, 64]⟩
abbrev S16384x1x64 : Shape := ⟨3, ![16384, 1, 64]⟩
abbrev S16384x1x1 : Shape := ⟨3, ![16384, 1, 1]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S16384x64 : Shape := ⟨2, ![16384, 64]⟩

abbrev nBuf : Space → Nat
  | .hbm => 177
  | .vmem => 22
  | .smem => 2
  | _ => 0

abbrev hbmTy0_0 (i : Nat) : BufTy := match i % 128 with
  | 0 => ⟨S100000x64, .f32⟩
  | 1 => ⟨S50000x64, .f32⟩
  | 2 => ⟨S1000000, .i32⟩
  | 3 => ⟨S1000000, .i32⟩
  | 4 => ⟨S1000000, .i32⟩
  | 5 => ⟨S1000000, .i32⟩
  | 6 => ⟨S_, .f32⟩
  | 7 => ⟨S1000000, .f32⟩
  | 8 => ⟨S_, .f32⟩
  | 9 => ⟨S100000, .f32⟩
  | 10 => ⟨S1000000x1, .i32⟩
  | 11 => ⟨S100000, .f32⟩
  | 12 => ⟨S100000x1, .f32⟩
  | 13 => ⟨S_, .f32⟩
  | 14 => ⟨S100000x1, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S_, .f32⟩
  | 21 => ⟨S1000000, .f32⟩
  | 22 => ⟨S_, .f32⟩
  | 23 => ⟨S50000, .f32⟩
  | 24 => ⟨S1000000x1, .i32⟩
  | 25 => ⟨S50000, .f32⟩
  | 26 => ⟨S50000x1, .f32⟩
  | 27 => ⟨S_, .f32⟩
  | 28 => ⟨S50000x1, .f32⟩
  | 29 => ⟨S50000x1, .f32⟩
  | 30 => ⟨S50000x1, .f32⟩
  | 31 => ⟨S_, .f32⟩
  | 32 => ⟨S50000x1, .f32⟩
  | 33 => ⟨S50000x1, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S_, .f32⟩
  | 44 => ⟨S100000x64, .f32⟩
  | 45 => ⟨S1000000x1, .i32⟩
  | 46 => ⟨S100000x64, .f32⟩
  | 47 => ⟨S_, .f32⟩
  | 48 => ⟨S1000000, .f32⟩
  | 49 => ⟨S_, .f32⟩
  | 50 => ⟨S100000, .f32⟩
  | 51 => ⟨S1000000x1, .i32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x64, .f32⟩
  | 58 => ⟨S100000x64, .f32⟩
  | 59 => ⟨S100000x64, .f32⟩
  | 60 => ⟨S100000x64, .f32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000x64, .f32⟩
  | 70 => ⟨S_, .f32⟩
  | 71 => ⟨S100000x64, .f32⟩
  | 72 => ⟨S1000000x1, .i32⟩
  | 73 => ⟨S100000x64, .f32⟩
  | 74 => ⟨S_, .f32⟩
  | 75 => ⟨S1000000, .f32⟩
  | 76 => ⟨S_, .f32⟩
  | 77 => ⟨S100000, .f32⟩
  | 78 => ⟨S1000000x1, .i32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x64, .f32⟩
  | 85 => ⟨S100000x64, .f32⟩
  | 86 => ⟨S100000x64, .f32⟩
  | 87 => ⟨S50000x64, .f32⟩
  | 88 => ⟨S50000x64, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x64, .f32⟩
  | 98 => ⟨S_, .f32⟩
  | 99 => ⟨S50000x64, .f32⟩
  | 100 => ⟨S1000000x1, .i32⟩
  | 101 => ⟨S50000x64, .f32⟩
  | 102 => ⟨S_, .f32⟩
  | 103 => ⟨S1000000, .f32⟩
  | 104 => ⟨S_, .f32⟩
  | 105 => ⟨S50000, .f32⟩
  | 106 => ⟨S1000000x1, .i32⟩
  | 107 => ⟨S50000, .f32⟩
  | 108 => ⟨S50000x1, .f32⟩
  | 109 => ⟨S_, .f32⟩
  | 110 => ⟨S50000x1, .f32⟩
  | 111 => ⟨S50000x1, .f32⟩
  | 112 => ⟨S50000x64, .f32⟩
  | 113 => ⟨S50000x64, .f32⟩
  | 114 => ⟨S50000x64, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000x64, .f32⟩
  | 124 => ⟨S_, .f32⟩
  | 125 => ⟨S100000x64, .f32⟩
  | 126 => ⟨S1000000x1, .i32⟩
  | 127 => ⟨S100000x64, .f32⟩
  | _ => ⟨S100000x64, .f32⟩

abbrev hbmTy0_1 (i : Nat) : BufTy := match i % 128 with
  | 0 => ⟨S_, .f32⟩
  | 1 => ⟨S1000000, .f32⟩
  | 2 => ⟨S_, .f32⟩
  | 3 => ⟨S100000, .f32⟩
  | 4 => ⟨S1000000x1, .i32⟩
  | 5 => ⟨S100000, .f32⟩
  | 6 => ⟨S100000x1, .f32⟩
  | 7 => ⟨S_, .f32⟩
  | 8 => ⟨S100000x1, .f32⟩
  | 9 => ⟨S100000x1, .f32⟩
  | 10 => ⟨S100000x64, .f32⟩
  | 11 => ⟨S100000x64, .f32⟩
  | 12 => ⟨S100000x64, .f32⟩
  | 13 => ⟨S100000x64, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S_, .f32⟩
  | 24 => ⟨S100000x64, .f32⟩
  | 25 => ⟨S1000000x1, .i32⟩
  | 26 => ⟨S100000x64, .f32⟩
  | 27 => ⟨S_, .f32⟩
  | 28 => ⟨S1000000, .f32⟩
  | 29 => ⟨S_, .f32⟩
  | 30 => ⟨S100000, .f32⟩
  | 31 => ⟨S1000000x1, .i32⟩
  | 32 => ⟨S100000, .f32⟩
  | 33 => ⟨S100000x1, .f32⟩
  | 34 => ⟨S_, .f32⟩
  | 35 => ⟨S100000x1, .f32⟩
  | 36 => ⟨S100000x1, .f32⟩
  | 37 => ⟨S100000x64, .f32⟩
  | 38 => ⟨S100000x64, .f32⟩
  | 39 => ⟨S100000x64, .f32⟩
  | 40 => ⟨S100000x64, .f32⟩
  | 41 => ⟨S100000x1x64, .f32⟩
  | 42 => ⟨S50000x1x64, .f32⟩
  | 43 => ⟨S16384x1x64, .f32⟩
  | 44 => ⟨S16384x1x64, .f32⟩
  | 45 => ⟨S16384x1x1, .f32⟩
  | 46 => ⟨S16384x64, .f32⟩
  | 47 => ⟨S16384x64, .f32⟩
  | 48 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .vmem, ⟨17, _⟩ => ⟨S1x1x64, .f32⟩
  | .local _ .vmem, ⟨18, _⟩ => ⟨S1x1x64, .f32⟩
  | .local _ .vmem, ⟨19, _⟩ => ⟨S1x1x64, .f32⟩
  | .local _ .vmem, ⟨20, _⟩ => ⟨S1x1x1, .f32⟩
  | .local _ .vmem, ⟨21, _⟩ => ⟨S1x1x1, .f32⟩
  | .local _ .smem, ⟨0, _⟩ => ⟨S16384, .i32⟩
  | .local _ .smem, ⟨1, _⟩ => ⟨S16384, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_12 : Ref sig .tc := ⟨.hbm, 61, rfl⟩
abbrev main_v41 : Ref sig .tc := ⟨.hbm, 62, rfl⟩
abbrev main_v42 : Ref sig .tc := ⟨.hbm, 63, rfl⟩
abbrev main_c_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_cst_16 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_18 : Ref sig .tc := ⟨.hbm, 89, rfl⟩
abbrev main_v63 : Ref sig .tc := ⟨.hbm, 90, rfl⟩
abbrev main_v64 : Ref sig .tc := ⟨.hbm, 91, rfl⟩
abbrev main_c_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_20 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_21 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_23 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_24 : Ref sig .tc := ⟨.hbm, 115, rfl⟩
abbrev main_v83 : Ref sig .tc := ⟨.hbm, 116, rfl⟩
abbrev main_v84 : Ref sig .tc := ⟨.hbm, 117, rfl⟩
abbrev main_c_25 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_26 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_27 : Ref sig .tc := ⟨.hbm, 128, rfl⟩
abbrev main_v93 : Ref sig .tc := ⟨.hbm, 129, rfl⟩
abbrev main_cst_28 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_29 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_30 : Ref sig .tc := ⟨.hbm, 142, rfl⟩
abbrev main_v104 : Ref sig .tc := ⟨.hbm, 143, rfl⟩
abbrev main_v105 : Ref sig .tc := ⟨.hbm, 144, rfl⟩
abbrev main_c_31 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_32 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_33 : Ref sig .tc := ⟨.hbm, 155, rfl⟩
abbrev main_v114 : Ref sig .tc := ⟨.hbm, 156, rfl⟩
abbrev main_cst_34 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_35 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127_0 : Ref sig .tc := ⟨.hbm, 171, rfl⟩
abbrev main_v127_1 : Ref sig .tc := ⟨.hbm, 172, rfl⟩
abbrev main_v127_2 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16384], ![false]⟩

abbrev pre1 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S100000x64_S100000x1x64 : S100000x64.ShapeCasts S100000x1x64
  shapeCasts_S50000x64_S50000x1x64 : S50000x64.ShapeCasts S50000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  reduces_S1x1x64_S1x1 : S1x1x64.Reduces [2] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S16384x1x64_S16384x64 : S16384x1x64.ShapeCasts S16384x64
  shapeCasts_S16384x1x1_S16384 : S16384x1x1.ShapeCasts S16384
  scatter_S100000_S1000000x1_S1000000_n_0_0_1_wf : ScatterDims.WF S100000 S1000000x1 S1000000 [] [0] [0] 1
  scatter_S50000_S1000000x1_S1000000_n_0_0_1_wf : ScatterDims.WF S50000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  k1_off1_inb : ∀ i : grid1.Coords, ∀ a, (k1_off1 i) a + S1.size a ≤ S16384.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S16384x1x64.size a
  hwx1_2 : ∀ i : grid1.Coords, EltTy.bits .f32 = 32 ∨ (Rect.block (s := S16384x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S16384x1x64.size a
  hwx1_3 : ∀ i : grid1.Coords, EltTy.bits .f32 = 32 ∨ (Rect.block (s := S16384x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S16384x1x1.size a
  hwx1_4 : ∀ i : grid1.Coords, EltTy.bits .f32 = 32 ∨ (Rect.block (s := S16384x1x1) S1x1x1.size (cc1_transform_4 i) (hinb1_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v101) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v123) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v124) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev spec1_0 : Pipeline.WinSpec sig grid1.rank :=
  Pipeline.WinSpec.ofSpec (Memref.whole main_v125) S1x1x64.size reads1_0 false false 2 stage1_0 sem1_0 nbuf1_0 hstage1_0

abbrev spec1_1 : Pipeline.WinSpec sig grid1.rank :=
  Pipeline.WinSpec.ofSpec (Memref.whole main_v126) S1x1x64.size reads1_1 false false 2 stage1_1 sem1_1 nbuf1_1 hstage1_1

abbrev spec1_2 : Pipeline.WinSpec sig grid1.rank :=
  Pipeline.WinSpec.ofSpec (Memref.whole main_v127_0) S1x1x64.size reads1_2 true false 2 stage1_2 sem1_2 nbuf1_2 hstage1_2

abbrev spec1_3 : Pipeline.WinSpec sig grid1.rank :=
  Pipeline.WinSpec.ofSpec (Memref.whole main_v127_1) S1x1x64.size reads1_3 true false 2 stage1_3 sem1_3 nbuf1_3 hstage1_3

abbrev spec1_4 : Pipeline.WinSpec sig grid1.rank :=
  Pipeline.WinSpec.ofSpec (Memref.whole main_v127_2) S1x1x1.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 k1_off1_inb numel1_S1 pf | 2 => cc1_transform_2 | 3 => cc1_transform_3 | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | 3 => hreads1_3 | 4 => hreads1_4 | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S100000x1x64.size a), EltTy.bits .f32 = 32 ∨ (Rect.block (s := S100000x1x64) S1x1x64.size (cc1_transform_0 k1_off1_inb numel1_S1 pf i) h).WholeWords (EltTy.packing .f32)) ∧
  (∀ i : grid1.Coords, ∃ h : (∀ a, (cc1_transform_1 k1_off1_inb numel1_S1 pf i a + 1) * S1x1x64.size a ≤ S50000x1x64.size a), EltTy.bits .f32 = 32 ∨ (Rect.block (s := S50000x1x64) S1x1x64.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | 3 => hinb1_3 | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | 3 => hwx1_3 | 4 => hwx1_4 | ⟨_ + 5, h⟩ => absurd h (Nat.not_lt.2 (Nat.le_add_left _ _))

class Facts : Prop extends Facts₀ where
  harr1 : ∀ w, (spec1 w).arr.IsWhole

variable [Facts]
-- ==== ReferenceIdeal.lean ====
abbrev S100000x64 : Shape := ⟨2, ![100000, 64]⟩
abbrev S50000x64 : Shape := ⟨2, ![50000, 64]⟩
abbrev S16384 : Shape := ⟨1, ![16384]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S50000 : Shape := ⟨1, ![50000]⟩
abbrev S50000x1 : Shape := ⟨2, ![50000, 1]⟩
abbrev S1000000x64 : Shape := ⟨2, ![1000000, 64]⟩
abbrev S16384x1 : Shape := ⟨2, ![16384, 1]⟩
abbrev S16384x64 : Shape := ⟨2, ![16384, 64]⟩

abbrev nBuf : Space → Nat
  | .hbm => 243
  | .vmem => 0
  | .smem => 0
  | _ => 0

abbrev hbmTy0_0 (i : Nat) : BufTy := match i % 128 with
  | 0 => ⟨S100000x64, .f32⟩
  | 1 => ⟨S50000x64, .f32⟩
  | 2 => ⟨S16384, .i32⟩
  | 3 => ⟨S16384, .i32⟩
  | 4 => ⟨S1000000, .i32⟩
  | 5 => ⟨S1000000, .i32⟩
  | 6 => ⟨S1000000, .i32⟩
  | 7 => ⟨S1000000, .i32⟩
  | 8 => ⟨S_, .f32⟩
  | 9 => ⟨S1000000, .f32⟩
  | 10 => ⟨S_, .f32⟩
  | 11 => ⟨S100000, .f32⟩
  | 12 => ⟨S1000000x1, .i32⟩
  | 13 => ⟨S100000, .f32⟩
  | 14 => ⟨S100000x1, .f32⟩
  | 15 => ⟨S_, .f32⟩
  | 16 => ⟨S100000x1, .f32⟩
  | 17 => ⟨S100000x1, .f32⟩
  | 18 => ⟨S100000x1, .f32⟩
  | 19 => ⟨S_, .f32⟩
  | 20 => ⟨S100000x1, .f32⟩
  | 21 => ⟨S100000x1, .f32⟩
  | 22 => ⟨S_, .f32⟩
  | 23 => ⟨S1000000, .f32⟩
  | 24 => ⟨S_, .f32⟩
  | 25 => ⟨S50000, .f32⟩
  | 26 => ⟨S1000000x1, .i32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S50000x1, .f32⟩
  | 33 => ⟨S_, .f32⟩
  | 34 => ⟨S50000x1, .f32⟩
  | 35 => ⟨S50000x1, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x64, .f32⟩
  | 45 => ⟨S_, .f32⟩
  | 46 => ⟨S100000x64, .f32⟩
  | 47 => ⟨S1000000x1, .i32⟩
  | 48 => ⟨S100000x64, .f32⟩
  | 49 => ⟨S_, .f32⟩
  | 50 => ⟨S1000000, .f32⟩
  | 51 => ⟨S_, .f32⟩
  | 52 => ⟨S100000, .f32⟩
  | 53 => ⟨S1000000x1, .i32⟩
  | 54 => ⟨S100000, .f32⟩
  | 55 => ⟨S100000x1, .f32⟩
  | 56 => ⟨S_, .f32⟩
  | 57 => ⟨S100000x1, .f32⟩
  | 58 => ⟨S100000x1, .f32⟩
  | 59 => ⟨S100000x64, .f32⟩
  | 60 => ⟨S100000x64, .f32⟩
  | 61 => ⟨S100000x64, .f32⟩
  | 62 => ⟨S100000x64, .f32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x64, .f32⟩
  | 72 => ⟨S_, .f32⟩
  | 73 => ⟨S100000x64, .f32⟩
  | 74 => ⟨S1000000x1, .i32⟩
  | 75 => ⟨S100000x64, .f32⟩
  | 76 => ⟨S_, .f32⟩
  | 77 => ⟨S1000000, .f32⟩
  | 78 => ⟨S_, .f32⟩
  | 79 => ⟨S100000, .f32⟩
  | 80 => ⟨S1000000x1, .i32⟩
  | 81 => ⟨S100000, .f32⟩
  | 82 => ⟨S100000x1, .f32⟩
  | 83 => ⟨S_, .f32⟩
  | 84 => ⟨S100000x1, .f32⟩
  | 85 => ⟨S100000x1, .f32⟩
  | 86 => ⟨S100000x64, .f32⟩
  | 87 => ⟨S100000x64, .f32⟩
  | 88 => ⟨S100000x64, .f32⟩
  | 89 => ⟨S50000x64, .f32⟩
  | 90 => ⟨S50000x64, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S_, .f32⟩
  | 101 => ⟨S50000x64, .f32⟩
  | 102 => ⟨S1000000x1, .i32⟩
  | 103 => ⟨S50000x64, .f32⟩
  | 104 => ⟨S_, .f32⟩
  | 105 => ⟨S1000000, .f32⟩
  | 106 => ⟨S_, .f32⟩
  | 107 => ⟨S50000, .f32⟩
  | 108 => ⟨S1000000x1, .i32⟩
  | 109 => ⟨S50000, .f32⟩
  | 110 => ⟨S50000x1, .f32⟩
  | 111 => ⟨S_, .f32⟩
  | 112 => ⟨S50000x1, .f32⟩
  | 113 => ⟨S50000x1, .f32⟩
  | 114 => ⟨S50000x64, .f32⟩
  | 115 => ⟨S50000x64, .f32⟩
  | 116 => ⟨S50000x64, .f32⟩
  | 117 => ⟨S_, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S_, .i32⟩
  | 125 => ⟨S1000000, .i32⟩
  | 126 => ⟨S1000000, .i1⟩
  | 127 => ⟨S_, .i32⟩
  | _ => ⟨S100000x64, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x64, .f32⟩
  | 5 => ⟨S_, .f32⟩
  | 6 => ⟨S100000x64, .f32⟩
  | 7 => ⟨S1000000x1, .i32⟩
  | 8 => ⟨S100000x64, .f32⟩
  | 9 => ⟨S_, .f32⟩
  | 10 => ⟨S1000000, .f32⟩
  | 11 => ⟨S_, .f32⟩
  | 12 => ⟨S100000, .f32⟩
  | 13 => ⟨S1000000x1, .i32⟩
  | 14 => ⟨S100000, .f32⟩
  | 15 => ⟨S100000x1, .f32⟩
  | 16 => ⟨S_, .f32⟩
  | 17 => ⟨S100000x1, .f32⟩
  | 18 => ⟨S100000x1, .f32⟩
  | 19 => ⟨S100000x64, .f32⟩
  | 20 => ⟨S100000x64, .f32⟩
  | 21 => ⟨S100000x64, .f32⟩
  | 22 => ⟨S100000x64, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S_, .f32⟩
  | 33 => ⟨S100000x64, .f32⟩
  | 34 => ⟨S1000000x1, .i32⟩
  | 35 => ⟨S100000x64, .f32⟩
  | 36 => ⟨S_, .f32⟩
  | 37 => ⟨S1000000, .f32⟩
  | 38 => ⟨S_, .f32⟩
  | 39 => ⟨S100000, .f32⟩
  | 40 => ⟨S1000000x1, .i32⟩
  | 41 => ⟨S100000, .f32⟩
  | 42 => ⟨S100000x1, .f32⟩
  | 43 => ⟨S_, .f32⟩
  | 44 => ⟨S100000x1, .f32⟩
  | 45 => ⟨S100000x1, .f32⟩
  | 46 => ⟨S100000x64, .f32⟩
  | 47 => ⟨S100000x64, .f32⟩
  | 48 => ⟨S100000x64, .f32⟩
  | 49 => ⟨S50000x64, .f32⟩
  | 50 => ⟨S50000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x64, .f32⟩
  | 60 => ⟨S_, .f32⟩
  | 61 => ⟨S50000x64, .f32⟩
  | 62 => ⟨S1000000x1, .i32⟩
  | 63 => ⟨S50000x64, .f32⟩
  | 64 => ⟨S_, .f32⟩
  | 65 => ⟨S1000000, .f32⟩
  | 66 => ⟨S_, .f32⟩
  | 67 => ⟨S50000, .f32⟩
  | 68 => ⟨S1000000x1, .i32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x64, .f32⟩
  | 75 => ⟨S50000x64, .f32⟩
  | 76 => ⟨S50000x64, .f32⟩
  | 77 => ⟨S_, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S100000x64, .f32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S16384x64, .f32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S16384x64, .f32⟩
  | 104 => ⟨S16384x64, .f32⟩
  | 105 => ⟨S_, .f32⟩
  | 106 => ⟨S16384, .f32⟩
  | 107 => ⟨S16384, .f32⟩
  | 108 => ⟨S16384, .f32⟩
  | 109 => ⟨S_, .f32⟩
  | 110 => ⟨S16384, .f32⟩
  | 111 => ⟨S16384, .f32⟩
  | 112 => ⟨S_, .f32⟩
  | 113 => ⟨S16384, .f32⟩
  | 114 => ⟨S16384, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_c_13 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_17 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_18 : Ref sig .tc := ⟨.hbm, 91, rfl⟩
abbrev main_v63 : Ref sig .tc := ⟨.hbm, 92, rfl⟩
abbrev main_v64 : Ref sig .tc := ⟨.hbm, 93, rfl⟩
abbrev main_c_19 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_20 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_21 : Ref sig .tc := ⟨.hbm, 104, rfl⟩
abbrev main_v73 : Ref sig .tc := ⟨.hbm, 105, rfl⟩
abbrev main_cst_22 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_23 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_24 : Ref sig .tc := ⟨.hbm, 117, rfl⟩
abbrev main_v83 : Ref sig .tc := ⟨.hbm, 118, rfl⟩
abbrev main_v84 : Ref sig .tc := ⟨.hbm, 119, rfl⟩
abbrev main_cst_25 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_26 : Ref sig .tc := ⟨.hbm, 124, rfl⟩
abbrev main_v88 : Ref sig .tc := ⟨.hbm, 125, rfl⟩
abbrev main_v89 : Ref sig .tc := ⟨.hbm, 126, rfl⟩
abbrev main_c_27 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_28 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_29 : Ref sig .tc := ⟨.hbm, 137, rfl⟩
abbrev main_v98 : Ref sig .tc := ⟨.hbm, 138, rfl⟩
abbrev main_cst_30 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_31 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_32 : Ref sig .tc := ⟨.hbm, 151, rfl⟩
abbrev main_v109 : Ref sig .tc := ⟨.hbm, 152, rfl⟩
abbrev main_v110 : Ref sig .tc := ⟨.hbm, 153, rfl⟩
abbrev main_c_33 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_34 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_35 : Ref sig .tc := ⟨.hbm, 164, rfl⟩
abbrev main_v119 : Ref sig .tc := ⟨.hbm, 165, rfl⟩
abbrev main_cst_36 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_37 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_c_38 : Ref sig .tc := ⟨.hbm, 179, rfl⟩
abbrev main_v131 : Ref sig .tc := ⟨.hbm, 180, rfl⟩
abbrev main_v132 : Ref sig .tc := ⟨.hbm, 181, rfl⟩
abbrev main_c_39 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_40 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_cst_41 : Ref sig .tc := ⟨.hbm, 192, rfl⟩
abbrev main_v141 : Ref sig .tc := ⟨.hbm, 193, rfl⟩
abbrev main_cst_42 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_43 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_44 : Ref sig .tc := ⟨.hbm, 205, rfl⟩
abbrev main_v151 : Ref sig .tc := ⟨.hbm, 206, rfl⟩
abbrev main_v152 : Ref sig .tc := ⟨.hbm, 207, rfl⟩
abbrev main_cst_45 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_c_46 : Ref sig .tc := ⟨.hbm, 214, rfl⟩
abbrev main_v158 : Ref sig .tc := ⟨.hbm, 215, rfl⟩
abbrev main_v159 : Ref sig .tc := ⟨.hbm, 216, rfl⟩
abbrev main_c_47 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_c_48 : Ref sig .tc := ⟨.hbm, 223, rfl⟩
abbrev main_v165 : Ref sig .tc := ⟨.hbm, 224, rfl⟩
abbrev main_v166 : Ref sig .tc := ⟨.hbm, 225, rfl⟩
abbrev main_c_49 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_cst_50 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_51 : Ref sig .tc := ⟨.hbm, 237, rfl⟩
abbrev main_v176 : Ref sig .tc := ⟨.hbm, 238, rfl⟩
abbrev main_v177 : Ref sig .tc := ⟨.hbm, 239, rfl⟩
abbrev main_cst_52 : Ref sig .tc := ⟨.hbm, 240, rfl⟩
abbrev main_v178 : Ref sig .tc := ⟨.hbm, 241, rfl⟩
abbrev main_v179 : Ref sig .tc := ⟨.hbm, 242, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  scatter_S100000_S1000000x1_S1000000_n_0_0_1_wf : ScatterDims.WF S100000 S1000000x1 S1000000 [] [0] [0] 1
  scatter_S50000_S1000000x1_S1000000_n_0_0_1_wf : ScatterDims.WF S50000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.KRegion0.lean ====
/-
  The first kernel region: the weighted combination of five tables, block by block.

  The region runs over 50 grid points; point t stages rows 2000·t … 2000·t + 1999 (all 64 columns) of each of
  five input tables — the user embedding a, the first social and rating aggregates s₁, r₁ and the second ones
  s₂, r₂ — and writes back the same rows of the result. The body reads its five input blocks whole and stores one
  block whole: entry by entry  a + (½·s₁ + ½·r₁) + (½·s₂ + ½·r₂).  This module states, for any contents V of the
  buffers when the region is entered, what each staging buffer holds around the body at every point, and proves
  that the body turns the one into the other; the invariant it carries is only the part of the machine it never
  touches.
-/
import proofs.«156973_j70892730188381_2_alg».proof.Proof.Gen.KernelIdeal.Launch
import proofs.«156973_j70892730188381_2_alg».proof.Proof.Gen.KernelIdeal.Skeleton
import proofs.«156973_j70892730188381_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The block of window `w`'s table that grid point `t` stages, read off the table as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the block was fetched there or not
    (when it was not, the block index has not moved). -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, whether the block was fetched there or not
    (when it was not, the block index has not moved). -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, whether the block was fetched there or not
    (when it was not, the block index has not moved). -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's staging buffer holds its block at every point, whether the block was fetched there or not
    (when it was not, the block index has not moved). -/
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's staging buffer holds its block at every point, whether the block was fetched there or not
    (when it was not, the block index has not moved). -/
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- The whole staging block as a rectangle. -/
abbrev whole0 : Rect S2000x64 := Rect.unit (s := S2000x64) ![0, 0] S2000x64.size inb_S2000x64_S2000x64_0_0

/-- What the body leaves in the result's staging buffer, from the five input blocks: its one store, of the
    combination of the five blocks, covering the buffer. -/
def comb0 (x0 x1 x2 x3 x4 : Vec F S2000x64 .f32) : Vec F S2000x64 .f32 :=
  View.canon [⟨whole0, k0_pay1 (View.ld x1 whole0) (View.ld x2 whole0) (View.ld x3 whole0) (View.ld x4 whole0) (View.ld x0 whole0)⟩]

/-- The one store covers the buffer. -/
theorem cover0 (p0 : Vec F S2000x64 .f32) (y : S2000x64.Idx) :
    ∃ pc ∈ ([⟨whole0, p0⟩] : List (View.Piece (Elt F) S2000x64 .f32)), y ∈ pc.1.set :=
  View.cover_of_tiled [⟨whole0, p0⟩] S2000x64.size (by rfl) y

set_option maxHeartbeats 4000000 in
/-- The body on whole staging buffers — the inputs' at contents x₀ … x₄, the result's at anything — runs to the
    end leaving the inputs' as they were and the result's at `comb0` of them. -/
theorem body0_triple (c : Dev nD) (E : Set ℕ) (i : grid0.Coords)
    (a0 : Memref sig .tc .vmem S2000x64 .f32) (h0 : a0.IsWhole) (a1 : Memref sig .tc .vmem S2000x64 .f32) (h1 : a1.IsWhole)
    (a2 : Memref sig .tc .vmem S2000x64 .f32) (h2 : a2.IsWhole) (a3 : Memref sig .tc .vmem S2000x64 .f32) (h3 : a3.IsWhole)
    (a4 : Memref sig .tc .vmem S2000x64 .f32) (h4 : a4.IsWhole) (a5 : Memref sig .tc .vmem S2000x64 .f32) (h5 : a5.IsWhole)
    (x0 x1 x2 x3 x4 : Vec F S2000x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (comb0 x0 x1 x2 x3 x4)) -∗ K ⟨⟩))
      ⊢ wp frame (wpE (defs₀ (F := F)) Variants.none c none) E (cc0__combine_kernel i a0 h0 a1 h1 a2 h2 a3 h3 a4 h4 a5 h5) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of the region on core `c`: the tables as the region finds them; after the body at point `t`
    each input's buffer still at its block and the result's at `comb0` of the five input blocks; the invariant is
    the part of the machine the body never touches; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => comb0 (blk0 V c 0 t) (blk0 V c 1 t) (blk0 V c 2 t) (blk0 V c 3 t) (blk0 V c 4 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) : (dat0 V c).after 4 t = blk0 V c 4 t := by dsimp only [dat0]
theorem dat0_after_5 (c : Dev nD) (t : Fin cfg0.N) :
    (dat0 V c).after 5 t = comb0 (blk0 V c 0 t) (blk0 V c 1 t) (blk0 V c 2 t) (blk0 V c 3 t) (blk0 V c 4 t) := by dsimp only [dat0]

theorem dat0_found_0 (c : Dev nD) (t : Fin cfg0.N) (d) : (dat0 V c).before 0 t d = blk0 V c 0 t :=
  found0_0 V (dat0 V c) (dat0_A V c 0) (dat0_after_0 V c) t d
theorem dat0_found_1 (c : Dev nD) (t : Fin cfg0.N) (d) : (dat0 V c).before 1 t d = blk0 V c 1 t :=
  found0_1 V (dat0 V c) (dat0_A V c 1) (dat0_after_1 V c) t d
theorem dat0_found_2 (c : Dev nD) (t : Fin cfg0.N) (d) : (dat0 V c).before 2 t d = blk0 V c 2 t :=
  found0_2 V (dat0 V c) (dat0_A V c 2) (dat0_after_2 V c) t d
theorem dat0_found_3 (c : Dev nD) (t : Fin cfg0.N) (d) : (dat0 V c).before 3 t d = blk0 V c 3 t :=
  found0_3 V (dat0 V c) (dat0_A V c 3) (dat0_after_3 V c) t d
theorem dat0_found_4 (c : Dev nD) (t : Fin cfg0.N) (d) : (dat0 V c).before 4 t d = blk0 V c 4 t :=
  found0_4 V (dat0 V c) (dat0_A V c 4) (dat0_after_4 V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_found_0, dat0_found_1, dat0_found_2, dat0_found_3, dat0_found_4]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5]
  iintro ⟨HΦ, Ho, ⟨%d0, H0⟩, ⟨%d1, H1⟩, ⟨%d2, H2⟩, ⟨%d3, H3⟩, ⟨%d4, H4⟩, ⟨%d5, H5⟩⟩
  iapply (body0_triple c Set.univ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body0_obligation (c : Dev nD) : BodyObligation (dat0 (F := F) V c) (defs₀ (F := F)) Variants.none () Set.univ := fun t => by
  rw [bigSep_W0, bigSep_W0]
  exact body0_at V c t

end Region0

end Cert.KernelIdeal.Run

end
-- ==== Proof.KRegion1.lean ====
/-
  The second kernel region: a row gather through two index tables, and the rows' inner product.

  The region runs over 16384 grid points. Point i stages row u(i) of the user-side table (kept as [100000,1,64])
  and row v(i) of the item-side table ([50000,1,64]), where u and v are the two prefetched index tables, and writes
  back row i of three results: the user row as it is, the item row as it is, and the logistic function of the sum
  over the 64 columns of the two rows' entrywise product. The index maps read the tables, so the windows — and
  with them every statement here — are taken at admissible table contents `a`: contents for which every named row
  lies inside its table. The body itself never looks at the tables; they ride in the invariant from the region's
  entry to its exit.
-/
import proofs.«156973_j70892730188381_2_alg».proof.Proof.Gen.KernelIdeal.Launch
import proofs.«156973_j70892730188381_2_alg».proof.Proof.Gen.KernelIdeal.Skeleton
import proofs.«156973_j70892730188381_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (a : (pcfg1 (F := F)).Adm)
variable (V : (c : Dev nD) → (b : Ref sig .tc) → Buf (Elt F) ((c : Thread nD τ).loc b))

/-- The block of window `w`'s table that grid point `t` stages, read off the table as the region finds it. -/
def blk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- Input window 0's staging buffer holds its block at every point, whether the block was fetched there or not
    (when it was not, the block index has not moved). -/
theorem found1_0 {c : Dev nD} (dat : Dat τ (Elt F) Unit ℕ (UR sig nD τ) ℕ (cfg1 a) c) (hA : dat.A 0 = V c (Pipeline.arrRef spec1 0))
    (hafter : ∀ t, dat.after 0 t = blk1 a V c 0 t) (t : Fin (cfg1 a).N) (d) : dat.before 0 t d = blk1 a V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, whether the block was fetched there or not
    (when it was not, the block index has not moved). -/
theorem found1_1 {c : Dev nD} (dat : Dat τ (Elt F) Unit ℕ (UR sig nD τ) ℕ (cfg1 a) c) (hA : dat.A 1 = V c (Pipeline.arrRef spec1 1))
    (hafter : ∀ t, dat.after 1 t = blk1 a V c 1 t) (t : Fin (cfg1 a).N) (d) : dat.before 1 t d = blk1 a V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- A whole staged row, and the whole one-entry block of the prediction, as rectangles. -/
abbrev wholeRow : Rect S1x1x64 := Rect.unit (s := S1x1x64) ![0, 0, 0] S1x1x64.size inb_S1x1x64_S1x1x64_0_0_0
abbrev wholeOne : Rect S1x1x1 := Rect.unit (s := S1x1x1) ![0, 0, 0] S1x1x1.size inb_S1x1x1_S1x1x1_0_0_0

/-- What the body leaves in the three results' staging buffers, from the two staged rows: one covering store each. -/
def keepU (x0 : Vec F S1x1x64 .f32) : Vec F S1x1x64 .f32 := View.canon [⟨wholeRow, k1_pay1 (View.ld x0 wholeRow)⟩]
def keepI (x1 : Vec F S1x1x64 .f32) : Vec F S1x1x64 .f32 := View.canon [⟨wholeRow, k1_pay2 (View.ld x1 wholeRow)⟩]
def score (x0 x1 : Vec F S1x1x64 .f32) : Vec F S1x1x1 .f32 :=
  View.canon [⟨wholeOne, k1_pay3 (View.ld x0 wholeRow) (View.ld x1 wholeRow)⟩]

theorem coverRow (p0 : Vec F S1x1x64 .f32) (y : S1x1x64.Idx) :
    ∃ pc ∈ ([⟨wholeRow, p0⟩] : List (View.Piece (Elt F) S1x1x64 .f32)), y ∈ pc.1.set :=
  View.cover_of_tiled [⟨wholeRow, p0⟩] S1x1x64.size (by rfl) y
theorem coverOne (p0 : Vec F S1x1x1 .f32) (y : S1x1x1.Idx) :
    ∃ pc ∈ ([⟨wholeOne, p0⟩] : List (View.Piece (Elt F) S1x1x1 .f32)), y ∈ pc.1.set :=
  View.cover_of_tiled [⟨wholeOne, p0⟩] S1x1x1.size (by rfl) y

set_option maxHeartbeats 4000000 in
/-- The body on whole staging buffers — the two rows' at contents x₀, x₁, the three results' at anything — runs to
    the end leaving the rows' as they were and the results' at `keepU x₀`, `keepI x₁`, `score x₀ x₁`. The two
    table operands are not touched. -/
theorem body1_triple (c : Dev nD) (E : Set ℕ) (i : grid1.Coords)
    (t1 : Memref sig .tc .smem S16384 .i32) (ht1 : t1.IsWhole) (t2 : Memref sig .tc .smem S16384 .i32) (ht2 : t2.IsWhole)
    (a0 : Memref sig .tc .vmem S1x1x64 .f32) (h0 : a0.IsWhole) (a1 : Memref sig .tc .vmem S1x1x64 .f32) (h1 : a1.IsWhole)
    (a2 : Memref sig .tc .vmem S1x1x64 .f32) (h2 : a2.IsWhole) (a3 : Memref sig .tc .vmem S1x1x64 .f32) (h3 : a3.IsWhole)
    (a4 : Memref sig .tc .vmem S1x1x1 .f32) (h4 : a4.IsWhole)
    (x0 x1 : Vec F S1x1x64 .f32) (K : PUnit → sProp 𝕄) :
    iprop(owns (c : Thread nD τ) a0 fullShare x0 ∗ owns (c : Thread nD τ) a1 fullShare x1
        ∗ (∃ d, owns (c : Thread nD τ) a2 fullShare d) ∗ (∃ d, owns (c : Thread nD τ) a3 fullShare d) ∗ (∃ d, owns (c : Thread nD τ) a4 fullShare d)
        ∗ (iprop(owns (c : Thread nD τ) a0 fullShare x0 ∗ owns (c : Thread nD τ) a1 fullShare x1
            ∗ owns (c : Thread nD τ) a2 fullShare (keepU x0) ∗ owns (c : Thread nD τ) a3 fullShare (keepI x1)
            ∗ owns (c : Thread nD τ) a4 fullShare (score x0 x1)) -∗ K ⟨⟩))
      ⊢ wp frame (wpE (defs₀ (F := F)) Variants.none c none) E (cc1__gather_kernel i t1 ht1 t2 ht2 a0 h0 a1 h1 a2 h2 a3 h3 a4 h4) K := by
  simp only [cc1__gather_kernel_eq_skeleton]; unfold cc1__gather_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRow _)
  isplitl [H3]
  · iexists _; isplitr
    swap; · iexact H3
    ipureintro
    exact View.read_writes_eq_canon _ _ _ (coverRow _)
  iexists _; isplitr
  swap; · iexact H4
  ipureintro
  exact View.read_writes_eq_canon _ _ _ (coverOne _)

/-- The invariant of the region: the part of the machine the body never touches, and the two index tables, whole,
    at the contents the windows are taken at. -/
def inv1 (c : Dev nD) : sProp 𝕄 :=
  iprop(Pipeline.ΦA spec1 c ∗ Pipeline.prefHeld (Ix := Unit) (Name := ℕ) (U := UR sig nD τ) (Lvl := ℕ) pre1 c (fun _ => fullShare) a.1)

/-- The proof data of the region on core `c`: the tables as the region finds them; after the body at point `t`
    each input row's buffer still at its block and the three results' at `keepU`, `keepI`, `score` of the rows;
    nothing owed; full shares. -/
def dat1 (c : Dev nD) : Dat τ (Elt F) Unit ℕ (UR sig nD τ) ℕ (cfg1 a) c where
  A w := V c (Pipeline.arrRef spec1 w)
  after w t := match w with
    | ⟨0, _⟩ => blk1 a V c 0 t
    | ⟨1, _⟩ => blk1 a V c 1 t
    | ⟨2, _⟩ => keepU (blk1 a V c 0 t)
    | ⟨3, _⟩ => keepI (blk1 a V c 1 t)
    | ⟨4, _⟩ => score (blk1 a V c 0 t) (blk1 a V c 1 t)
  Φ _ := inv1 a c
  q _ := fullShare
  owed _ := 0

theorem dat1_A (c : Dev nD) (w : Fin (cfg1 a).W) : (dat1 a V c).A w = V c (Pipeline.arrRef spec1 w) := by
  dsimp only [dat1]

theorem dat1_after_0 (c : Dev nD) (t : Fin (cfg1 a).N) : (dat1 a V c).after (0 : Fin 5) t = blk1 a V c 0 t := by dsimp only [dat1]
theorem dat1_after_1 (c : Dev nD) (t : Fin (cfg1 a).N) : (dat1 a V c).after (1 : Fin 5) t = blk1 a V c 1 t := by dsimp only [dat1]
theorem dat1_after_2 (c : Dev nD) (t : Fin (cfg1 a).N) : (dat1 a V c).after (2 : Fin 5) t = keepU (blk1 a V c 0 t) := by dsimp only [dat1]
theorem dat1_after_3 (c : Dev nD) (t : Fin (cfg1 a).N) : (dat1 a V c).after (3 : Fin 5) t = keepI (blk1 a V c 1 t) := by dsimp only [dat1]
theorem dat1_after_4 (c : Dev nD) (t : Fin (cfg1 a).N) :
    (dat1 a V c).after (4 : Fin 5) t = score (blk1 a V c 0 t) (blk1 a V c 1 t) := by dsimp only [dat1]

theorem dat1_found_0 (c : Dev nD) (t : Fin (cfg1 a).N) (d) : (dat1 a V c).before (0 : Fin 5) t d = blk1 a V c 0 t :=
  found1_0 a V (dat1 a V c) (dat1_A a V c 0) (dat1_after_0 a V c) t d
theorem dat1_found_1 (c : Dev nD) (t : Fin (cfg1 a).N) (d) : (dat1 a V c).before (1 : Fin 5) t d = blk1 a V c 1 t :=
  found1_1 a V (dat1 a V c) (dat1_A a V c 1) (dat1_after_1 a V c) t d

/-- Window `w`'s current staging buffer at point `t`. -/
abbrev st1 (w : Fin (cfg1 a).W) (t : Fin (cfg1 a).N) := ((cfg1 a).win w).stage ((cfg1 a).slots t w)

/-- The body as the region calls it at point `t`. -/
abbrev bodyAt1 (t : Fin (cfg1 a).N) : Prog (TpuEff nD τ sig (Elt F) Λ₀ .tc) PUnit :=
  cc1__gather_kernel (grid1.coords t) (Memref.whole main_arg2) (Memref.isWhole_whole _) (Memref.whole main_arg3) (Memref.isWhole_whole _)
    (spec1_0.stage ((cfg1 a).slots t (0 : Fin 5))) (hstage1_0 (((cfg1 a).slots t (0 : Fin 5)).cast nbuf1_0))
    (spec1_1.stage ((cfg1 a).slots t (1 : Fin 5))) (hstage1_1 (((cfg1 a).slots t (1 : Fin 5)).cast nbuf1_1))
    (spec1_2.stage ((cfg1 a).slots t (2 : Fin 5))) (hstage1_2 (((cfg1 a).slots t (2 : Fin 5)).cast nbuf1_2))
    (spec1_3.stage ((cfg1 a).slots t (3 : Fin 5))) (hstage1_3 (((cfg1 a).slots t (3 : Fin 5)).cast nbuf1_3))
    (spec1_4.stage ((cfg1 a).slots t (4 : Fin 5))) (hstage1_4 (((cfg1 a).slots t (4 : Fin 5)).cast nbuf1_4))

/-- What the body is called with at point `t`, the windows one by one, -/
def pre1' (c : Dev nD) (t : Fin (cfg1 a).N) : sProp 𝕄 :=
  iprop((dat1 a V c).Φ t.castSucc ∗ (dat1 a V c).owesAt () t.castSucc
    ∗ (∃ d, owns (c : Thread nD τ) (st1 a (0 : Fin 5) t) fullShare ((dat1 a V c).before (0 : Fin 5) t d))
    ∗ (∃ d, owns (c : Thread nD τ) (st1 a (1 : Fin 5) t) fullShare ((dat1 a V c).before (1 : Fin 5) t d))
    ∗ (∃ d, owns (c : Thread nD τ) (st1 a (2 : Fin 5) t) fullShare ((dat1 a V c).before (2 : Fin 5) t d))
    ∗ (∃ d, owns (c : Thread nD τ) (st1 a (3 : Fin 5) t) fullShare ((dat1 a V c).before (3 : Fin 5) t d))
    ∗ (∃ d, owns (c : Thread nD τ) (st1 a (4 : Fin 5) t) fullShare ((dat1 a V c).before (4 : Fin 5) t d)))

/-- and what it returns. -/
def post1' (c : Dev nD) (t : Fin (cfg1 a).N) : sProp 𝕄 :=
  iprop((dat1 a V c).Φ t.succ ∗ (dat1 a V c).owesAt () t.succ
    ∗ owns (c : Thread nD τ) (st1 a (0 : Fin 5) t) fullShare ((dat1 a V c).after (0 : Fin 5) t)
    ∗ owns (c : Thread nD τ) (st1 a (1 : Fin 5) t) fullShare ((dat1 a V c).after (1 : Fin 5) t)
    ∗ owns (c : Thread nD τ) (st1 a (2 : Fin 5) t) fullShare ((dat1 a V c).after (2 : Fin 5) t)
    ∗ owns (c : Thread nD τ) (st1 a (3 : Fin 5) t) fullShare ((dat1 a V c).after (3 : Fin 5) t)
    ∗ owns (c : Thread nD τ) (st1 a (4 : Fin 5) t) fullShare ((dat1 a V c).after (4 : Fin 5) t))

/-- The body at any point: the two rows' buffers hold their blocks, so the body's triple applies; the invariant
    (the tables among it) and what the core owes pass through unread. -/
theorem body1_at (c : Dev nD) (t : Fin (cfg1 a).N) :
    pre1' a V c t ⊢ wp frame (wpE (defs₀ (F := F)) Variants.none c none) Set.univ (bodyAt1 a t) (fun _ => post1' a V c t) := by
  unfold pre1' post1' bodyAt1
  simp only [dat1_found_0, dat1_found_1]
  rw [show (dat1 a V c).Φ t.succ = (dat1 a V c).Φ t.castSucc from rfl,
    show (dat1 a V c).owesAt () t.succ = (dat1 a V c).owesAt () t.castSucc from rfl,
    dat1_after_0, dat1_after_1, dat1_after_2, dat1_after_3, dat1_after_4]
  iintro ⟨HΦ, Ho, ⟨%d0, H0⟩, ⟨%d1, H1⟩, ⟨%d2, H2⟩, ⟨%d3, H3⟩, ⟨%d4, H4⟩⟩
  iapply (body1_triple c Set.univ _ _ _ _ _ _ _ _ _ _ _ _ _ _ _ (blk1 a V c 0 t) (blk1 a V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region, at every point. -/
theorem body1_obligation (c : Dev nD) : BodyObligation (dat1 (F := F) a V c) (defs₀ (F := F)) Variants.none () Set.univ := fun t => by
  rw [bigSep_W1, bigSep_W1]
  exact body1_at a V c t

end Region1

end Cert.KernelIdeal.Run

end
-- ==== Proof.KRun.lean ====
/-
  The whole run of the kernel program: host operations, the combining region, two reshapes, the gathering region,
  three reshapes.

  The buffers' contents are followed from the launch through the five segments: after the long host stretch
  (W1); after the first region, whose result table holds what its write-backs left and every other buffer what it
  held (W2); after the reshapes that give both tables a unit middle axis (W3); after the second region, whose three
  results hold what its write-backs left (W4); after the reshapes that drop the unit axes (W5). No segment writes an
  argument, so each argument can be read back through the five steps to its launch contents. The second region's
  windows are indexed through the two index tables, which are arguments: the run is stated at admissible table
  contents `a1` that the launch memory holds (`ha`), carved out of the untouched buffers when the region is entered
  and put back when it is left. Every weakly fair execution terminates, and in every final state each buffer
  outside the kernels' staging memory holds its W5 contents.
-/
import proofs.«156973_j70892730188381_2_alg».proof.Proof.KRegion0
import proofs.«156973_j70892730188381_2_alg».proof.Proof.KRegion1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arguments are written by no host operation -/

/-- The eight argument buffers. -/
abbrev argRefs : List (Ref sig .tc) := [main_arg0, main_arg1, main_arg2, main_arg3, main_arg4, main_arg5, main_arg6, main_arg7]

set_option maxHeartbeats 4000000 in
/-- No operation of the first host stretch writes an argument. -/
theorem host0_keeps (V : Valuation τ sig (Elt F)) (b : Ref sig .tc) (hb : b ∈ argRefs) :
    StableHlo.after (hostOps0 (F := F)) V (Proc.devRef .tc b) = V (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

/-- No operation of the second host stretch writes an argument. -/
theorem host1_keeps (V : Valuation τ sig (Elt F)) (b : Ref sig .tc) (hb : b ∈ argRefs) :
    StableHlo.after (hostOps1 (F := F)) V (Proc.devRef .tc b) = V (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

/-- No operation of the third host stretch writes an argument. -/
theorem host2_keeps (V : Valuation τ sig (Elt F)) (b : Ref sig .tc) (hb : b ∈ argRefs) :
    StableHlo.after (hostOps2 (F := F)) V (Proc.devRef .tc b) = V (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

/-! ## The contents at each boundary -/

section Fold

variable (m : (ℓ : Loc nD τ sig) → Buf (Elt F) ℓ) (ρ : Dev nD → PrngReg) (a1 : (pcfg1 (F := F)).Adm)

/-- Core `c`'s buffers at launch. -/
abbrev W0 : Dev nD → Valuation τ sig (Elt F) := fun c b => (s₀ m ρ).mem ((c : Dev nD), b)
/-- After the long host stretch: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its tables at what the region leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (dat0 (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two reshapes: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 a1 (V3 m ρ) c).arrAt w (cfg1 a1).N
theorem W4_arr (c : Dev nD) (w : Fin 5) :
    W4 m ρ a1 c (Proc.devRef .tc (Pipeline.arrRef spec1 w)) = (dat1 a1 (V3 m ρ) c).arrAt w (cfg1 a1).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ a1 c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ a1 c b
theorem exit1_arr (c : Dev nD) (w : Fin 5) : (dat1 a1 (V3 m ρ) c).arrAt w (cfg1 a1).N = V4 m ρ a1 c (Pipeline.arrRef spec1 w) :=
  (W4_arr m ρ a1 c w).symm
theorem exit1_rest (c : Dev nD) : ∀ b, b ∉ Finset.univ.image (Pipeline.arrRef spec1) → V4 m ρ a1 c b = V3 m ρ c b :=
  fun b hb => W4_of_ne m ρ a1 c b fun w e => hb (Finset.mem_image.mpr ⟨w, Finset.mem_univ _, e⟩)
/-- After the last three reshapes: the final contents. -/
abbrev W5 : Dev nD → Valuation τ sig (Elt F) := fun c => StableHlo.after hostOps2 (W4 m ρ a1 c)

/-! ### Each argument read back to the launch -/

theorem W1_arg (c : Dev nD) (b : Ref sig .tc) (hb : b ∈ argRefs) : W1 m ρ c (Proc.devRef .tc b) = m ((c : Thread nD τ).loc b) :=
  host0_keeps _ b hb
/-- The first region reads the user embedding through an input window and names no other argument. -/
theorem W2_arg (c : Dev nD) (b : Ref sig .tc) (hb : b ∈ argRefs) : W2 m ρ c (Proc.devRef .tc b) = m ((c : Thread nD τ).loc b) := by
  by_cases h0 : b = main_arg0
  · subst h0
    exact ((W2_arr m ρ c 0).trans (((dat0 (V1 m ρ) c).arrAt_in 0 rfl _).trans (dat0_A (V1 m ρ) c 0))).trans (W1_arg m ρ c main_arg0 (by decide))
  · refine (W2_of_ne m ρ c b ?_).trans (W1_arg m ρ c b hb)
    intro w e
    subst e
    revert hb h0 w
    decide
theorem W3_arg (c : Dev nD) (b : Ref sig .tc) (hb : b ∈ argRefs) : W3 m ρ c (Proc.devRef .tc b) = m ((c : Thread nD τ).loc b) :=
  (host1_keeps _ b hb).trans (W2_arg m ρ c b hb)
/-- The second region's windows are over the two reshaped tables and its three results: no argument. -/
theorem W4_arg (c : Dev nD) (b : Ref sig .tc) (hb : b ∈ argRefs) : W4 m ρ a1 c (Proc.devRef .tc b) = m ((c : Thread nD τ).loc b) := by
  refine (W4_of_ne m ρ a1 c b ?_).trans (W3_arg m ρ c b hb)
  intro w e
  subst e
  revert hb w
  decide
theorem W5_arg (c : Dev nD) (b : Ref sig .tc) (hb : b ∈ argRefs) : W5 m ρ a1 c (Proc.devRef .tc b) = m ((c : Thread nD τ).loc b) :=
  (host2_keeps _ b hb).trans (W4_arg m ρ a1 c b hb)

/-- The two index tables hold, when the second region is entered, the contents the windows are taken at. -/
theorem tables_at_entry (ha : ∀ (c : Dev nD) (k : Fin pre1.K), m ((c : Thread nD τ).loc (pre1.ref k)) = a1.1 k) (c : Dev nD) :
    (fun k : Fin pre1.K => V3 m ρ c (pre1.ref k)) = a1.1 := by
  funext k
  refine Eq.trans ?_ (ha c k)
  match k with
  | ⟨0, _⟩ => exact W3_arg m ρ c main_arg2 (by decide)
  | ⟨1, _⟩ => exact W3_arg m ρ c main_arg3 (by decide)

/-! ## The proof data of both regions and the thread state -/

/-- The tables' contents per region: the first region has none. -/
abbrev adm : (p : Fin 2) → (pcfgs (F := F) p).Adm
  | ⟨0, _⟩ => cfg0.toPCfg_adm
  | ⟨1, _⟩ => a1
/-- Both regions' proof data, each at its region's entry contents. -/
def pdats : (p : Fin 2) → (c : Dev nD) → Dat τ (Elt F) Unit ℕ (UR sig nD τ) ℕ (Pipeline.pin (pcfgs (F := F)) (adm a1) p) c
  | ⟨0, _⟩ => fun c => dat0 (V1 m ρ) c
  | ⟨1, _⟩ => fun c => dat1 a1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [hostOps0, List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer outside the staging memory at its final contents. -/
abbrev Tend (c : Dev nD) : sProp 𝕄 := iprop(StableHlo.held (c : Thread nD τ) (Pipeline.ucRefs τ sig) (W5 m ρ a1 c) ∗ ∃ r, prngReg c r)

/-! ## The two regions as segments -/

set_option backward.isDefEq.respectTransparency.types false in
/-- The combining region: entered from every buffer at W1, left at W2. -/
def reg0 : Pipeline.RegionSeg (pcfgs (F := F)) (adm a1) (pdats m ρ a1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body0_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm a1) (pdats m ρ a1) (launch0 (F := F)).win (launch0 (F := F)).arr_whole c
      ((pdats m ρ a1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ a1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m ρ a1) ((pdats m ρ a1 0 c).share_full fun _ => rfl)
      (V1 m ρ c) (V2 m ρ c) ((pdats m ρ a1 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gathering region: entered from every buffer at W3, left at W4. At entry the two index tables are taken out
    of the buffers the region does not stage and handed to it at the contents its windows are taken at; at exit they
    come back unchanged. -/
def reg1 (ha : ∀ (c : Dev nD) (k : Fin pre1.K), m ((c : Thread nD τ).loc (pre1.ref k)) = a1.1 k) :
    Pipeline.RegionSeg (pcfgs (F := F)) (adm a1) (pdats m ρ a1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body1_obligation a1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ a1 c) ∗ R c)
  X c := iprop(∃ r, prngReg c r)
  Y c := iprop((∃ r, prngReg c r) ∗ Pipeline.prefHeld (Ix := Unit) (Name := ℕ) (U := UR sig nD τ) (Lvl := ℕ) pre1 c (fun _ => fullShare) a1.1)
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) (adm a1) (pdats m ρ a1) (launch1 (F := F)).win (launch1 (F := F)).arr_whole c
      ((pdats m ρ a1 1 c).share_full fun _ => rfl) (V3 m ρ c) fun _ => rfl
    have hcarve := Pipeline.unscopedRest_split (Ix := Unit) (Name := ℕ) (U := UR sig nD τ) (Lvl := ℕ) (win := spec1) (pre := pre1) (launch1 (F := F)).pre c (V3 m ρ c)
    rw [tables_at_entry m ρ a1 ha c] at hcarve
    rw [Pipeline.unscopedBufs_held] at hsplit
    iintro ⟨⟨Hub, Hp, HO⟩, -, -⟩
    ihave H := hsplit $$ Hub
    icases H with ⟨Ha, Hrest⟩
    ihave Hc := (Entails.of_eq hcarve) $$ Hrest
    icases Hc with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a1 1 c).Φ 0 = inv1 a1 c from rfl]; unfold inv1 Pipeline.ΦA
    iintro ⟨Hp, Ht, Hr⟩
    isplitr [Ht]
    · isplitl [Hr]; · iexact Hr
      iexact Hp
    iexact Ht
  hout c := by
    rw [Pipeline.ownSems0_none, show (pdats m ρ a1 1 c).Φ (Fin.last _) = inv1 a1 c from rfl]; unfold inv1 Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm a1) (Ix := Unit) (Name := ℕ) (U := UR sig nD τ) (Lvl := ℕ)
      (launch1 (F := F)).win (launch1 (F := F)).arr_whole c (pdats m ρ a1) ((pdats m ρ a1 1 c).share_full fun _ => rfl)
      (V3 m ρ c) (V4 m ρ a1 c) ((pdats m ρ a1 1 c).arrAt · (cfg1 a1).N) (exit1_arr m ρ a1 c) (exit1_rest m ρ a1 c)
    have hcarve := Pipeline.unscopedRest_split (Ix := Unit) (Name := ℕ) (U := UR sig nD τ) (Lvl := ℕ) (win := spec1) (pre := pre1) (launch1 (F := F)).pre c (V3 m ρ c)
    rw [tables_at_entry m ρ a1 ha c] at hcarve
    rw [Pipeline.unscopedBufs_held] at hjoin
    iintro ⟨Ha, HO, ⟨Hp, Ht⟩, Hrest⟩
    ihave Hc := (Entails.of_eq hcarve.symm) $$ [Ht Hrest]
    · isplitl [Ht]; · iexact Ht
      iexact Hrest
    imodintro
    isplitl [Ha Hc]
    · iapply hjoin; isplitl [Ha] <;> iassumption
    isplitl [Hp]; · iexact Hp
    unfold Pipeline.Dat.owesAt Pipeline.owesWithin
    icases HO with ⟨%W, -, HO⟩; iexists W; iexact HO

/-! ## @main as five segments, and the launch -/

abbrev segs (ha : ∀ (c : Dev nD) (k : Fin pre1.K), m ((c : Thread nD τ).loc (pre1.ref k)) = a1.1 k) :
    List (Pipeline.Seg (pcfgs (F := F)) (adm a1) (pdats m ρ a1) () defs₀ 𝒱₀ L lv) :=
  [ .host (hseg hostOps0 hostOps0_sub hostOps0_fresh (W0 m ρ)),
    .region (reg0 m ρ a1),
    .host (hseg hostOps1 hostOps1_sub hostOps1_fresh (W2 m ρ)),
    .region (reg1 m ρ a1 ha),
    .host (hseg hostOps2 hostOps2_sub hostOps2_fresh (W4 m ρ a1)) ]

theorem main_run (ha : ∀ (c : Dev nD) (k : Fin pre1.K), m ((c : Thread nD τ).loc (pre1.ref k)) = a1.1 k) (c : Dev nD) :
    main (F := F) c = Pipeline.Seg.run (segs m ρ a1 ha) := (main_chain c).trans (by chain_rfl)

set_option backward.isDefEq.respectTransparency.types false in
/-- The run: from any memory with zero counters whose index tables hold `a1`, every weakly fair execution of
    @main terminates, nothing faulting, and in every final state each buffer outside the staging memory holds its
    W5 contents. -/
theorem run_all (ha : ∀ (c : Dev nD) (k : Fin pre1.K), m ((c : Thread nD τ).loc (pre1.ref k)) = a1.1 k) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ a1 c b) :=
  Pipeline.θ_run_regions_kit (pcfgs (F := F)) (adm a1) (pdats m ρ a1) () (cellOf_inj (adm a1)) emb₁ defs₀ 𝒱₀ L lv m ρ main (segs m ρ a1 ha)
    (fun c Q => by rw [main_run m ρ a1 ha c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a1)) (cellOf_inj (adm a1))) (Pipeline.launchToks (Pipeline.pin (pcfgs (F := F)) (adm a1)) (cellOf_inj (adm a1))))
    (hu₀ := by
      iintro Hu; imodintro
      isplitl [Hu]
      · iapply (show (ownU (initOf (Pipeline.cells (Pipeline.pin (pcfgs (F := F)) (adm a1)) (cellOf_inj (adm a1))) (Pipeline.launchToks (Pipeline.pin (pcfgs (F := F)) (adm a1)) (cellOf_inj (adm a1)))) : sProp 𝕄)
            ⊢ BI.own (emb₁ (initOf (Pipeline.cells (Pipeline.pin (pcfgs (F := F)) (adm a1)) (cellOf_inj (adm a1))) (Pipeline.launchToks (Pipeline.pin (pcfgs (F := F)) (adm a1)) (cellOf_inj (adm a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ a1)
    (hch := ⟨fun _ => .rfl, fun _ => .rfl, fun _ => .rfl, fun _ => .rfl, fun _ => .rfl, fun c => show iprop(StableHlo.held (c : Thread nD τ) (Pipeline.ucRefs τ sig) (W5 m ρ a1 c) ∗ R c)
        ⊢ iprop(Tend m ρ a1 c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ a1 c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ a1 c) s')
      isplitl [Hh] <;> iassumption)
    (hQ := fun s h => h)

end Fold

end Cert.KernelIdeal.Run

end
-- ==== Proof.IndexRange.lean ====
/-
  The precondition bounds the two index vectors.

  The precondition is a scalar one-bit word, the conjunction of four "for all" tests, each formed as an
  all-reduction by "and" (started from 1) of a vector of one-bit words. Its last two conjuncts say, of every word
  w of the user-index vector, that 0 ≤ w and w < 100000 read as signed 32-bit integers, and of every word w of the
  item-index vector, that 0 ≤ w and w < 50000 read signed.

  * An all-reduction by "and" into a result with one index equals 1 only if every operand entry is 1; an "and" of
    two one-bit words is 1 only if both are. Hence, at every index, both signed comparisons hold (`range_of_all`).
  * A 32-bit word w with 0 ≤ w (signed) has its top bit clear, so its signed and unsigned readings agree; with
    w < n (signed) for a literal n < 2³¹, whose signed reading is n itself, the unsigned reading of w is below n
    (`toNat_lt_of_signed`).

  Nothing here depends on the float instance: the index vectors are integer inputs.
-/
import proofs.«156973_j70892730188381_2_alg».proof.Pre_finite_inputs
import Idealize.ShloMosaic.Lib.ValueIdx
import Idealize.ShloMosaic.Lib.ReduceAll

noncomputable section

namespace Cert.IndexRange

open Idealize.ShloMosaic Idealize.ShloMosaic.ValueIdx

/-- The scalar shape has exactly one index. -/
instance subsingleton_scalar_idx : Subsingleton Cert.Pre_finite_inputs.S_.Idx :=
  ⟨fun a b => funext fun d => d.elim0⟩

/-- A 32-bit word that reads, signed, at least 0 and below the literal n (with n < 2³¹) reads, unsigned, below n. -/
theorem toNat_lt_of_signed (w : BitVec 32) (n : Nat) (hn : n < 2 ^ 31)
    (h0 : IntOp.cmpi .sge w (0#32) = 1#1) (h1 : IntOp.cmpi .slt w (BitVec.ofNat 32 n) = 1#1) : w.toNat < n := by
  rw [IntOp.cmpi_sge] at h0
  rw [IntOp.cmpi_slt] at h1
  have hz : (0#32 : BitVec 32).toInt = 0 := by decide
  rw [hz] at h0
  have hw : 2 * w.toNat < 2 ^ 32 := BitVec.toInt_pos_iff.1 h0
  have hnN : (BitVec.ofNat 32 n).toNat = n := by rw [BitVec.toNat_ofNat]; omega
  have hwI : w.toInt = (w.toNat : Int) := BitVec.toInt_eq_toNat_of_lt hw
  have hnI : (BitVec.ofNat 32 n).toInt = (n : Int) := by
    rw [BitVec.toInt_eq_toNat_of_lt (by rw [hnN]; omega), hnN]
  rw [hwI, hnI] at h1
  omega

/-- An all-reduction by "and", into a result with one index, of the entrywise conjunction of a signed
    "at least" test and a signed "below" test is 1 only if both tests hold at every index. -/
theorem range_of_all {s t u : Shape} {axes : List (Fin s.rank)} [Subsingleton t.Idx]
    (x lo hi : IVec s 32) (init : IVec u 1) (hr : s.ReducesTo axes t) (hu : 0 < u.numel) (j : t.Idx)
    (e : Host.reduce IntOp.andi (andi (cmpi .sge x lo) (cmpi .slt x hi)) init hr hu j = 1#1) (i : s.Idx) :
    IntOp.cmpi .sge (x i) (lo i) = 1#1 ∧ IntOp.cmpi .slt (x i) (hi i) = 1#1 :=
  IntOp.andi_eq_one.1 (Host.reduce_andi_all _ init hr hu j e i)

/-- The entrywise "and" of two vectors read at an index is the "and" of the two entries. -/
theorem andi_apply {s : Shape} {w : Nat} (x y : IVec s w) (i : s.Idx) : andi x y i = IntOp.andi (x i) (y i) := rfl

/-- Under the precondition every user-index word is below 100000 and every item-index word below 50000,
    read unsigned. -/
theorem of_pre {F : FTy → Type} [FloatOps F] [Cert.Pre_finite_inputs.Facts]
    (a0 : FVec F Cert.Pre_finite_inputs.S100000x64 .f32) (a1 : FVec F Cert.Pre_finite_inputs.S50000x64 .f32)
    (a2 a3 : IVec Cert.Pre_finite_inputs.S16384 32) (a4 a5 a6 a7 : IVec Cert.Pre_finite_inputs.S1000000 32)
    (h : Cert.Pre_finite_inputs.fn (F := F) a0 a1 a2 a3 a4 a5 a6 a7 = fun _ => 1#1) :
    (∀ i, (a2 i).toNat < 100000) ∧ (∀ i, (a3 i).toNat < 50000) := by
  have h0 := congrFun h ix0
  unfold Cert.Pre_finite_inputs.fn Cert.Pre_finite_inputs.fn_part1 at h0
  dsimp only at h0
  -- the scalar conjunction read at its one index is the conjunction of the four reductions read there
  obtain ⟨h1, hI⟩ := IntOp.andi_eq_one.1 (andi_apply _ _ _ ▸ h0)
  obtain ⟨_, hU⟩ := IntOp.andi_eq_one.1 (andi_apply _ _ _ ▸ h1)
  refine ⟨fun i => ?_, fun i => ?_⟩
  · obtain ⟨l, u⟩ := range_of_all _ _ _ _ _ _ _ hU i
    exact toNat_lt_of_signed _ 100000 (by norm_num) l u
  · obtain ⟨l, u⟩ := range_of_all _ _ _ _ _ _ _ hI i
    exact toNat_lt_of_signed _ 50000 (by norm_num) l u

end Cert.IndexRange

end
-- ==== Proof.KTables.lean ====
/-
  The second kernel's two row-selecting index maps, read back.

  The second kernel is handed two tables of 16384 index words each. At grid point i its first input window names
  the row (t₀[i], 0, 0) of a table of shape [100000, 1, 64] and its second the row (t₁[i], 0, 0) of a table of shape
  [50000, 1, 64], where t₀[i] and t₁[i] are the words the two tables hold at position i, read unsigned.

  * The word an index map reads is the table's word at the one position of a one-element rectangle whose offset is
    the grid coordinate turned into a 32-bit word and read back unsigned; the coordinate is below 16384 < 2³², so
    the offset is the coordinate itself (`word0`, `word1`).
  * If every word of the first table is below 100000 and every word of the second below 50000, each named row lies
    inside its table: (t + 1)·1 ≤ 100000 resp. 50000 on the row axis, (0 + 1)·1 ≤ 1 and (0 + 1)·64 ≤ 64 on the
    other two; the element type is 32 bits wide, so the transfers move whole words (`ok_of_range`).
-/
import proofs.«156973_j70892730188381_2_alg».proof.KernelIdeal
import Idealize.ShloMosaic.Lib.ValueIdx

noncomputable section

namespace Cert.KernelIdeal.Tables

open Idealize.ShloMosaic Idealize.SL.Sem
open Cert.KernelIdeal Cert.KernelIdeal.Facts₀ Cert.KernelIdeal.Facts

variable {F : FTy → Type} [FloatOps F] [Facts]

/-- The first table's word at an index. -/
abbrev tab0 (pf : pre1.Contents (Elt F)) (j : S16384.Idx) : BitVec 32 := pf 0 j
/-- The second table's word at an index. -/
abbrev tab1 (pf : pre1.Contents (Elt F)) (j : S16384.Idx) : BitVec 32 := pf 1 j

/-- A grid point's coordinate as an index of the tables. -/
abbrev rowIdx (i : grid1.Coords) : S16384.Idx := ValueIdx.ix1 (n := 16384) (i 0)

/-- The first table read through a one-element rectangle whose one position lies at a grid point's coordinate is
    the table's word at that coordinate. -/
theorem at0 (pf : pre1.Contents (Elt F)) (i : grid1.Coords) (r : Rect S16384) (h1 : r.shape.numel = 1)
    (hr : ∀ j : r.shape.Idx, (r.emb j (0 : Fin 1)).val = (i 0).val) : pf.at 0 r h1 = tab0 pf (rowIdx i) := by
  show pf 0 _ = pf 0 _
  congr 1
  funext a
  apply Fin.ext
  match a with
  | ⟨0, _⟩ => exact hr _

/-- The same for the second table. -/
theorem at1 (pf : pre1.Contents (Elt F)) (i : grid1.Coords) (r : Rect S16384) (h1 : r.shape.numel = 1)
    (hr : ∀ j : r.shape.Idx, (r.emb j (0 : Fin 1)).val = (i 0).val) : pf.at 1 r h1 = tab1 pf (rowIdx i) := by
  show pf 1 _ = pf 1 _
  congr 1
  funext a
  apply Fin.ext
  match a with
  | ⟨0, _⟩ => exact hr _

/-- The one position of the one-element rectangle whose offset is a grid point's coordinate, made a 32-bit word and
    read back unsigned, is that coordinate: the coordinate is below 16384 < 2³², and the position inside a
    one-element rectangle is 0. -/
theorem unit_pos (i : grid1.Coords)
    (inb : ∀ a, (![(Scalar.indexCast (BitVec.ofNat 32 (i 0).val)).toNat] : Fin 1 → Nat) a + S1.size a ≤ S16384.size a)
    (j : (Rect.unit (s := S16384) ![(Scalar.indexCast (BitVec.ofNat 32 (i 0).val)).toNat] S1.size inb).shape.Idx) :
    ((Rect.unit (s := S16384) ![(Scalar.indexCast (BitVec.ofNat 32 (i 0).val)).toNat] S1.size inb).emb j (0 : Fin 1)).val
      = (i 0).val := by
  have hj : (j 0).val < 1 := (j 0).isLt
  have hi : (i 0).val < 16384 := (i 0).isLt
  show (BitVec.ofNat 32 (i 0).val).toNat + 1 * (j 0).val = (i 0).val
  rw [BitVec.toNat_ofNat]
  omega

/-- The first window's index map at a grid point: the row named by the first table's word there. -/
theorem word0 (pf : pre1.Contents (Elt F)) (i : grid1.Coords) :
    cc1_transform_0 k1_off1_inb numel1_S1 pf i = ![(tab0 pf (rowIdx i)).toNat, 0, 0] :=
  congrArg (fun w : BitVec 32 => (![w.toNat, 0, 0] : Fin 3 → Nat))
    (at0 pf i (Rect.unit (s := S16384) ![(Scalar.indexCast (BitVec.ofNat 32 (i 0).val)).toNat] S1.size (k1_off1_inb i))
      numel1_S1 (unit_pos i (k1_off1_inb i)))

/-- The second window's index map at a grid point: the row named by the second table's word there. -/
theorem word1 (pf : pre1.Contents (Elt F)) (i : grid1.Coords) :
    cc1_transform_1 k1_off1_inb numel1_S1 pf i = ![(tab1 pf (rowIdx i)).toNat, 0, 0] :=
  congrArg (fun w : BitVec 32 => (![w.toNat, 0, 0] : Fin 3 → Nat))
    (at1 pf i (Rect.unit (s := S16384) ![(Scalar.indexCast (BitVec.ofNat 32 (i 0).val)).toNat] S1.size (k1_off1_inb i))
      numel1_S1 (unit_pos i (k1_off1_inb i)))

/-- If every word of the first table is below 100000 and every word of the second below 50000, every row the two
    windows name lies inside its table, and the transfers (of 32-bit elements) move whole words. -/
theorem ok_of_range (pf : pre1.Contents (Elt F)) (h0 : ∀ j : S16384.Idx, (tab0 pf j).toNat < 100000)
    (h1 : ∀ j : S16384.Idx, (tab1 pf j).toNat < 50000) : ok1 pf := by
  unfold ok1
  refine ⟨fun i => ⟨fun a => ?_, Or.inl rfl⟩, fun i => ⟨fun a => ?_, Or.inl rfl⟩⟩
  · rw [word0]
    have hw := h0 (rowIdx i)
    match a with
    | ⟨0, _⟩ => show ((tab0 pf (rowIdx i)).toNat + 1) * 1 ≤ 100000; omega
    | ⟨1, _⟩ => show (0 + 1) * 1 ≤ 1; omega
    | ⟨2, _⟩ => show (0 + 1) * 64 ≤ 64; omega
  · rw [word1]
    have hw := h1 (rowIdx i)
    match a with
    | ⟨0, _⟩ => show ((tab1 pf (rowIdx i)).toNat + 1) * 1 ≤ 50000; omega
    | ⟨1, _⟩ => show (0 + 1) * 1 ≤ 1; omega
    | ⟨2, _⟩ => show (0 + 1) * 64 ≤ 64; omega

end Cert.KernelIdeal.Tables

end
-- ==== Proof.KFrame.lean ====
/-
  The frame of the kernel program from its precondition.

  The program's second region is indexed through the two index tables, which are arguments: the tables the windows
  are taken at are read off the launch memory (there is one device). The precondition bounds every index word — a
  user index below 100000, an item index below 50000 — which is exactly what makes every named row lie inside its
  table. The run then ends with every argument at its launch contents.
-/
import proofs.«156973_j70892730188381_2_alg».proof.Defs
import proofs.«156973_j70892730188381_2_alg».proof.Proof.KRun
import proofs.«156973_j70892730188381_2_alg».proof.Proof.IndexRange
import proofs.«156973_j70892730188381_2_alg».proof.Proof.KTables

set_option maxRecDepth 16384

noncomputable section

namespace Cert.KernelIdeal.Run

open Cert.KernelIdeal Cert.KernelIdeal.Gen
open Idealize.ShloMosaic Idealize.ShloMosaic.TcCoe
open Idealize.SL Idealize.SL.Sem

variable [Cert.Pre_finite_inputs.Facts]
variable (m : (ℓ : Loc nD τ sig) → Buf (Elt Ideal) ℓ) (ρ : Dev nD → PrngReg)

/-- The two index tables as the launch memory holds them. -/
def tablesOf : pre1.Contents (Elt Ideal) := fun k => m (((0 : Dev nD) : Thread nD τ).loc (pre1.ref k))

/-- There is one device: every core's tables are these. -/
theorem tablesOf_all (c : Dev nD) (k : Fin pre1.K) : m ((c : Thread nD τ).loc (pre1.ref k)) = tablesOf m k := by
  have hc : c = 0 := Subsingleton.elim _ _
  subst hc; rfl

/-- Under the precondition every row the tables name lies inside its table. -/
theorem tables_ok (hpre : Cert.Pre_KernelIdeal m) : ok1 (tablesOf m) :=
  Tables.ok_of_range (tablesOf m)
    (fun j => (Cert.IndexRange.of_pre _ _ _ _ _ _ _ _ (hpre 0)).1 j)
    (fun j => (Cert.IndexRange.of_pre _ _ _ _ _ _ _ _ (hpre 0)).2 j)

/-- The tables of the launch memory, admissible under the precondition. -/
def admOf (hpre : Cert.Pre_KernelIdeal m) : (pcfg1 (F := Ideal)).Adm := ⟨tablesOf m, tables_ok m hpre⟩

/-- The run under the precondition: every buffer outside the staging memory ends at its final contents. -/
theorem run_of_pre (hpre : Cert.Pre_KernelIdeal m) :
    θ_run defs (onTc (τ := τ) (main (F := Ideal))) ⟨m, fun _ => 0, ρ⟩ (fun r => ∀ c : Dev nD,
      ∀ b ∈ Pipeline.ucRefs τ sig, r.2.mem (((c : Thread nD τ)).1, b) = W5 m ρ (admOf m hpre) c b) :=
  run_all m ρ (admOf m hpre) (tablesOf_all m)

/-- The frame: under the precondition the program runs to the end without a fault and every argument ends as
    launched. -/
theorem frame_of_pre (hpre : Cert.Pre_KernelIdeal m) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W5_arg m ρ (admOf m hpre) c main_arg0 (by decide)),
      (h c _ (mem_uc main_arg1 (by decide))).trans (W5_arg m ρ (admOf m hpre) c main_arg1 (by decide)),
      (h c _ (mem_uc main_arg2 (by decide))).trans (W5_arg m ρ (admOf m hpre) c main_arg2 (by decide)),
      (h c _ (mem_uc main_arg3 (by decide))).trans (W5_arg m ρ (admOf m hpre) c main_arg3 (by decide)),
      (h c _ (mem_uc main_arg4 (by decide))).trans (W5_arg m ρ (admOf m hpre) c main_arg4 (by decide)),
      (h c _ (mem_uc main_arg5 (by decide))).trans (W5_arg m ρ (admOf m hpre) c main_arg5 (by decide)),
      (h c _ (mem_uc main_arg6 (by decide))).trans (W5_arg m ρ (admOf m hpre) c main_arg6 (by decide)),
      (h c _ (mem_uc main_arg7 (by decide))).trans (W5_arg m ρ (admOf m hpre) c main_arg7 (by decide))⟩)
    (run_of_pre m ρ hpre)

end Cert.KernelIdeal.Run

end
-- ==== Proof.KRegion0Bits.lean ====
/-
  The first kernel region: the weighted combination of five tables, block by block.

  The region runs over 50 grid points; point t stages rows 2000·t … 2000·t + 1999 (all 64 columns) of each of
  five input tables — the user embedding a, the first social and rating aggregates s₁, r₁ and the second ones
  s₂, r₂ — and writes back the same rows of the result. The body reads its five input blocks whole and stores one
  block whole: entry by entry  a + (½·s₁ + ½·r₁) + (½·s₂ + ½·r₂).  This module states, for any contents V of the
  buffers when the region is entered, what each staging buffer holds around the body at every point, and proves
  that the body turns the one into the other; the invariant it carries is only the part of the machine it never
  touches.
-/
import proofs.«156973_j70892730188381_2_alg».proof.Proof.Gen.Kernel.Launch
import proofs.«156973_j70892730188381_2_alg».proof.Proof.Gen.Kernel.Skeleton
import proofs.«156973_j70892730188381_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The block of window `w`'s table that grid point `t` stages, read off the table as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the block was fetched there or not
    (when it was not, the block index has not moved). -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, whether the block was fetched there or not
    (when it was not, the block index has not moved). -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, whether the block was fetched there or not
    (when it was not, the block index has not moved). -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's staging buffer holds its block at every point, whether the block was fetched there or not
    (when it was not, the block index has not moved). -/
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's staging buffer holds its block at every point, whether the block was fetched there or not
    (when it was not, the block index has not moved). -/
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- The whole staging block as a rectangle. -/
abbrev whole0 : Rect S2000x64 := Rect.unit (s := S2000x64) ![0, 0] S2000x64.size inb_S2000x64_S2000x64_0_0

/-- What the body leaves in the result's staging buffer, from the five input blocks: its one store, of the
    combination of the five blocks, covering the buffer. -/
def comb0 (x0 x1 x2 x3 x4 : Vec F S2000x64 .f32) : Vec F S2000x64 .f32 :=
  View.canon [⟨whole0, k0_pay1 (View.ld x1 whole0) (View.ld x2 whole0) (View.ld x3 whole0) (View.ld x4 whole0) (View.ld x0 whole0)⟩]

/-- The one store covers the buffer. -/
theorem cover0 (p0 : Vec F S2000x64 .f32) (y : S2000x64.Idx) :
    ∃ pc ∈ ([⟨whole0, p0⟩] : List (View.Piece (Elt F) S2000x64 .f32)), y ∈ pc.1.set :=
  View.cover_of_tiled [⟨whole0, p0⟩] S2000x64.size (by rfl) y

set_option maxHeartbeats 4000000 in
/-- The body on whole staging buffers — the inputs' at contents x₀ … x₄, the result's at anything — runs to the
    end leaving the inputs' as they were and the result's at `comb0` of them. -/
theorem body0_triple (c : Dev nD) (E : Set ℕ) (i : grid0.Coords)
    (a0 : Memref sig .tc .vmem S2000x64 .f32) (h0 : a0.IsWhole) (a1 : Memref sig .tc .vmem S2000x64 .f32) (h1 : a1.IsWhole)
    (a2 : Memref sig .tc .vmem S2000x64 .f32) (h2 : a2.IsWhole) (a3 : Memref sig .tc .vmem S2000x64 .f32) (h3 : a3.IsWhole)
    (a4 : Memref sig .tc .vmem S2000x64 .f32) (h4 : a4.IsWhole) (a5 : Memref sig .tc .vmem S2000x64 .f32) (h5 : a5.IsWhole)
    (x0 x1 x2 x3 x4 : Vec F S2000x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (comb0 x0 x1 x2 x3 x4)) -∗ K ⟨⟩))
      ⊢ wp frame (wpE (defs₀ (F := F)) Variants.none c none) E (cc0__combine_kernel i a0 h0 a1 h1 a2 h2 a3 h3 a4 h4 a5 h5) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of the region on core `c`: the tables as the region finds them; after the body at point `t`
    each input's buffer still at its block and the result's at `comb0` of the five input blocks; the invariant is
    the part of the machine the body never touches; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => comb0 (blk0 V c 0 t) (blk0 V c 1 t) (blk0 V c 2 t) (blk0 V c 3 t) (blk0 V c 4 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) : (dat0 V c).after 4 t = blk0 V c 4 t := by dsimp only [dat0]
theorem dat0_after_5 (c : Dev nD) (t : Fin cfg0.N) :
    (dat0 V c).after 5 t = comb0 (blk0 V c 0 t) (blk0 V c 1 t) (blk0 V c 2 t) (blk0 V c 3 t) (blk0 V c 4 t) := by dsimp only [dat0]

theorem dat0_found_0 (c : Dev nD) (t : Fin cfg0.N) (d) : (dat0 V c).before 0 t d = blk0 V c 0 t :=
  found0_0 V (dat0 V c) (dat0_A V c 0) (dat0_after_0 V c) t d
theorem dat0_found_1 (c : Dev nD) (t : Fin cfg0.N) (d) : (dat0 V c).before 1 t d = blk0 V c 1 t :=
  found0_1 V (dat0 V c) (dat0_A V c 1) (dat0_after_1 V c) t d
theorem dat0_found_2 (c : Dev nD) (t : Fin cfg0.N) (d) : (dat0 V c).before 2 t d = blk0 V c 2 t :=
  found0_2 V (dat0 V c) (dat0_A V c 2) (dat0_after_2 V c) t d
theorem dat0_found_3 (c : Dev nD) (t : Fin cfg0.N) (d) : (dat0 V c).before 3 t d = blk0 V c 3 t :=
  found0_3 V (dat0 V c) (dat0_A V c 3) (dat0_after_3 V c) t d
theorem dat0_found_4 (c : Dev nD) (t : Fin cfg0.N) (d) : (dat0 V c).before 4 t d = blk0 V c 4 t :=
  found0_4 V (dat0 V c) (dat0_A V c 4) (dat0_after_4 V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_found_0, dat0_found_1, dat0_found_2, dat0_found_3, dat0_found_4]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5]
  iintro ⟨HΦ, Ho, ⟨%d0, H0⟩, ⟨%d1, H1⟩, ⟨%d2, H2⟩, ⟨%d3, H3⟩, ⟨%d4, H4⟩, ⟨%d5, H5⟩⟩
  iapply (body0_triple c Set.univ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body0_obligation (c : Dev nD) : BodyObligation (dat0 (F := F) V c) (defs₀ (F := F)) Variants.none () Set.univ := fun t => by
  rw [bigSep_W0, bigSep_W0]
  exact body0_at V c t

end Region0

end Cert.Kernel.Run

end
-- ==== Proof.KRegion1Bits.lean ====
/-
  The second kernel region: a row gather through two index tables, and the rows' inner product.

  The region runs over 16384 grid points. Point i stages row u(i) of the user-side table (kept as [100000,1,64])
  and row v(i) of the item-side table ([50000,1,64]), where u and v are the two prefetched index tables, and writes
  back row i of three results: the user row as it is, the item row as it is, and the logistic function of the sum
  over the 64 columns of the two rows' entrywise product. The index maps read the tables, so the windows — and
  with them every statement here — are taken at admissible table contents `a`: contents for which every named row
  lies inside its table. The body itself never looks at the tables; they ride in the invariant from the region's
  entry to its exit.
-/
import proofs.«156973_j70892730188381_2_alg».proof.Proof.Gen.Kernel.Launch
import proofs.«156973_j70892730188381_2_alg».proof.Proof.Gen.Kernel.Skeleton
import proofs.«156973_j70892730188381_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (a : (pcfg1 (F := F)).Adm)
variable (V : (c : Dev nD) → (b : Ref sig .tc) → Buf (Elt F) ((c : Thread nD τ).loc b))

/-- The block of window `w`'s table that grid point `t` stages, read off the table as the region finds it. -/
def blk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- Input window 0's staging buffer holds its block at every point, whether the block was fetched there or not
    (when it was not, the block index has not moved). -/
theorem found1_0 {c : Dev nD} (dat : Dat τ (Elt F) Unit ℕ (UR sig nD τ) ℕ (cfg1 a) c) (hA : dat.A 0 = V c (Pipeline.arrRef spec1 0))
    (hafter : ∀ t, dat.after 0 t = blk1 a V c 0 t) (t : Fin (cfg1 a).N) (d) : dat.before 0 t d = blk1 a V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, whether the block was fetched there or not
    (when it was not, the block index has not moved). -/
theorem found1_1 {c : Dev nD} (dat : Dat τ (Elt F) Unit ℕ (UR sig nD τ) ℕ (cfg1 a) c) (hA : dat.A 1 = V c (Pipeline.arrRef spec1 1))
    (hafter : ∀ t, dat.after 1 t = blk1 a V c 1 t) (t : Fin (cfg1 a).N) (d) : dat.before 1 t d = blk1 a V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- A whole staged row, and the whole one-entry block of the prediction, as rectangles. -/
abbrev wholeRow : Rect S1x1x64 := Rect.unit (s := S1x1x64) ![0, 0, 0] S1x1x64.size inb_S1x1x64_S1x1x64_0_0_0
abbrev wholeOne : Rect S1x1x1 := Rect.unit (s := S1x1x1) ![0, 0, 0] S1x1x1.size inb_S1x1x1_S1x1x1_0_0_0

/-- What the body leaves in the three results' staging buffers, from the two staged rows: one covering store each. -/
def keepU (x0 : Vec F S1x1x64 .f32) : Vec F S1x1x64 .f32 := View.canon [⟨wholeRow, k1_pay1 (View.ld x0 wholeRow)⟩]
def keepI (x1 : Vec F S1x1x64 .f32) : Vec F S1x1x64 .f32 := View.canon [⟨wholeRow, k1_pay2 (View.ld x1 wholeRow)⟩]
def score (x0 x1 : Vec F S1x1x64 .f32) : Vec F S1x1x1 .f32 :=
  View.canon [⟨wholeOne, k1_pay3 (View.ld x0 wholeRow) (View.ld x1 wholeRow)⟩]

theorem coverRow (p0 : Vec F S1x1x64 .f32) (y : S1x1x64.Idx) :
    ∃ pc ∈ ([⟨wholeRow, p0⟩] : List (View.Piece (Elt F) S1x1x64 .f32)), y ∈ pc.1.set :=
  View.cover_of_tiled [⟨wholeRow, p0⟩] S1x1x64.size (by rfl) y
theorem coverOne (p0 : Vec F S1x1x1 .f32) (y : S1x1x1.Idx) :
    ∃ pc ∈ ([⟨wholeOne, p0⟩] : List (View.Piece (Elt F) S1x1x1 .f32)), y ∈ pc.1.set :=
  View.cover_of_tiled [⟨wholeOne, p0⟩] S1x1x1.size (by rfl) y

set_option maxHeartbeats 4000000 in
/-- The body on whole staging buffers — the two rows' at contents x₀, x₁, the three results' at anything — runs to
    the end leaving the rows' as they were and the results' at `keepU x₀`, `keepI x₁`, `score x₀ x₁`. The two
    table operands are not touched. -/
theorem body1_triple (c : Dev nD) (E : Set ℕ) (i : grid1.Coords)
    (t1 : Memref sig .tc .smem S16384 .i32) (ht1 : t1.IsWhole) (t2 : Memref sig .tc .smem S16384 .i32) (ht2 : t2.IsWhole)
    (a0 : Memref sig .tc .vmem S1x1x64 .f32) (h0 : a0.IsWhole) (a1 : Memref sig .tc .vmem S1x1x64 .f32) (h1 : a1.IsWhole)
    (a2 : Memref sig .tc .vmem S1x1x64 .f32) (h2 : a2.IsWhole) (a3 : Memref sig .tc .vmem S1x1x64 .f32) (h3 : a3.IsWhole)
    (a4 : Memref sig .tc .vmem S1x1x1 .f32) (h4 : a4.IsWhole)
    (x0 x1 : Vec F S1x1x64 .f32) (K : PUnit → sProp 𝕄) :
    iprop(owns (c : Thread nD τ) a0 fullShare x0 ∗ owns (c : Thread nD τ) a1 fullShare x1
        ∗ (∃ d, owns (c : Thread nD τ) a2 fullShare d) ∗ (∃ d, owns (c : Thread nD τ) a3 fullShare d) ∗ (∃ d, owns (c : Thread nD τ) a4 fullShare d)
        ∗ (iprop(owns (c : Thread nD τ) a0 fullShare x0 ∗ owns (c : Thread nD τ) a1 fullShare x1
            ∗ owns (c : Thread nD τ) a2 fullShare (keepU x0) ∗ owns (c : Thread nD τ) a3 fullShare (keepI x1)
            ∗ owns (c : Thread nD τ) a4 fullShare (score x0 x1)) -∗ K ⟨⟩))
      ⊢ wp frame (wpE (defs₀ (F := F)) Variants.none c none) E (cc1__gather_kernel i t1 ht1 t2 ht2 a0 h0 a1 h1 a2 h2 a3 h3 a4 h4) K := by
  simp only [cc1__gather_kernel_eq_skeleton]; unfold cc1__gather_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRow _)
  isplitl [H3]
  · iexists _; isplitr
    swap; · iexact H3
    ipureintro
    exact View.read_writes_eq_canon _ _ _ (coverRow _)
  iexists _; isplitr
  swap; · iexact H4
  ipureintro
  exact View.read_writes_eq_canon _ _ _ (coverOne _)

/-- The invariant of the region: the part of the machine the body never touches, and the two index tables, whole,
    at the contents the windows are taken at. -/
def inv1 (c : Dev nD) : sProp 𝕄 :=
  iprop(Pipeline.ΦA spec1 c ∗ Pipeline.prefHeld (Ix := Unit) (Name := ℕ) (U := UR sig nD τ) (Lvl := ℕ) pre1 c (fun _ => fullShare) a.1)

/-- The proof data of the region on core `c`: the tables as the region finds them; after the body at point `t`
    each input row's buffer still at its block and the three results' at `keepU`, `keepI`, `score` of the rows;
    nothing owed; full shares. -/
def dat1 (c : Dev nD) : Dat τ (Elt F) Unit ℕ (UR sig nD τ) ℕ (cfg1 a) c where
  A w := V c (Pipeline.arrRef spec1 w)
  after w t := match w with
    | ⟨0, _⟩ => blk1 a V c 0 t
    | ⟨1, _⟩ => blk1 a V c 1 t
    | ⟨2, _⟩ => keepU (blk1 a V c 0 t)
    | ⟨3, _⟩ => keepI (blk1 a V c 1 t)
    | ⟨4, _⟩ => score (blk1 a V c 0 t) (blk1 a V c 1 t)
  Φ _ := inv1 a c
  q _ := fullShare
  owed _ := 0

theorem dat1_A (c : Dev nD) (w : Fin (cfg1 a).W) : (dat1 a V c).A w = V c (Pipeline.arrRef spec1 w) := by
  dsimp only [dat1]

theorem dat1_after_0 (c : Dev nD) (t : Fin (cfg1 a).N) : (dat1 a V c).after (0 : Fin 5) t = blk1 a V c 0 t := by dsimp only [dat1]
theorem dat1_after_1 (c : Dev nD) (t : Fin (cfg1 a).N) : (dat1 a V c).after (1 : Fin 5) t = blk1 a V c 1 t := by dsimp only [dat1]
theorem dat1_after_2 (c : Dev nD) (t : Fin (cfg1 a).N) : (dat1 a V c).after (2 : Fin 5) t = keepU (blk1 a V c 0 t) := by dsimp only [dat1]
theorem dat1_after_3 (c : Dev nD) (t : Fin (cfg1 a).N) : (dat1 a V c).after (3 : Fin 5) t = keepI (blk1 a V c 1 t) := by dsimp only [dat1]
theorem dat1_after_4 (c : Dev nD) (t : Fin (cfg1 a).N) :
    (dat1 a V c).after (4 : Fin 5) t = score (blk1 a V c 0 t) (blk1 a V c 1 t) := by dsimp only [dat1]

theorem dat1_found_0 (c : Dev nD) (t : Fin (cfg1 a).N) (d) : (dat1 a V c).before (0 : Fin 5) t d = blk1 a V c 0 t :=
  found1_0 a V (dat1 a V c) (dat1_A a V c 0) (dat1_after_0 a V c) t d
theorem dat1_found_1 (c : Dev nD) (t : Fin (cfg1 a).N) (d) : (dat1 a V c).before (1 : Fin 5) t d = blk1 a V c 1 t :=
  found1_1 a V (dat1 a V c) (dat1_A a V c 1) (dat1_after_1 a V c) t d

/-- Window `w`'s current staging buffer at point `t`. -/
abbrev st1 (w : Fin (cfg1 a).W) (t : Fin (cfg1 a).N) := ((cfg1 a).win w).stage ((cfg1 a).slots t w)

/-- The body as the region calls it at point `t`. -/
abbrev bodyAt1 (t : Fin (cfg1 a).N) : Prog (TpuEff nD τ sig (Elt F) Λ₀ .tc) PUnit :=
  cc1__gather_kernel (grid1.coords t) (Memref.whole main_arg2) (Memref.isWhole_whole _) (Memref.whole main_arg3) (Memref.isWhole_whole _)
    (spec1_0.stage ((cfg1 a).slots t (0 : Fin 5))) (hstage1_0 (((cfg1 a).slots t (0 : Fin 5)).cast nbuf1_0))
    (spec1_1.stage ((cfg1 a).slots t (1 : Fin 5))) (hstage1_1 (((cfg1 a).slots t (1 : Fin 5)).cast nbuf1_1))
    (spec1_2.stage ((cfg1 a).slots t (2 : Fin 5))) (hstage1_2 (((cfg1 a).slots t (2 : Fin 5)).cast nbuf1_2))
    (spec1_3.stage ((cfg1 a).slots t (3 : Fin 5))) (hstage1_3 (((cfg1 a).slots t (3 : Fin 5)).cast nbuf1_3))
    (spec1_4.stage ((cfg1 a).slots t (4 : Fin 5))) (hstage1_4 (((cfg1 a).slots t (4 : Fin 5)).cast nbuf1_4))

/-- What the body is called with at point `t`, the windows one by one, -/
def pre1' (c : Dev nD) (t : Fin (cfg1 a).N) : sProp 𝕄 :=
  iprop((dat1 a V c).Φ t.castSucc ∗ (dat1 a V c).owesAt () t.castSucc
    ∗ (∃ d, owns (c : Thread nD τ) (st1 a (0 : Fin 5) t) fullShare ((dat1 a V c).before (0 : Fin 5) t d))
    ∗ (∃ d, owns (c : Thread nD τ) (st1 a (1 : Fin 5) t) fullShare ((dat1 a V c).before (1 : Fin 5) t d))
    ∗ (∃ d, owns (c : Thread nD τ) (st1 a (2 : Fin 5) t) fullShare ((dat1 a V c).before (2 : Fin 5) t d))
    ∗ (∃ d, owns (c : Thread nD τ) (st1 a (3 : Fin 5) t) fullShare ((dat1 a V c).before (3 : Fin 5) t d))
    ∗ (∃ d, owns (c : Thread nD τ) (st1 a (4 : Fin 5) t) fullShare ((dat1 a V c).before (4 : Fin 5) t d)))

/-- and what it returns. -/
def post1' (c : Dev nD) (t : Fin (cfg1 a).N) : sProp 𝕄 :=
  iprop((dat1 a V c).Φ t.succ ∗ (dat1 a V c).owesAt () t.succ
    ∗ owns (c : Thread nD τ) (st1 a (0 : Fin 5) t) fullShare ((dat1 a V c).after (0 : Fin 5) t)
    ∗ owns (c : Thread nD τ) (st1 a (1 : Fin 5) t) fullShare ((dat1 a V c).after (1 : Fin 5) t)
    ∗ owns (c : Thread nD τ) (st1 a (2 : Fin 5) t) fullShare ((dat1 a V c).after (2 : Fin 5) t)
    ∗ owns (c : Thread nD τ) (st1 a (3 : Fin 5) t) fullShare ((dat1 a V c).after (3 : Fin 5) t)
    ∗ owns (c : Thread nD τ) (st1 a (4 : Fin 5) t) fullShare ((dat1 a V c).after (4 : Fin 5) t))

/-- The body at any point: the two rows' buffers hold their blocks, so the body's triple applies; the invariant
    (the tables among it) and what the core owes pass through unread. -/
theorem body1_at (c : Dev nD) (t : Fin (cfg1 a).N) :
    pre1' a V c t ⊢ wp frame (wpE (defs₀ (F := F)) Variants.none c none) Set.univ (bodyAt1 a t) (fun _ => post1' a V c t) := by
  unfold pre1' post1' bodyAt1
  simp only [dat1_found_0, dat1_found_1]
  rw [show (dat1 a V c).Φ t.succ = (dat1 a V c).Φ t.castSucc from rfl,
    show (dat1 a V c).owesAt () t.succ = (dat1 a V c).owesAt () t.castSucc from rfl,
    dat1_after_0, dat1_after_1, dat1_after_2, dat1_after_3, dat1_after_4]
  iintro ⟨HΦ, Ho, ⟨%d0, H0⟩, ⟨%d1, H1⟩, ⟨%d2, H2⟩, ⟨%d3, H3⟩, ⟨%d4, H4⟩⟩
  iapply (body1_triple c Set.univ _ _ _ _ _ _ _ _ _ _ _ _ _ _ _ (blk1 a V c 0 t) (blk1 a V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region, at every point. -/
theorem body1_obligation (c : Dev nD) : BodyObligation (dat1 (F := F) a V c) (defs₀ (F := F)) Variants.none () Set.univ := fun t => by
  rw [bigSep_W1, bigSep_W1]
  exact body1_at a V c t

end Region1

end Cert.Kernel.Run

end
-- ==== Proof.KRunBits.lean ====
/-
  The whole run of the kernel program: host operations, the combining region, two reshapes, the gathering region,
  three reshapes.

  The buffers' contents are followed from the launch through the five segments: after the long host stretch
  (W1); after the first region, whose result table holds what its write-backs left and every other buffer what it
  held (W2); after the reshapes that give both tables a unit middle axis (W3); after the second region, whose three
  results hold what its write-backs left (W4); after the reshapes that drop the unit axes (W5). No segment writes an
  argument, so each argument can be read back through the five steps to its launch contents. The second region's
  windows are indexed through the two index tables, which are arguments: the run is stated at admissible table
  contents `a1` that the launch memory holds (`ha`), carved out of the untouched buffers when the region is entered
  and put back when it is left. Every weakly fair execution terminates, and in every final state each buffer
  outside the kernels' staging memory holds its W5 contents.
-/
import proofs.«156973_j70892730188381_2_alg».proof.Proof.KRegion0Bits
import proofs.«156973_j70892730188381_2_alg».proof.Proof.KRegion1Bits

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arguments are written by no host operation -/

/-- The eight argument buffers. -/
abbrev argRefs : List (Ref sig .tc) := [main_arg0, main_arg1, main_arg2, main_arg3, main_arg4, main_arg5, main_arg6, main_arg7]

set_option maxHeartbeats 4000000 in
/-- No operation of the first host stretch writes an argument. -/
theorem host0_keeps (V : Valuation τ sig (Elt F)) (b : Ref sig .tc) (hb : b ∈ argRefs) :
    StableHlo.after (hostOps0 (F := F)) V (Proc.devRef .tc b) = V (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

/-- No operation of the second host stretch writes an argument. -/
theorem host1_keeps (V : Valuation τ sig (Elt F)) (b : Ref sig .tc) (hb : b ∈ argRefs) :
    StableHlo.after (hostOps1 (F := F)) V (Proc.devRef .tc b) = V (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

/-- No operation of the third host stretch writes an argument. -/
theorem host2_keeps (V : Valuation τ sig (Elt F)) (b : Ref sig .tc) (hb : b ∈ argRefs) :
    StableHlo.after (hostOps2 (F := F)) V (Proc.devRef .tc b) = V (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

/-! ## The contents at each boundary -/

section Fold

variable (m : (ℓ : Loc nD τ sig) → Buf (Elt F) ℓ) (ρ : Dev nD → PrngReg) (a1 : (pcfg1 (F := F)).Adm)

/-- Core `c`'s buffers at launch. -/
abbrev W0 : Dev nD → Valuation τ sig (Elt F) := fun c b => (s₀ m ρ).mem ((c : Dev nD), b)
/-- After the long host stretch: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its tables at what the region leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (dat0 (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two reshapes: the second region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 a1 (V3 m ρ) c).arrAt w (cfg1 a1).N
theorem W4_arr (c : Dev nD) (w : Fin 5) :
    W4 m ρ a1 c (Proc.devRef .tc (Pipeline.arrRef spec1 w)) = (dat1 a1 (V3 m ρ) c).arrAt w (cfg1 a1).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ a1 c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ a1 c b
theorem exit1_arr (c : Dev nD) (w : Fin 5) : (dat1 a1 (V3 m ρ) c).arrAt w (cfg1 a1).N = V4 m ρ a1 c (Pipeline.arrRef spec1 w) :=
  (W4_arr m ρ a1 c w).symm
theorem exit1_rest (c : Dev nD) : ∀ b, b ∉ Finset.univ.image (Pipeline.arrRef spec1) → V4 m ρ a1 c b = V3 m ρ c b :=
  fun b hb => W4_of_ne m ρ a1 c b fun w e => hb (Finset.mem_image.mpr ⟨w, Finset.mem_univ _, e⟩)
/-- After the last three reshapes: the final contents. -/
abbrev W5 : Dev nD → Valuation τ sig (Elt F) := fun c => StableHlo.after hostOps2 (W4 m ρ a1 c)

/-! ### Each argument read back to the launch -/

theorem W1_arg (c : Dev nD) (b : Ref sig .tc) (hb : b ∈ argRefs) : W1 m ρ c (Proc.devRef .tc b) = m ((c : Thread nD τ).loc b) :=
  host0_keeps _ b hb
/-- The first region reads the user embedding through an input window and names no other argument. -/
theorem W2_arg (c : Dev nD) (b : Ref sig .tc) (hb : b ∈ argRefs) : W2 m ρ c (Proc.devRef .tc b) = m ((c : Thread nD τ).loc b) := by
  by_cases h0 : b = main_arg0
  · subst h0
    exact ((W2_arr m ρ c 0).trans (((dat0 (V1 m ρ) c).arrAt_in 0 rfl _).trans (dat0_A (V1 m ρ) c 0))).trans (W1_arg m ρ c main_arg0 (by decide))
  · refine (W2_of_ne m ρ c b ?_).trans (W1_arg m ρ c b hb)
    intro w e
    subst e
    revert hb h0 w
    decide
theorem W3_arg (c : Dev nD) (b : Ref sig .tc) (hb : b ∈ argRefs) : W3 m ρ c (Proc.devRef .tc b) = m ((c : Thread nD τ).loc b) :=
  (host1_keeps _ b hb).trans (W2_arg m ρ c b hb)
/-- The second region's windows are over the two reshaped tables and its three results: no argument. -/
theorem W4_arg (c : Dev nD) (b : Ref sig .tc) (hb : b ∈ argRefs) : W4 m ρ a1 c (Proc.devRef .tc b) = m ((c : Thread nD τ).loc b) := by
  refine (W4_of_ne m ρ a1 c b ?_).trans (W3_arg m ρ c b hb)
  intro w e
  subst e
  revert hb w
  decide
theorem W5_arg (c : Dev nD) (b : Ref sig .tc) (hb : b ∈ argRefs) : W5 m ρ a1 c (Proc.devRef .tc b) = m ((c : Thread nD τ).loc b) :=
  (host2_keeps _ b hb).trans (W4_arg m ρ a1 c b hb)

/-- The two index tables hold, when the second region is entered, the contents the windows are taken at. -/
theorem tables_at_entry (ha : ∀ (c : Dev nD) (k : Fin pre1.K), m ((c : Thread nD τ).loc (pre1.ref k)) = a1.1 k) (c : Dev nD) :
    (fun k : Fin pre1.K => V3 m ρ c (pre1.ref k)) = a1.1 := by
  funext k
  refine Eq.trans ?_ (ha c k)
  match k with
  | ⟨0, _⟩ => exact W3_arg m ρ c main_arg2 (by decide)
  | ⟨1, _⟩ => exact W3_arg m ρ c main_arg3 (by decide)

/-! ## The proof data of both regions and the thread state -/

/-- The tables' contents per region: the first region has none. -/
abbrev adm : (p : Fin 2) → (pcfgs (F := F) p).Adm
  | ⟨0, _⟩ => cfg0.toPCfg_adm
  | ⟨1, _⟩ => a1
/-- Both regions' proof data, each at its region's entry contents. -/
def pdats : (p : Fin 2) → (c : Dev nD) → Dat τ (Elt F) Unit ℕ (UR sig nD τ) ℕ (Pipeline.pin (pcfgs (F := F)) (adm a1) p) c
  | ⟨0, _⟩ => fun c => dat0 (V1 m ρ) c
  | ⟨1, _⟩ => fun c => dat1 a1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [hostOps0, List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer outside the staging memory at its final contents. -/
abbrev Tend (c : Dev nD) : sProp 𝕄 := iprop(StableHlo.held (c : Thread nD τ) (Pipeline.ucRefs τ sig) (W5 m ρ a1 c) ∗ ∃ r, prngReg c r)

/-! ## The two regions as segments -/

set_option backward.isDefEq.respectTransparency.types false in
/-- The combining region: entered from every buffer at W1, left at W2. -/
def reg0 : Pipeline.RegionSeg (pcfgs (F := F)) (adm a1) (pdats m ρ a1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body0_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm a1) (pdats m ρ a1) (launch0 (F := F)).win (launch0 (F := F)).arr_whole c
      ((pdats m ρ a1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ a1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m ρ a1) ((pdats m ρ a1 0 c).share_full fun _ => rfl)
      (V1 m ρ c) (V2 m ρ c) ((pdats m ρ a1 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gathering region: entered from every buffer at W3, left at W4. At entry the two index tables are taken out
    of the buffers the region does not stage and handed to it at the contents its windows are taken at; at exit they
    come back unchanged. -/
def reg1 (ha : ∀ (c : Dev nD) (k : Fin pre1.K), m ((c : Thread nD τ).loc (pre1.ref k)) = a1.1 k) :
    Pipeline.RegionSeg (pcfgs (F := F)) (adm a1) (pdats m ρ a1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body1_obligation a1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ a1 c) ∗ R c)
  X c := iprop(∃ r, prngReg c r)
  Y c := iprop((∃ r, prngReg c r) ∗ Pipeline.prefHeld (Ix := Unit) (Name := ℕ) (U := UR sig nD τ) (Lvl := ℕ) pre1 c (fun _ => fullShare) a1.1)
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) (adm a1) (pdats m ρ a1) (launch1 (F := F)).win (launch1 (F := F)).arr_whole c
      ((pdats m ρ a1 1 c).share_full fun _ => rfl) (V3 m ρ c) fun _ => rfl
    have hcarve := Pipeline.unscopedRest_split (Ix := Unit) (Name := ℕ) (U := UR sig nD τ) (Lvl := ℕ) (win := spec1) (pre := pre1) (launch1 (F := F)).pre c (V3 m ρ c)
    rw [tables_at_entry m ρ a1 ha c] at hcarve
    rw [Pipeline.unscopedBufs_held] at hsplit
    iintro ⟨⟨Hub, Hp, HO⟩, -, -⟩
    ihave H := hsplit $$ Hub
    icases H with ⟨Ha, Hrest⟩
    ihave Hc := (Entails.of_eq hcarve) $$ Hrest
    icases Hc with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ a1 1 c).Φ 0 = inv1 a1 c from rfl]; unfold inv1 Pipeline.ΦA
    iintro ⟨Hp, Ht, Hr⟩
    isplitr [Ht]
    · isplitl [Hr]; · iexact Hr
      iexact Hp
    iexact Ht
  hout c := by
    rw [Pipeline.ownSems0_none, show (pdats m ρ a1 1 c).Φ (Fin.last _) = inv1 a1 c from rfl]; unfold inv1 Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm a1) (Ix := Unit) (Name := ℕ) (U := UR sig nD τ) (Lvl := ℕ)
      (launch1 (F := F)).win (launch1 (F := F)).arr_whole c (pdats m ρ a1) ((pdats m ρ a1 1 c).share_full fun _ => rfl)
      (V3 m ρ c) (V4 m ρ a1 c) ((pdats m ρ a1 1 c).arrAt · (cfg1 a1).N) (exit1_arr m ρ a1 c) (exit1_rest m ρ a1 c)
    have hcarve := Pipeline.unscopedRest_split (Ix := Unit) (Name := ℕ) (U := UR sig nD τ) (Lvl := ℕ) (win := spec1) (pre := pre1) (launch1 (F := F)).pre c (V3 m ρ c)
    rw [tables_at_entry m ρ a1 ha c] at hcarve
    rw [Pipeline.unscopedBufs_held] at hjoin
    iintro ⟨Ha, HO, ⟨Hp, Ht⟩, Hrest⟩
    ihave Hc := (Entails.of_eq hcarve.symm) $$ [Ht Hrest]
    · isplitl [Ht]; · iexact Ht
      iexact Hrest
    imodintro
    isplitl [Ha Hc]
    · iapply hjoin; isplitl [Ha] <;> iassumption
    isplitl [Hp]; · iexact Hp
    unfold Pipeline.Dat.owesAt Pipeline.owesWithin
    icases HO with ⟨%W, -, HO⟩; iexists W; iexact HO

/-! ## @main as five segments, and the launch -/

abbrev segs (ha : ∀ (c : Dev nD) (k : Fin pre1.K), m ((c : Thread nD τ).loc (pre1.ref k)) = a1.1 k) :
    List (Pipeline.Seg (pcfgs (F := F)) (adm a1) (pdats m ρ a1) () defs₀ 𝒱₀ L lv) :=
  [ .host (hseg hostOps0 hostOps0_sub hostOps0_fresh (W0 m ρ)),
    .region (reg0 m ρ a1),
    .host (hseg hostOps1 hostOps1_sub hostOps1_fresh (W2 m ρ)),
    .region (reg1 m ρ a1 ha),
    .host (hseg hostOps2 hostOps2_sub hostOps2_fresh (W4 m ρ a1)) ]

theorem main_run (ha : ∀ (c : Dev nD) (k : Fin pre1.K), m ((c : Thread nD τ).loc (pre1.ref k)) = a1.1 k) (c : Dev nD) :
    main (F := F) c = Pipeline.Seg.run (segs m ρ a1 ha) := (main_chain c).trans (by chain_rfl)

set_option backward.isDefEq.respectTransparency.types false in
/-- The run: from any memory with zero counters whose index tables hold `a1`, every weakly fair execution of
    @main terminates, nothing faulting, and in every final state each buffer outside the staging memory holds its
    W5 contents. -/
theorem run_all (ha : ∀ (c : Dev nD) (k : Fin pre1.K), m ((c : Thread nD τ).loc (pre1.ref k)) = a1.1 k) :
    θ_run defs (onTc (τ := τ) (main (F := F))) ⟨m, fun _ => 0, ρ⟩ (fun r => ∀ c : Dev nD,
      ∀ b ∈ Pipeline.ucRefs τ sig, r.2.mem (((c : Thread nD τ)).1, b) = W5 m ρ a1 c b) :=
  Pipeline.θ_run_regions_kit (pcfgs (F := F)) (adm a1) (pdats m ρ a1) () (cellOf_inj (adm a1)) emb₁ defs₀ 𝒱₀ L lv m ρ main (segs m ρ a1 ha)
    (fun c Q => by rw [main_run m ρ a1 ha c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a1)) (cellOf_inj (adm a1))) (Pipeline.launchToks (Pipeline.pin (pcfgs (F := F)) (adm a1)) (cellOf_inj (adm a1))))
    (hu₀ := by
      iintro Hu; imodintro
      isplitl [Hu]
      · iapply (show (ownU (initOf (Pipeline.cells (Pipeline.pin (pcfgs (F := F)) (adm a1)) (cellOf_inj (adm a1))) (Pipeline.launchToks (Pipeline.pin (pcfgs (F := F)) (adm a1)) (cellOf_inj (adm a1)))) : sProp 𝕄)
            ⊢ BI.own (emb₁ (initOf (Pipeline.cells (Pipeline.pin (pcfgs (F := F)) (adm a1)) (cellOf_inj (adm a1))) (Pipeline.launchToks (Pipeline.pin (pcfgs (F := F)) (adm a1)) (cellOf_inj (adm a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ a1)
    (hch := ⟨fun _ => .rfl, fun _ => .rfl, fun _ => .rfl, fun _ => .rfl, fun _ => .rfl, fun c => show iprop(StableHlo.held (c : Thread nD τ) (Pipeline.ucRefs τ sig) (W5 m ρ a1 c) ∗ R c)
        ⊢ iprop(Tend m ρ a1 c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ a1 c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ a1 c) s')
      isplitl [Hh] <;> iassumption)
    (hQ := fun s h => h)

end Fold

end Cert.Kernel.Run

end
-- ==== Proof.KTablesBits.lean ====
/-
  The second kernel's two row-selecting index maps, read back.

  The second kernel is handed two tables of 16384 index words each. At grid point i its first input window names
  the row (t₀[i], 0, 0) of a table of shape [100000, 1, 64] and its second the row (t₁[i], 0, 0) of a table of shape
  [50000, 1, 64], where t₀[i] and t₁[i] are the words the two tables hold at position i, read unsigned.

  * The word an index map reads is the table's word at the one position of a one-element rectangle whose offset is
    the grid coordinate turned into a 32-bit word and read back unsigned; the coordinate is below 16384 < 2³², so
    the offset is the coordinate itself (`word0`, `word1`).
  * If every word of the first table is below 100000 and every word of the second below 50000, each named row lies
    inside its table: (t + 1)·1 ≤ 100000 resp. 50000 on the row axis, (0 + 1)·1 ≤ 1 and (0 + 1)·64 ≤ 64 on the
    other two; the element type is 32 bits wide, so the transfers move whole words (`ok_of_range`).
-/
import proofs.«156973_j70892730188381_2_alg».proof.Kernel
import Idealize.ShloMosaic.Lib.ValueIdx

noncomputable section

namespace Cert.Kernel.Tables

open Idealize.ShloMosaic Idealize.SL.Sem
open Cert.Kernel Cert.Kernel.Facts₀ Cert.Kernel.Facts

variable {F : FTy → Type} [FloatOps F] [Facts]

/-- The first table's word at an index. -/
abbrev tab0 (pf : pre1.Contents (Elt F)) (j : S16384.Idx) : BitVec 32 := pf 0 j
/-- The second table's word at an index. -/
abbrev tab1 (pf : pre1.Contents (Elt F)) (j : S16384.Idx) : BitVec 32 := pf 1 j

/-- A grid point's coordinate as an index of the tables. -/
abbrev rowIdx (i : grid1.Coords) : S16384.Idx := ValueIdx.ix1 (n := 16384) (i 0)

/-- The first table read through a one-element rectangle whose one position lies at a grid point's coordinate is
    the table's word at that coordinate. -/
theorem at0 (pf : pre1.Contents (Elt F)) (i : grid1.Coords) (r : Rect S16384) (h1 : r.shape.numel = 1)
    (hr : ∀ j : r.shape.Idx, (r.emb j (0 : Fin 1)).val = (i 0).val) : pf.at 0 r h1 = tab0 pf (rowIdx i) := by
  show pf 0 _ = pf 0 _
  congr 1
  funext a
  apply Fin.ext
  match a with
  | ⟨0, _⟩ => exact hr _

/-- The same for the second table. -/
theorem at1 (pf : pre1.Contents (Elt F)) (i : grid1.Coords) (r : Rect S16384) (h1 : r.shape.numel = 1)
    (hr : ∀ j : r.shape.Idx, (r.emb j (0 : Fin 1)).val = (i 0).val) : pf.at 1 r h1 = tab1 pf (rowIdx i) := by
  show pf 1 _ = pf 1 _
  congr 1
  funext a
  apply Fin.ext
  match a with
  | ⟨0, _⟩ => exact hr _

/-- The one position of the one-element rectangle whose offset is a grid point's coordinate, made a 32-bit word and
    read back unsigned, is that coordinate: the coordinate is below 16384 < 2³², and the position inside a
    one-element rectangle is 0. -/
theorem unit_pos (i : grid1.Coords)
    (inb : ∀ a, (![(Scalar.indexCast (BitVec.ofNat 32 (i 0).val)).toNat] : Fin 1 → Nat) a + S1.size a ≤ S16384.size a)
    (j : (Rect.unit (s := S16384) ![(Scalar.indexCast (BitVec.ofNat 32 (i 0).val)).toNat] S1.size inb).shape.Idx) :
    ((Rect.unit (s := S16384) ![(Scalar.indexCast (BitVec.ofNat 32 (i 0).val)).toNat] S1.size inb).emb j (0 : Fin 1)).val
      = (i 0).val := by
  have hj : (j 0).val < 1 := (j 0).isLt
  have hi : (i 0).val < 16384 := (i 0).isLt
  show (BitVec.ofNat 32 (i 0).val).toNat + 1 * (j 0).val = (i 0).val
  rw [BitVec.toNat_ofNat]
  omega

/-- The first window's index map at a grid point: the row named by the first table's word there. -/
theorem word0 (pf : pre1.Contents (Elt F)) (i : grid1.Coords) :
    cc1_transform_0 k1_off1_inb numel1_S1 pf i = ![(tab0 pf (rowIdx i)).toNat, 0, 0] :=
  congrArg (fun w : BitVec 32 => (![w.toNat, 0, 0] : Fin 3 → Nat))
    (at0 pf i (Rect.unit (s := S16384) ![(Scalar.indexCast (BitVec.ofNat 32 (i 0).val)).toNat] S1.size (k1_off1_inb i))
      numel1_S1 (unit_pos i (k1_off1_inb i)))

/-- The second window's index map at a grid point: the row named by the second table's word there. -/
theorem word1 (pf : pre1.Contents (Elt F)) (i : grid1.Coords) :
    cc1_transform_1 k1_off1_inb numel1_S1 pf i = ![(tab1 pf (rowIdx i)).toNat, 0, 0] :=
  congrArg (fun w : BitVec 32 => (![w.toNat, 0, 0] : Fin 3 → Nat))
    (at1 pf i (Rect.unit (s := S16384) ![(Scalar.indexCast (BitVec.ofNat 32 (i 0).val)).toNat] S1.size (k1_off1_inb i))
      numel1_S1 (unit_pos i (k1_off1_inb i)))

/-- If every word of the first table is below 100000 and every word of the second below 50000, every row the two
    windows name lies inside its table, and the transfers (of 32-bit elements) move whole words. -/
theorem ok_of_range (pf : pre1.Contents (Elt F)) (h0 : ∀ j : S16384.Idx, (tab0 pf j).toNat < 100000)
    (h1 : ∀ j : S16384.Idx, (tab1 pf j).toNat < 50000) : ok1 pf := by
  unfold ok1
  refine ⟨fun i => ⟨fun a => ?_, Or.inl rfl⟩, fun i => ⟨fun a => ?_, Or.inl rfl⟩⟩
  · rw [word0]
    have hw := h0 (rowIdx i)
    match a with
    | ⟨0, _⟩ => show ((tab0 pf (rowIdx i)).toNat + 1) * 1 ≤ 100000; omega
    | ⟨1, _⟩ => show (0 + 1) * 1 ≤ 1; omega
    | ⟨2, _⟩ => show (0 + 1) * 64 ≤ 64; omega
  · rw [word1]
    have hw := h1 (rowIdx i)
    match a with
    | ⟨0, _⟩ => show ((tab1 pf (rowIdx i)).toNat + 1) * 1 ≤ 50000; omega
    | ⟨1, _⟩ => show (0 + 1) * 1 ≤ 1; omega
    | ⟨2, _⟩ => show (0 + 1) * 64 ≤ 64; omega

end Cert.Kernel.Tables

end
-- ==== Proof.KFrameBits.lean ====
/-
  The frame of the kernel program from its precondition.

  The program's second region is indexed through the two index tables, which are arguments: the tables the windows
  are taken at are read off the launch memory (there is one device). The precondition bounds every index word — a
  user index below 100000, an item index below 50000 — which is exactly what makes every named row lie inside its
  table. The run then ends with every argument at its launch contents.
-/
import proofs.«156973_j70892730188381_2_alg».proof.Defs
import proofs.«156973_j70892730188381_2_alg».proof.Proof.KRunBits
import proofs.«156973_j70892730188381_2_alg».proof.Proof.IndexRange
import proofs.«156973_j70892730188381_2_alg».proof.Proof.KTablesBits

set_option maxRecDepth 16384

noncomputable section

namespace Cert.Kernel.Run

open Cert.Kernel Cert.Kernel.Gen
open Idealize.ShloMosaic Idealize.ShloMosaic.TcCoe
open Idealize.SL Idealize.SL.Sem

variable [Cert.Pre_finite_inputs.Facts]
variable (m : (ℓ : Loc nD τ sig) → Buf (Elt Bits) ℓ) (ρ : Dev nD → PrngReg)

/-- The two index tables as the launch memory holds them. -/
def tablesOf : pre1.Contents (Elt Bits) := fun k => m (((0 : Dev nD) : Thread nD τ).loc (pre1.ref k))

/-- There is one device: every core's tables are these. -/
theorem tablesOf_all (c : Dev nD) (k : Fin pre1.K) : m ((c : Thread nD τ).loc (pre1.ref k)) = tablesOf m k := by
  have hc : c = 0 := Subsingleton.elim _ _
  subst hc; rfl

/-- Under the precondition every row the tables name lies inside its table. -/
theorem tables_ok (hpre : Cert.Pre_Kernel m) : ok1 (tablesOf m) :=
  Tables.ok_of_range (tablesOf m)
    (fun j => (Cert.IndexRange.of_pre _ _ _ _ _ _ _ _ (hpre 0)).1 j)
    (fun j => (Cert.IndexRange.of_pre _ _ _ _ _ _ _ _ (hpre 0)).2 j)

/-- The tables of the launch memory, admissible under the precondition. -/
def admOf (hpre : Cert.Pre_Kernel m) : (pcfg1 (F := Bits)).Adm := ⟨tablesOf m, tables_ok m hpre⟩

/-- The run under the precondition: every buffer outside the staging memory ends at its final contents. -/
theorem run_of_pre (hpre : Cert.Pre_Kernel m) :
    θ_run defs (onTc (τ := τ) (main (F := Bits))) ⟨m, fun _ => 0, ρ⟩ (fun r => ∀ c : Dev nD,
      ∀ b ∈ Pipeline.ucRefs τ sig, r.2.mem (((c : Thread nD τ)).1, b) = W5 m ρ (admOf m hpre) c b) :=
  run_all m ρ (admOf m hpre) (tablesOf_all m)

/-- The frame: under the precondition the program runs to the end without a fault and every argument ends as
    launched. -/
theorem frame_of_pre (hpre : Cert.Pre_Kernel m) :
    θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W5_arg m ρ (admOf m hpre) c main_arg0 (by decide)),
      (h c _ (mem_uc main_arg1 (by decide))).trans (W5_arg m ρ (admOf m hpre) c main_arg1 (by decide)),
      (h c _ (mem_uc main_arg2 (by decide))).trans (W5_arg m ρ (admOf m hpre) c main_arg2 (by decide)),
      (h c _ (mem_uc main_arg3 (by decide))).trans (W5_arg m ρ (admOf m hpre) c main_arg3 (by decide)),
      (h c _ (mem_uc main_arg4 (by decide))).trans (W5_arg m ρ (admOf m hpre) c main_arg4 (by decide)),
      (h c _ (mem_uc main_arg5 (by decide))).trans (W5_arg m ρ (admOf m hpre) c main_arg5 (by decide)),
      (h c _ (mem_uc main_arg6 (by decide))).trans (W5_arg m ρ (admOf m hpre) c main_arg6 (by decide)),
      (h c _ (mem_uc main_arg7 (by decide))).trans (W5_arg m ρ (admOf m hpre) c main_arg7 (by decide))⟩)
    (run_of_pre m ρ hpre)

end Cert.Kernel.Run

end
-- ==== Proof.Spec.lean ====
/-
  What the two programs compute, as plain functions on extended reals, stated over literal index sets.

  * The final user table: entry (p, q) is  a(p,q) + (½·s₁(p,q) + ½·r₁(p,q)) + (½·s₂(p,q) + ½·r₂(p,q)),
    where a is the user embedding, s₁ / s₂ the first and second social aggregates and r₁ / r₂ the first and
    second rating aggregates. The sums are taken in exactly this grouping on both sides, so no law of the
    extended reals beyond reading each operation at an index is needed.
  * A batch of rows gathered out of a table with 64 columns: row i of the result is the table's row named by
    the i-th index word. The row is taken modulo the table's height so that the function is total; for a word
    in range it is the word itself (`rowOf_of_lt`).
  * The prediction: the logistic function of the inner product over the 64 columns of the gathered user row
    and the gathered item row.
-/
import Idealize.ShloMosaic.PureOps.Ideal
import Idealize.ShloMosaic.Lib.ValueIdx

noncomputable section

open scoped BigOperators

namespace Cert.Spec

open Idealize.ShloMosaic Idealize.ShloMosaic.ValueIdx

/-- The user table's index set, 100000 rows of 64 columns. -/
abbrev SU : Shape := ⟨2, ![100000, 64]⟩
/-- The item table's index set, 50000 rows of 64 columns. -/
abbrev SI : Shape := ⟨2, ![50000, 64]⟩
/-- The batch's index set, 16384 entries. -/
abbrev SB : Shape := ⟨1, ![16384]⟩
/-- The gathered rows' index set, 16384 rows of 64 columns. -/
abbrev SBE : Shape := ⟨2, ![16384, 64]⟩

/-- The weight one half, as the binary32 word both programs carry. -/
abbrev half : EReal := Ideal.ofBits .f32 0x3F000000#32

/-- The final user table from the embedding and the four aggregates. -/
def finalUser (a s1 r1 s2 r2 : SU.Idx → EReal) : SU.Idx → EReal :=
  fun j => (a j + (half * s1 j + half * r1 j)) + (half * s2 j + half * r2 j)

/-- The row of a table of height `n` that an index word names. -/
def rowOf (n : Nat) (hn : 0 < n) (w : BitVec 32) : Fin n := ⟨w.toNat % n, Nat.mod_lt _ hn⟩

/-- A word in range names the row with its own number. -/
theorem rowOf_of_lt (n : Nat) (hn : 0 < n) (w : BitVec 32) (h : w.toNat < n) : (rowOf n hn w).val = w.toNat :=
  Nat.mod_eq_of_lt h

/-- The rows of the user table that the batch's index words name. -/
def gatherUser (T : SU.Idx → EReal) (idx : SB.Idx → BitVec 32) : SBE.Idx → EReal :=
  fun j => T (ix2 (rowOf 100000 (by decide) (idx (ix1 (j 0)))) (j 1))

/-- The rows of the item table that the batch's index words name. -/
def gatherItem (T : SI.Idx → EReal) (idx : SB.Idx → BitVec 32) : SBE.Idx → EReal :=
  fun j => T (ix2 (rowOf 50000 (by decide) (idx (ix1 (j 0)))) (j 1))

/-- The prediction for each batch entry: the logistic function of the rows' inner product. -/
def predict (lu li : SBE.Idx → EReal) : SB.Idx → EReal :=
  fun i => Ideal.logistic (∑ k : Fin 64, lu (ix2 (i 0) k) * li (ix2 (i 0) k))

end Cert.Spec

end
-- ==== Proof.KValue0.lean ====
/-
  The first region's result: the final user table, entry by entry.

  At grid point t the region writes back rows 2000·t … 2000·t + 1999 (all 64 columns) of the result, and what it
  writes there is the body's one store: entry by entry  a + (½·s₁ + ½·r₁) + (½·s₂ + ½·r₂)  of the five input blocks
  staged at t, which are the same rows of the five input tables. So what point t writes back is the same rows of
  the whole-table function  a + (½·s₁ + ½·r₁) + (½·s₂ + ½·r₂).  The 50 blocks tile the 100000 rows (row r lies in
  block r / 2000), and every point writes its block back, so after the region the result table is that function.
-/
import proofs.«156973_j70892730188381_2_alg».proof.Proof.KRegion0
import proofs.«156973_j70892730188381_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RunValue

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole block. -/
theorem zero_off2 : (![0, 0] : Fin 2 → Nat) = fun _ => 0 := funext fun a => by fin_cases a <;> rfl

/-- The body's arithmetic at an entry: a + (½·s₁ + ½·r₁) + (½·s₂ + ½·r₂), the reshapes in it being identities. -/
theorem pay_apply (s1 r1 s2 r2 a : Vec Ideal S2000x64 .f32) (j : S2000x64.Idx) :
    k0_pay1 s1 r1 s2 r2 a j
      = (a j + (Cert.Spec.half * s1 j + Cert.Spec.half * r1 j)) + (Cert.Spec.half * s2 j + Cert.Spec.half * r2 j) := by
  have e1 := congrFun (shapeCast_self s1 shapeCasts_S2000x64_S2000x64) j
  have e2 := congrFun (shapeCast_self r1 shapeCasts_S2000x64_S2000x64) j
  have e3 := congrFun (shapeCast_self s2 shapeCasts_S2000x64_S2000x64) j
  have e4 := congrFun (shapeCast_self r2 shapeCasts_S2000x64_S2000x64) j
  show (a j + (Cert.Spec.half * shapeCast S2000x64 s1 shapeCasts_S2000x64_S2000x64 j
          + Cert.Spec.half * shapeCast S2000x64 r1 shapeCasts_S2000x64_S2000x64 j))
        + (Cert.Spec.half * shapeCast S2000x64 s2 shapeCasts_S2000x64_S2000x64 j
          + Cert.Spec.half * shapeCast S2000x64 r2 shapeCasts_S2000x64_S2000x64 j) = _
  rw [e1, e2, e3, e4]

/-- The body's value at a block position, when each input block there holds its table's entry at the table
    position i: the combination's entry at i. -/
theorem comb_at (A S1 R1 S2 R2 : S100000x64.Idx → EReal) (x0 x1 x2 x3 x4 : Vec Ideal S2000x64 .f32)
    (y : S2000x64.Idx) (i : S100000x64.Idx) (h0 : x0 y = A i) (h1 : x1 y = S1 i) (h2 : x2 y = R1 i) (h3 : x3 y = S2 i)
    (h4 : x4 y = R2 i) : k0_pay1 x1 x2 x3 x4 x0 y = Cert.Spec.finalUser A S1 R1 S2 R2 i := by
  rw [pay_apply, h0, h1, h2, h3, h4]; rfl

/-- All six windows have the same index map: block t of every table is rows 2000·t … 2000·t + 1999. -/
theorem idx_same (t : Fin cfg0.N) :
    win0_0.index t = win0_5.index t ∧ win0_1.index t = win0_5.index t ∧ win0_2.index t = win0_5.index t
      ∧ win0_3.index t = win0_5.index t ∧ win0_4.index t = win0_5.index t := ⟨rfl, rfl, rfl, rfl, rfl⟩

/-- The result window's block index at point t is (t, 0), decided once over the 50 points. -/
theorem idx_val : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- What point t writes back is rows 2000·t … 2000·t + 1999 of the whole-table combination. -/
theorem flushed_eq (c : Dev nD) (t : Fin cfg0.N) :
    (dat0 V c).flushed 5 t = ((cfg0.win 5).blk t).view.read (Elt Ideal)
      (Cert.Spec.finalUser (V c main_arg0) (V c main_v38) (V c main_v60) (V c main_v101) (V c main_v123)) := by
  show (cfg0.win 5).cut (grid0.coords t) ((dat0 V c).after 5 t) = _
  rw [dat0_after_5]
  unfold comb0
  rw [View.canon_unit_zero zero_off2]
  simp only [View.ld_unit_zero (S := S2000x64) zero_off2]
  obtain ⟨e0, e1, e2, e3, e4⟩ := idx_same t
  funext j
  have h0 : ((cfg0.win 0).blk t).view.emb ((win0 5).xinj (grid0.coords t) j) = ((cfg0.win 5).blk t).view.emb j := by
    funext a; apply Fin.ext
    match a with
    | ⟨0, _⟩ => show win0_0.index t (0 : Fin 2) * 2000 + 1 * (j 0).val = win0_5.index t (0 : Fin 2) * 2000 + 1 * (j 0).val; rw [e0]
    | ⟨1, _⟩ => show win0_0.index t (1 : Fin 2) * 64 + 1 * (j 1).val = win0_5.index t (1 : Fin 2) * 64 + 1 * (j 1).val; rw [e0]
  have h1 : ((cfg0.win 1).blk t).view.emb ((win0 5).xinj (grid0.coords t) j) = ((cfg0.win 5).blk t).view.emb j := by
    funext a; apply Fin.ext
    match a with
    | ⟨0, _⟩ => show win0_1.index t (0 : Fin 2) * 2000 + 1 * (j 0).val = win0_5.index t (0 : Fin 2) * 2000 + 1 * (j 0).val; rw [e1]
    | ⟨1, _⟩ => show win0_1.index t (1 : Fin 2) * 64 + 1 * (j 1).val = win0_5.index t (1 : Fin 2) * 64 + 1 * (j 1).val; rw [e1]
  have h2 : ((cfg0.win 2).blk t).view.emb ((win0 5).xinj (grid0.coords t) j) = ((cfg0.win 5).blk t).view.emb j := by
    funext a; apply Fin.ext
    match a with
    | ⟨0, _⟩ => show win0_2.index t (0 : Fin 2) * 2000 + 1 * (j 0).val = win0_5.index t (0 : Fin 2) * 2000 + 1 * (j 0).val; rw [e2]
    | ⟨1, _⟩ => show win0_2.index t (1 : Fin 2) * 64 + 1 * (j 1).val = win0_5.index t (1 : Fin 2) * 64 + 1 * (j 1).val; rw [e2]
  have h3 : ((cfg0.win 3).blk t).view.emb ((win0 5).xinj (grid0.coords t) j) = ((cfg0.win 5).blk t).view.emb j := by
    funext a; apply Fin.ext
    match a with
    | ⟨0, _⟩ => show win0_3.index t (0 : Fin 2) * 2000 + 1 * (j 0).val = win0_5.index t (0 : Fin 2) * 2000 + 1 * (j 0).val; rw [e3]
    | ⟨1, _⟩ => show win0_3.index t (1 : Fin 2) * 64 + 1 * (j 1).val = win0_5.index t (1 : Fin 2) * 64 + 1 * (j 1).val; rw [e3]
  have h4 : ((cfg0.win 4).blk t).view.emb ((win0 5).xinj (grid0.coords t) j) = ((cfg0.win 5).blk t).view.emb j := by
    funext a; apply Fin.ext
    match a with
    | ⟨0, _⟩ => show win0_4.index t (0 : Fin 2) * 2000 + 1 * (j 0).val = win0_5.index t (0 : Fin 2) * 2000 + 1 * (j 0).val; rw [e4]
    | ⟨1, _⟩ => show win0_4.index t (1 : Fin 2) * 64 + 1 * (j 1).val = win0_5.index t (1 : Fin 2) * 64 + 1 * (j 1).val; rw [e4]
  show k0_pay1 (blk0 V c 1 t) (blk0 V c 2 t) (blk0 V c 3 t) (blk0 V c 4 t) (blk0 V c 0 t) ((win0 5).xinj (grid0.coords t) j)
    = Cert.Spec.finalUser (V c main_arg0) (V c main_v38) (V c main_v60) (V c main_v101) (V c main_v123)
        (((cfg0.win 5).blk t).view.emb j)
  refine comb_at (V c main_arg0) (V c main_v38) (V c main_v60) (V c main_v101) (V c main_v123) _ _ _ _ _ _ _ ?_ ?_ ?_ ?_ ?_
  · show V c main_arg0 (((cfg0.win 0).blk t).view.emb _) = _; exact congrArg _ h0
  · show V c main_v38 (((cfg0.win 1).blk t).view.emb _) = _; exact congrArg _ h1
  · show V c main_v60 (((cfg0.win 2).blk t).view.emb _) = _; exact congrArg _ h2
  · show V c main_v101 (((cfg0.win 3).blk t).view.emb _) = _; exact congrArg _ h3
  · show V c main_v123 (((cfg0.win 4).blk t).view.emb _) = _; exact congrArg _ h4

/-- A position of the result table lies in point t's block exactly when its row is one of the block's 2000 rows
    (and its column one of the 64). -/
theorem mem_blk (t : Fin cfg0.N) (i : S100000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v124).slice (win0_5.rect t)).set ↔ _
  rw [View.set_slice_whole, Rect.mem_set_unit]
  exact Iff.rfl

/-- Every position of the result table lies in the block of the point its row divided by 2000 names, and that
    point writes its block back. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_5 _, ?_⟩
  rw [mem_blk]
  obtain ⟨q0, q1⟩ := idx_val ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [q0]; show (i 0).val / 2000 * 2000 ≤ (i 0).val ∧ (i 0).val < (i 0).val / 2000 * 2000 + 2000; omega
  | ⟨1, _⟩ =>
    show win0_5.index _ (1 : Fin 2) * 64 ≤ (i 1).val ∧ (i 1).val < win0_5.index _ (1 : Fin 2) * 64 + 64
    rw [q1]; omega

/-- After the first region the result table is the combination a + (½·s₁ + ½·r₁) + (½·s₂ + ½·r₂) of the five
    input tables as the region finds them. -/
theorem region0_result (c : Dev nD) : (dat0 V c).arrAt 5 cfg0.N
    = Cert.Spec.finalUser (V c main_arg0) (V c main_v38) (V c main_v60) (V c main_v101) (V c main_v123) :=
  (dat0 V c).arrAt_eq_of_cover 5
    (Cert.Spec.finalUser (V c main_arg0) (V c main_v38) (V c main_v60) (V c main_v101) (V c main_v123))
    (fun t _ => flushed_eq V c t) cover

end Cert.KernelIdeal.RunValue

end
-- ==== Proof.KValue1.lean ====
/-
  The second region's three results, entry by entry.

  At grid point t the region stages row u(t) of the user-side table and row v(t) of the item-side table, where
  u(t) and v(t) are the two index tables' words at t read unsigned, and writes back row t of three results: the
  staged user row, the staged item row, and the logistic function of the sum over the 64 columns of the two rows'
  entrywise product. The two stores of the rows are reshapes that change nothing; the lane sum starts from zero.
  Each result's block at point t is exactly its row t, every point writes its blocks back, and the 16384 rows are
  all of each result. The result is stated through the row a word names — its number modulo the table's height —, which
  for a word in range is the row with the word's own number, the row that was staged.
-/
import proofs.«156973_j70892730188381_2_alg».proof.Proof.KRegion1
import proofs.«156973_j70892730188381_2_alg».proof.Proof.KTables
import proofs.«156973_j70892730188381_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RunValue

open Cert.KernelIdeal Cert.KernelIdeal.Gen Cert.KernelIdeal.Run
open Idealize.ShloMosaic Idealize.ShloMosaic.TcCoe Idealize.SL.Sem
open Idealize.ShloMosaic.Pipeline (Dat)

/-- The zero offsets of a whole row block. -/
theorem zero_off3 : (![0, 0, 0] : Fin 3 → Nat) = fun _ => 0 := funext fun a => by fin_cases a <;> rfl

/-- The store of the staged user row leaves the row as it is. -/
theorem keepU_eq (x : Vec Ideal S1x1x64 .f32) : keepU x = x := by
  unfold keepU
  rw [View.canon_unit_zero zero_off3]
  simp only [View.ld_unit_zero (S := S1x1x64) zero_off3]
  exact shapeCast_self x shapeCasts_S1x1x64_S1x1x64

/-- The store of the staged item row leaves the row as it is. -/
theorem keepI_eq (x : Vec Ideal S1x1x64 .f32) : keepI x = x := by
  unfold keepI
  rw [View.canon_unit_zero zero_off3]
  simp only [View.ld_unit_zero (S := S1x1x64) zero_off3]
  exact shapeCast_self x shapeCasts_S1x1x64_S1x1x64

/-- The third payload at its one entry: the logistic function of the sum over the 64 columns of the two rows'
    entrywise product. -/
theorem pay3_apply (x0 x1 : Vec Ideal S1x1x64 .f32) (y : S1x1x1.Idx) :
    k1_pay3 x0 x1 y = Ideal.logistic (∑ k : Fin 64,
      x0 (ValueIdx.ix3 (0 : Fin 1) (0 : Fin 1) k) * x1 (ValueIdx.ix3 (0 : Fin 1) (0 : Fin 1) k)) := by
  have e0 : k1_pay1 x0 = x0 := shapeCast_self x0 shapeCasts_S1x1x64_S1x1x64
  have e1 : k1_pay2 x1 = x1 := shapeCast_self x1 shapeCasts_S1x1x64_S1x1x64
  show Ideal.logistic (shapeCast S1x1x1 (multiReduction (F := Ideal) .add [2] S1x1 (mulf (k1_pay1 x0) (k1_pay2 x1))
      0x00000000#32 reduces_S1x1x64_S1x1 (.inl rfl) rfl) shapeCasts_S1x1_S1x1x1 y) = _
  rw [e0, e1]
  refine congrArg Ideal.logistic ?_
  refine (shapeCast_apply _ shapeCasts_S1x1_S1x1x1 y (ValueIdx.ix2 (0 : Fin 1) (0 : Fin 1)) ?_).trans ?_
  · have h1 : (S1x1.rowMajor (ValueIdx.ix2 (0 : Fin 1) (0 : Fin 1))).val < 1 := (S1x1.rowMajor _).isLt
    have h2 : (S1x1x1.rowMajor y).val < 1 := (S1x1x1.rowMajor y).isLt
    omega
  · refine (Ideal.multiReduction_add_single _ _ reduces_S1x1x64_S1x1 _ _ _).trans ?_
    refine Finset.sum_congr rfl fun k _ => ?_
    have hk : reduces_S1x1x64_S1x1.lift (ValueIdx.ix2 (0 : Fin 1) (0 : Fin 1)) k = ValueIdx.ix3 (0 : Fin 1) (0 : Fin 1) k :=
      funext fun c => Fin.ext (by match c with | ⟨0, _⟩ => rfl | ⟨1, _⟩ => rfl | ⟨2, _⟩ => rfl)
    show x0 (reduces_S1x1x64_S1x1.lift (ValueIdx.ix2 (0 : Fin 1) (0 : Fin 1)) k)
        * x1 (reduces_S1x1x64_S1x1.lift (ValueIdx.ix2 (0 : Fin 1) (0 : Fin 1)) k) = _
    rw [hk]
    rfl

/-- What the body leaves in the prediction's staging buffer, at its one entry. -/
theorem score_apply (x0 x1 : Vec Ideal S1x1x64 .f32) (y : S1x1x1.Idx) :
    score x0 x1 y = Ideal.logistic (∑ k : Fin 64,
      x0 (ValueIdx.ix3 (0 : Fin 1) (0 : Fin 1) k) * x1 (ValueIdx.ix3 (0 : Fin 1) (0 : Fin 1) k)) := by
  unfold score
  rw [View.canon_unit_zero zero_off3]
  simp only [View.ld_unit_zero (S := S1x1x64) zero_off3]
  exact pay3_apply x0 x1 y

/-- A grid point's one coordinate is the point's number. -/
theorem coords_val (t : Fin grid1.N) : (grid1.coords t (0 : Fin 1)).val = t.val := by
  have hN : grid1.N = 16384 := N_1
  have ht : t.val < grid1.N := t.isLt
  show t.val / grid1.stride (0 : Fin 1) % grid1.bound (0 : Fin 1) = t.val
  rw [show grid1.stride (0 : Fin 1) = 1 from by decide, show grid1.bound (0 : Fin 1) = 16384 from rfl]
  omega

/-- The three results' index maps name row i at the grid point with coordinate i. -/
theorem out_map (i : grid1.Coords) :
    cc1_transform_2 i = ![(i 0).val, 0, 0] ∧ cc1_transform_3 i = ![(i 0).val, 0, 0] ∧ cc1_transform_4 i = ![(i 0).val, 0, 0] := by
  have hi : (i 0).val < 16384 := (i 0).isLt
  have e : (BitVec.ofNat 32 (i 0).val).toNat = (i 0).val := by rw [BitVec.toNat_ofNat]; omega
  refine ⟨?_, ?_, ?_⟩
  · show ![(BitVec.ofNat 32 (i 0).val).toNat, (0#32).toNat, (0#32).toNat] = _; rw [e]; rfl
  · show ![(BitVec.ofNat 32 (i 0).val).toNat, (0#32).toNat, (0#32).toNat] = _; rw [e]; rfl
  · show ![(BitVec.ofNat 32 (i 0).val).toNat, (0#32).toNat, (0#32).toNat] = _; rw [e]; rfl

/-- The staged user row, stored back: when the staging buffer's entry at y is the table's entry at p, and p is
    the position (u, 0, q) with u the in-range word the index table holds at i's row and q i's column, the stored
    entry is the table's entry in the row the word names, at column q. -/
theorem user_at (T : S100000x1x64.Idx → EReal) (tab : S16384.Idx → BitVec 32) (hr : ∀ j, (tab j).toNat < 100000)
    (x : Vec Ideal S1x1x64 .f32) (y : S1x1x64.Idx) (p : S100000x1x64.Idx) (i : S16384x1x64.Idx)
    (hx : x y = T p) (hp0 : (p 0).val = (tab (ValueIdx.ix1 (i 0))).toNat) (hp1 : (p 1).val = 0)
    (hp2 : (p 2).val = (i 2).val) :
    keepU x y = T (ValueIdx.ix3 (Cert.Spec.rowOf 100000 (by decide) (tab (ValueIdx.ix1 (i 0)))) (0 : Fin 1) (i 2)) := by
  rw [keepU_eq, hx]
  refine congrArg T (funext fun d => Fin.ext ?_)
  match d with
  | ⟨0, _⟩ => show (p 0).val = (Cert.Spec.rowOf 100000 _ (tab (ValueIdx.ix1 (i 0)))).val
              rw [Cert.Spec.rowOf_of_lt _ _ _ (hr _)]; exact hp0
  | ⟨1, _⟩ => exact hp1
  | ⟨2, _⟩ => exact hp2

/-- The same for the staged item row and the item-side table. -/
theorem item_at (T : S50000x1x64.Idx → EReal) (tab : S16384.Idx → BitVec 32) (hr : ∀ j, (tab j).toNat < 50000)
    (x : Vec Ideal S1x1x64 .f32) (y : S1x1x64.Idx) (p : S50000x1x64.Idx) (i : S16384x1x64.Idx)
    (hx : x y = T p) (hp0 : (p 0).val = (tab (ValueIdx.ix1 (i 0))).toNat) (hp1 : (p 1).val = 0)
    (hp2 : (p 2).val = (i 2).val) :
    keepI x y = T (ValueIdx.ix3 (Cert.Spec.rowOf 50000 (by decide) (tab (ValueIdx.ix1 (i 0)))) (0 : Fin 1) (i 2)) := by
  rw [keepI_eq, hx]
  refine congrArg T (funext fun d => Fin.ext ?_)
  match d with
  | ⟨0, _⟩ => show (p 0).val = (Cert.Spec.rowOf 50000 _ (tab (ValueIdx.ix1 (i 0)))).val
              rw [Cert.Spec.rowOf_of_lt _ _ _ (hr _)]; exact hp0
  | ⟨1, _⟩ => exact hp1
  | ⟨2, _⟩ => exact hp2

/-- The prediction's entry: when the two staging buffers hold, at column k, the user-side table's entry at
    (u, 0, k) and the item-side table's at (v, 0, k), u and v the in-range words the two index tables hold at r, the
    stored entry is the logistic function of the inner product of the rows the two words name. -/
theorem score_at (TU : S100000x1x64.Idx → EReal) (TI : S50000x1x64.Idx → EReal) (tabU tabI : S16384.Idx → BitVec 32)
    (hU : ∀ j, (tabU j).toNat < 100000) (hI : ∀ j, (tabI j).toNat < 50000)
    (x0 x1 : Vec Ideal S1x1x64 .f32) (y : S1x1x1.Idx) (r : S16384.Idx)
    (pU : Fin 64 → S100000x1x64.Idx) (pI : Fin 64 → S50000x1x64.Idx)
    (hx0 : ∀ k, x0 (ValueIdx.ix3 (0 : Fin 1) (0 : Fin 1) k) = TU (pU k))
    (hU0 : ∀ k, (pU k 0).val = (tabU r).toNat) (hU1 : ∀ k, (pU k 1).val = 0) (hU2 : ∀ k, (pU k 2).val = k.val)
    (hx1 : ∀ k, x1 (ValueIdx.ix3 (0 : Fin 1) (0 : Fin 1) k) = TI (pI k))
    (hI0 : ∀ k, (pI k 0).val = (tabI r).toNat) (hI1 : ∀ k, (pI k 1).val = 0) (hI2 : ∀ k, (pI k 2).val = k.val) :
    score x0 x1 y = Ideal.logistic (∑ k : Fin 64,
      TU (ValueIdx.ix3 (Cert.Spec.rowOf 100000 (by decide) (tabU r)) (0 : Fin 1) k)
        * TI (ValueIdx.ix3 (Cert.Spec.rowOf 50000 (by decide) (tabI r)) (0 : Fin 1) k)) := by
  rw [score_apply]
  refine congrArg Ideal.logistic (Finset.sum_congr rfl fun k _ => ?_)
  have eU : pU k = ValueIdx.ix3 (Cert.Spec.rowOf 100000 (by decide) (tabU r)) (0 : Fin 1) k :=
    funext fun d => Fin.ext (by
      match d with
      | ⟨0, _⟩ => show (pU k 0).val = (Cert.Spec.rowOf 100000 _ (tabU r)).val
                  rw [Cert.Spec.rowOf_of_lt _ _ _ (hU _)]; exact hU0 k
      | ⟨1, _⟩ => exact hU1 k
      | ⟨2, _⟩ => exact hU2 k)
  have eI : pI k = ValueIdx.ix3 (Cert.Spec.rowOf 50000 (by decide) (tabI r)) (0 : Fin 1) k :=
    funext fun d => Fin.ext (by
      match d with
      | ⟨0, _⟩ => show (pI k 0).val = (Cert.Spec.rowOf 50000 _ (tabI r)).val
                  rw [Cert.Spec.rowOf_of_lt _ _ _ (hI _)]; exact hI0 k
      | ⟨1, _⟩ => exact hI1 k
      | ⟨2, _⟩ => exact hI2 k)
  rw [hx0 k, hx1 k, eU, eI]

section Region1
variable (a : (pcfg1 (F := Ideal)).Adm)
variable (V : (c : Dev nD) → (b : Ref sig .tc) → Buf (Elt Ideal) ((c : Thread nD τ).loc b))

/-- The rows of the user-side table that the first index table names: the second region's first result. -/
abbrev userRows (c : Dev nD) : S16384x1x64.Idx → EReal := fun j =>
  V c main_v125 (ValueIdx.ix3 (Cert.Spec.rowOf 100000 (by decide) (Tables.tab0 a.1 (ValueIdx.ix1 (j 0)))) (0 : Fin 1) (j 2))

/-- The first result's block index at point t is (t, 0, 0). -/
theorem idx2 (t : Fin (cfg1 a).N) : ((cfg1 a).win (2 : Fin 5)).index t = ![t.val, 0, 0] := by
  show cc1_transform_2 (grid1.coords t) = _
  rw [(out_map _).1, coords_val]

/-- The user-side table's staged block at point t is the row the first index table's word at t names. -/
theorem idx0 (t : Fin (cfg1 a).N) :
    ((cfg1 a).win (0 : Fin 5)).index t = ![(Tables.tab0 a.1 (Tables.rowIdx (grid1.coords t))).toNat, 0, 0] := by
  show cc1_transform_0 k1_off1_inb numel1_S1 a.1 (grid1.coords t) = _
  exact Tables.word0 a.1 _

/-- What point t writes back of the first result is row t of the named rows. -/
theorem flushed2_eq (h0 : ∀ j : S16384.Idx, (Tables.tab0 a.1 j).toNat < 100000) (c : Dev nD) (t : Fin (cfg1 a).N) :
    (dat1 a V c).flushed (2 : Fin 5) t = (((cfg1 a).win (2 : Fin 5)).blk t).view.read (Elt Ideal) (userRows a V c) := by
  show ((cfg1 a).win (2 : Fin 5)).cut ((cfg1 a).grid.coords t) ((dat1 a V c).after (2 : Fin 5) t) = _
  rw [dat1_after_2]
  funext j
  show keepU (blk1 a V c 0 t) (((cfg1 a).win (2 : Fin 5)).xinj ((cfg1 a).grid.coords t) j)
    = userRows a V c ((((cfg1 a).win (2 : Fin 5)).blk t).view.emb j)
  have hj0 : (j 0).val < 1 := (j 0).isLt
  have hj1 : (j 1).val < 1 := (j 1).isLt
  have eo := idx2 a t
  have ei := idx0 a t
  refine user_at (V c main_v125) (Tables.tab0 a.1) h0 (blk1 a V c 0 t)
    (((cfg1 a).win (2 : Fin 5)).xinj ((cfg1 a).grid.coords t) j)
    ((((cfg1 a).win (0 : Fin 5)).blk t).view.emb (((cfg1 a).win (2 : Fin 5)).xinj ((cfg1 a).grid.coords t) j))
    ((((cfg1 a).win (2 : Fin 5)).blk t).view.emb j) rfl ?_ ?_ ?_
  · show ((cfg1 a).win (0 : Fin 5)).index t (0 : Fin 3) * 1 + 1 * (j 0).val = _
    have hj0' : (j 0).val = 0 := by omega
    rw [ei, hj0']
    show (Tables.tab0 a.1 (Tables.rowIdx (grid1.coords t))).toNat * 1 + 1 * 0 = _
    have hrow : Tables.rowIdx (grid1.coords t)
        = ValueIdx.ix1 ((((cfg1 a).win (2 : Fin 5)).blk t).view.emb j 0) := by
      funext d; apply Fin.ext
      match d with
      | ⟨0, _⟩ =>
        show (grid1.coords t (0 : Fin 1)).val = ((cfg1 a).win (2 : Fin 5)).index t (0 : Fin 3) * 1 + 1 * (j 0).val
        rw [eo, coords_val]; show t.val = t.val * 1 + 1 * (j 0).val; omega
    rw [Nat.mul_one, Nat.mul_zero, Nat.add_zero]
    exact congrArg (fun r => (Tables.tab0 a.1 r).toNat) hrow
  · show ((cfg1 a).win (0 : Fin 5)).index t (1 : Fin 3) * 1 + 1 * (j 1).val = 0
    rw [ei]; show 0 * 1 + 1 * (j 1).val = 0; omega
  · show ((cfg1 a).win (0 : Fin 5)).index t (2 : Fin 3) * 64 + 1 * (j 2).val
      = ((cfg1 a).win (2 : Fin 5)).index t (2 : Fin 3) * 64 + 1 * (j 2).val
    rw [ei, eo]; rfl

/-- A position of the first result lies in point t's block exactly when it lies in row t. -/
theorem mem_blk2 (t : Fin (cfg1 a).N) (i : S16384x1x64.Idx) :
    i ∈ (((cfg1 a).win (2 : Fin 5)).blk t).view.set ↔ ∀ d : Fin 3,
      ((cfg1 a).win (2 : Fin 5)).index t d * S1x1x64.size d ≤ (i d).val
        ∧ (i d).val < ((cfg1 a).win (2 : Fin 5)).index t d * S1x1x64.size d + S1x1x64.size d := by
  show i ∈ ((View.whole main_v127_0).slice (((cfg1 a).win (2 : Fin 5)).rect t)).set ↔ _
  rw [View.set_slice_whole, Rect.mem_set_unit]
  exact Iff.rfl

/-- The first result is written back at every point: consecutive points name different rows. -/
theorem flush2 (t : Fin (cfg1 a).N) : ((cfg1 a).win (2 : Fin 5)).flush t = true := by
  have hN : (cfg1 a).N = 16384 := N_1
  have ht : t.val < 16384 := lt_of_lt_of_eq t.isLt hN
  rw [Pipeline.Window.flush_out _ rfl]
  by_cases h : t.val + 1 < 16384
  · refine Or.inr ⟨lt_of_lt_of_eq h hN.symm, fun e => ?_⟩
    have e' := congrFun e (0 : Fin 3)
    rw [idx2, idx2] at e'
    have e'' : t.val + 1 = t.val := e'
    omega
  · refine Or.inl ?_
    exact (by omega : t.val + 1 = 16384).trans hN.symm

/-- Every position of the first result lies in the block of the point its row names. -/
theorem cover2 (i : S16384x1x64.Idx) :
    ∃ t : Fin (cfg1 a).N, ((cfg1 a).win (2 : Fin 5)).flush t = true ∧ i ∈ (((cfg1 a).win (2 : Fin 5)).blk t).view.set := by
  have hN : (cfg1 a).N = 16384 := N_1
  have hi0 : (i 0).val < 16384 := (i 0).isLt
  have hi1 : (i 1).val < 1 := (i 1).isLt
  have hi2 : (i 2).val < 64 := (i 2).isLt
  refine ⟨⟨(i 0).val, lt_of_lt_of_eq hi0 hN.symm⟩, flush2 a _, ?_⟩
  rw [mem_blk2]
  intro d
  match d with
  | ⟨0, _⟩ =>
    show ((cfg1 a).win (2 : Fin 5)).index _ (0 : Fin 3) * 1 ≤ (i 0).val
      ∧ (i 0).val < ((cfg1 a).win (2 : Fin 5)).index _ (0 : Fin 3) * 1 + 1
    rw [idx2]; show (i 0).val * 1 ≤ (i 0).val ∧ (i 0).val < (i 0).val * 1 + 1; omega
  | ⟨1, _⟩ =>
    show ((cfg1 a).win (2 : Fin 5)).index _ (1 : Fin 3) * 1 ≤ (i 1).val
      ∧ (i 1).val < ((cfg1 a).win (2 : Fin 5)).index _ (1 : Fin 3) * 1 + 1
    rw [idx2]; show 0 * 1 ≤ (i 1).val ∧ (i 1).val < 0 * 1 + 1; omega
  | ⟨2, _⟩ =>
    show ((cfg1 a).win (2 : Fin 5)).index _ (2 : Fin 3) * 64 ≤ (i 2).val
      ∧ (i 2).val < ((cfg1 a).win (2 : Fin 5)).index _ (2 : Fin 3) * 64 + 64
    rw [idx2]; show 0 * 64 ≤ (i 2).val ∧ (i 2).val < 0 * 64 + 64; omega

/-- After the second region its first result holds, in row i, the row of the user-side table that the first index table's word at i names. -/
theorem region1_user (h0 : ∀ j : S16384.Idx, (Tables.tab0 a.1 j).toNat < 100000) (c : Dev nD) :
    (dat1 a V c).arrAt (2 : Fin 5) (cfg1 a).N
      = fun j : S16384x1x64.Idx => V c main_v125 (ValueIdx.ix3
          (Cert.Spec.rowOf 100000 (by decide) (Tables.tab0 a.1 (ValueIdx.ix1 (j 0)))) (0 : Fin 1) (j 2)) :=
  (dat1 a V c).arrAt_eq_of_cover (2 : Fin 5) (userRows a V c) (fun t _ => flushed2_eq a V h0 c t) (cover2 a)

/-- The rows of the item-side table that the second index table names: the second region's second result. -/
abbrev itemRows (c : Dev nD) : S16384x1x64.Idx → EReal := fun j =>
  V c main_v126 (ValueIdx.ix3 (Cert.Spec.rowOf 50000 (by decide) (Tables.tab1 a.1 (ValueIdx.ix1 (j 0)))) (0 : Fin 1) (j 2))

/-- The second result's block index at point t is (t, 0, 0). -/
theorem idx3 (t : Fin (cfg1 a).N) : ((cfg1 a).win (3 : Fin 5)).index t = ![t.val, 0, 0] := by
  show cc1_transform_3 (grid1.coords t) = _
  rw [(out_map _).2.1, coords_val]

/-- The item-side table's staged block at point t is the row the second index table's word at t names. -/
theorem idx1 (t : Fin (cfg1 a).N) :
    ((cfg1 a).win (1 : Fin 5)).index t = ![(Tables.tab1 a.1 (Tables.rowIdx (grid1.coords t))).toNat, 0, 0] := by
  show cc1_transform_1 k1_off1_inb numel1_S1 a.1 (grid1.coords t) = _
  exact Tables.word1 a.1 _

/-- What point t writes back of the second result is row t of the named rows. -/
theorem flushed3_eq (h1 : ∀ j : S16384.Idx, (Tables.tab1 a.1 j).toNat < 50000) (c : Dev nD) (t : Fin (cfg1 a).N) :
    (dat1 a V c).flushed (3 : Fin 5) t = (((cfg1 a).win (3 : Fin 5)).blk t).view.read (Elt Ideal) (itemRows a V c) := by
  show ((cfg1 a).win (3 : Fin 5)).cut ((cfg1 a).grid.coords t) ((dat1 a V c).after (3 : Fin 5) t) = _
  rw [dat1_after_3]
  funext j
  show keepI (blk1 a V c 1 t) (((cfg1 a).win (3 : Fin 5)).xinj ((cfg1 a).grid.coords t) j)
    = itemRows a V c ((((cfg1 a).win (3 : Fin 5)).blk t).view.emb j)
  have hj0 : (j 0).val < 1 := (j 0).isLt
  have hj1 : (j 1).val < 1 := (j 1).isLt
  have eo := idx3 a t
  have ei := idx1 a t
  refine item_at (V c main_v126) (Tables.tab1 a.1) h1 (blk1 a V c 1 t)
    (((cfg1 a).win (3 : Fin 5)).xinj ((cfg1 a).grid.coords t) j)
    ((((cfg1 a).win (1 : Fin 5)).blk t).view.emb (((cfg1 a).win (3 : Fin 5)).xinj ((cfg1 a).grid.coords t) j))
    ((((cfg1 a).win (3 : Fin 5)).blk t).view.emb j) rfl ?_ ?_ ?_
  · show ((cfg1 a).win (1 : Fin 5)).index t (0 : Fin 3) * 1 + 1 * (j 0).val = _
    have hj0' : (j 0).val = 0 := by omega
    rw [ei, hj0']
    show (Tables.tab1 a.1 (Tables.rowIdx (grid1.coords t))).toNat * 1 + 1 * 0 = _
    have hrow : Tables.rowIdx (grid1.coords t)
        = ValueIdx.ix1 ((((cfg1 a).win (3 : Fin 5)).blk t).view.emb j 0) := by
      funext d; apply Fin.ext
      match d with
      | ⟨0, _⟩ =>
        show (grid1.coords t (0 : Fin 1)).val = ((cfg1 a).win (3 : Fin 5)).index t (0 : Fin 3) * 1 + 1 * (j 0).val
        rw [eo, coords_val]; show t.val = t.val * 1 + 1 * (j 0).val; omega
    rw [Nat.mul_one, Nat.mul_zero, Nat.add_zero]
    exact congrArg (fun r => (Tables.tab1 a.1 r).toNat) hrow
  · show ((cfg1 a).win (1 : Fin 5)).index t (1 : Fin 3) * 1 + 1 * (j 1).val = 0
    rw [ei]; show 0 * 1 + 1 * (j 1).val = 0; omega
  · show ((cfg1 a).win (1 : Fin 5)).index t (2 : Fin 3) * 64 + 1 * (j 2).val
      = ((cfg1 a).win (3 : Fin 5)).index t (2 : Fin 3) * 64 + 1 * (j 2).val
    rw [ei, eo]; rfl

/-- A position of the second result lies in point t's block exactly when it lies in row t. -/
theorem mem_blk3 (t : Fin (cfg1 a).N) (i : S16384x1x64.Idx) :
    i ∈ (((cfg1 a).win (3 : Fin 5)).blk t).view.set ↔ ∀ d : Fin 3,
      ((cfg1 a).win (3 : Fin 5)).index t d * S1x1x64.size d ≤ (i d).val
        ∧ (i d).val < ((cfg1 a).win (3 : Fin 5)).index t d * S1x1x64.size d + S1x1x64.size d := by
  show i ∈ ((View.whole main_v127_1).slice (((cfg1 a).win (3 : Fin 5)).rect t)).set ↔ _
  rw [View.set_slice_whole, Rect.mem_set_unit]
  exact Iff.rfl

/-- The second result is written back at every point: consecutive points name different rows. -/
theorem flush3 (t : Fin (cfg1 a).N) : ((cfg1 a).win (3 : Fin 5)).flush t = true := by
  have hN : (cfg1 a).N = 16384 := N_1
  have ht : t.val < 16384 := lt_of_lt_of_eq t.isLt hN
  rw [Pipeline.Window.flush_out _ rfl]
  by_cases h : t.val + 1 < 16384
  · refine Or.inr ⟨lt_of_lt_of_eq h hN.symm, fun e => ?_⟩
    have e' := congrFun e (0 : Fin 3)
    rw [idx3, idx3] at e'
    have e'' : t.val + 1 = t.val := e'
    omega
  · refine Or.inl ?_
    exact (by omega : t.val + 1 = 16384).trans hN.symm

/-- Every position of the second result lies in the block of the point its row names. -/
theorem cover3 (i : S16384x1x64.Idx) :
    ∃ t : Fin (cfg1 a).N, ((cfg1 a).win (3 : Fin 5)).flush t = true ∧ i ∈ (((cfg1 a).win (3 : Fin 5)).blk t).view.set := by
  have hN : (cfg1 a).N = 16384 := N_1
  have hi0 : (i 0).val < 16384 := (i 0).isLt
  have hi1 : (i 1).val < 1 := (i 1).isLt
  have hi2 : (i 2).val < 64 := (i 2).isLt
  refine ⟨⟨(i 0).val, lt_of_lt_of_eq hi0 hN.symm⟩, flush3 a _, ?_⟩
  rw [mem_blk3]
  intro d
  match d with
  | ⟨0, _⟩ =>
    show ((cfg1 a).win (3 : Fin 5)).index _ (0 : Fin 3) * 1 ≤ (i 0).val
      ∧ (i 0).val < ((cfg1 a).win (3 : Fin 5)).index _ (0 : Fin 3) * 1 + 1
    rw [idx3]; show (i 0).val * 1 ≤ (i 0).val ∧ (i 0).val < (i 0).val * 1 + 1; omega
  | ⟨1, _⟩ =>
    show ((cfg1 a).win (3 : Fin 5)).index _ (1 : Fin 3) * 1 ≤ (i 1).val
      ∧ (i 1).val < ((cfg1 a).win (3 : Fin 5)).index _ (1 : Fin 3) * 1 + 1
    rw [idx3]; show 0 * 1 ≤ (i 1).val ∧ (i 1).val < 0 * 1 + 1; omega
  | ⟨2, _⟩ =>
    show ((cfg1 a).win (3 : Fin 5)).index _ (2 : Fin 3) * 64 ≤ (i 2).val
      ∧ (i 2).val < ((cfg1 a).win (3 : Fin 5)).index _ (2 : Fin 3) * 64 + 64
    rw [idx3]; show 0 * 64 ≤ (i 2).val ∧ (i 2).val < 0 * 64 + 64; omega

/-- After the second region its second result holds, in row i, the row of the item-side table that the second index table's word at i names. -/
theorem region1_item (h1 : ∀ j : S16384.Idx, (Tables.tab1 a.1 j).toNat < 50000) (c : Dev nD) :
    (dat1 a V c).arrAt (3 : Fin 5) (cfg1 a).N
      = fun j : S16384x1x64.Idx => V c main_v126 (ValueIdx.ix3
          (Cert.Spec.rowOf 50000 (by decide) (Tables.tab1 a.1 (ValueIdx.ix1 (j 0)))) (0 : Fin 1) (j 2)) :=
  (dat1 a V c).arrAt_eq_of_cover (3 : Fin 5) (itemRows a V c) (fun t _ => flushed3_eq a V h1 c t) (cover3 a)

/-- The user-side table as the second region finds it, as a function to the extended reals. -/
abbrev tblU (c : Dev nD) : S100000x1x64.Idx → EReal := V c main_v125
/-- The item-side table as the second region finds it, as a function to the extended reals. -/
abbrev tblI (c : Dev nD) : S50000x1x64.Idx → EReal := V c main_v126

/-- The predictions: for each batch entry the logistic function of the inner product of the two named rows. -/
abbrev scores (c : Dev nD) : S16384x1x1.Idx → EReal := fun j => Ideal.logistic (∑ k : Fin 64,
  tblU V c (ValueIdx.ix3 (Cert.Spec.rowOf 100000 (by decide) (Tables.tab0 a.1 (ValueIdx.ix1 (j 0)))) (0 : Fin 1) k)
    * tblI V c (ValueIdx.ix3 (Cert.Spec.rowOf 50000 (by decide) (Tables.tab1 a.1 (ValueIdx.ix1 (j 0)))) (0 : Fin 1) k))

/-- The third result's block index at point t is (t, 0, 0). -/
theorem idx4 (t : Fin (cfg1 a).N) : ((cfg1 a).win (4 : Fin 5)).index t = ![t.val, 0, 0] := by
  show cc1_transform_4 (grid1.coords t) = _
  rw [(out_map _).2.2, coords_val]

/-- What point t writes back of the third result is entry t of the predictions. -/
theorem flushed4_eq (h0 : ∀ j : S16384.Idx, (Tables.tab0 a.1 j).toNat < 100000)
    (h1 : ∀ j : S16384.Idx, (Tables.tab1 a.1 j).toNat < 50000) (c : Dev nD) (t : Fin (cfg1 a).N) :
    (dat1 a V c).flushed (4 : Fin 5) t = (((cfg1 a).win (4 : Fin 5)).blk t).view.read (Elt Ideal) (scores a V c) := by
  show ((cfg1 a).win (4 : Fin 5)).cut ((cfg1 a).grid.coords t) ((dat1 a V c).after (4 : Fin 5) t) = _
  rw [dat1_after_4]
  funext j
  show score (blk1 a V c 0 t) (blk1 a V c 1 t) (((cfg1 a).win (4 : Fin 5)).xinj ((cfg1 a).grid.coords t) j)
    = scores a V c ((((cfg1 a).win (4 : Fin 5)).blk t).view.emb j)
  have hj0 : (j 0).val < 1 := (j 0).isLt
  have e4 := idx4 a t
  have e0 := idx0 a t
  have e1 := idx1 a t
  have hrow : Tables.rowIdx (grid1.coords t)
      = ValueIdx.ix1 ((((cfg1 a).win (4 : Fin 5)).blk t).view.emb j 0) := by
    funext d; apply Fin.ext
    match d with
    | ⟨0, _⟩ =>
      show (grid1.coords t (0 : Fin 1)).val = ((cfg1 a).win (4 : Fin 5)).index t (0 : Fin 3) * 1 + 1 * (j 0).val
      rw [e4, coords_val]; show t.val = t.val * 1 + 1 * (j 0).val; omega
  refine score_at (tblU V c) (tblI V c) (Tables.tab0 a.1) (Tables.tab1 a.1) h0 h1
    (blk1 a V c 0 t) (blk1 a V c 1 t) (((cfg1 a).win (4 : Fin 5)).xinj ((cfg1 a).grid.coords t) j)
    (ValueIdx.ix1 ((((cfg1 a).win (4 : Fin 5)).blk t).view.emb j 0))
    (fun k => (((cfg1 a).win (0 : Fin 5)).blk t).view.emb (ValueIdx.ix3 (0 : Fin 1) (0 : Fin 1) k))
    (fun k => (((cfg1 a).win (1 : Fin 5)).blk t).view.emb (ValueIdx.ix3 (0 : Fin 1) (0 : Fin 1) k))
    (fun k => rfl) (fun k => ?_) (fun k => ?_) (fun k => ?_) (fun k => rfl) (fun k => ?_) (fun k => ?_) (fun k => ?_)
  · show ((cfg1 a).win (0 : Fin 5)).index t (0 : Fin 3) * 1 + 1 * 0 = _
    rw [e0]
    show (Tables.tab0 a.1 (Tables.rowIdx (grid1.coords t))).toNat * 1 + 1 * 0 = _
    rw [Nat.mul_one, Nat.mul_zero, Nat.add_zero]
    exact congrArg (fun r => (Tables.tab0 a.1 r).toNat) hrow
  · show ((cfg1 a).win (0 : Fin 5)).index t (1 : Fin 3) * 1 + 1 * 0 = 0
    rw [e0]; rfl
  · show ((cfg1 a).win (0 : Fin 5)).index t (2 : Fin 3) * 64 + 1 * k.val = k.val
    rw [e0]; show 0 * 64 + 1 * k.val = k.val; omega
  · show ((cfg1 a).win (1 : Fin 5)).index t (0 : Fin 3) * 1 + 1 * 0 = _
    rw [e1]
    show (Tables.tab1 a.1 (Tables.rowIdx (grid1.coords t))).toNat * 1 + 1 * 0 = _
    rw [Nat.mul_one, Nat.mul_zero, Nat.add_zero]
    exact congrArg (fun r => (Tables.tab1 a.1 r).toNat) hrow
  · show ((cfg1 a).win (1 : Fin 5)).index t (1 : Fin 3) * 1 + 1 * 0 = 0
    rw [e1]; rfl
  · show ((cfg1 a).win (1 : Fin 5)).index t (2 : Fin 3) * 64 + 1 * k.val = k.val
    rw [e1]; show 0 * 64 + 1 * k.val = k.val; omega

/-- A position of the third result lies in point t's block exactly when it is entry t. -/
theorem mem_blk4 (t : Fin (cfg1 a).N) (i : S16384x1x1.Idx) :
    i ∈ (((cfg1 a).win (4 : Fin 5)).blk t).view.set ↔ ∀ d : Fin 3,
      ((cfg1 a).win (4 : Fin 5)).index t d * S1x1x1.size d ≤ (i d).val
        ∧ (i d).val < ((cfg1 a).win (4 : Fin 5)).index t d * S1x1x1.size d + S1x1x1.size d := by
  show i ∈ ((View.whole main_v127_2).slice (((cfg1 a).win (4 : Fin 5)).rect t)).set ↔ _
  rw [View.set_slice_whole, Rect.mem_set_unit]
  exact Iff.rfl

/-- The third result is written back at every point: consecutive points name different entries. -/
theorem flush4 (t : Fin (cfg1 a).N) : ((cfg1 a).win (4 : Fin 5)).flush t = true := by
  have hN : (cfg1 a).N = 16384 := N_1
  have ht : t.val < 16384 := lt_of_lt_of_eq t.isLt hN
  rw [Pipeline.Window.flush_out _ rfl]
  by_cases h : t.val + 1 < 16384
  · refine Or.inr ⟨lt_of_lt_of_eq h hN.symm, fun e => ?_⟩
    have e' := congrFun e (0 : Fin 3)
    rw [idx4, idx4] at e'
    have e'' : t.val + 1 = t.val := e'
    omega
  · refine Or.inl ?_
    exact (by omega : t.val + 1 = 16384).trans hN.symm

/-- Every position of the third result lies in the block of the point its entry names. -/
theorem cover4 (i : S16384x1x1.Idx) :
    ∃ t : Fin (cfg1 a).N, ((cfg1 a).win (4 : Fin 5)).flush t = true ∧ i ∈ (((cfg1 a).win (4 : Fin 5)).blk t).view.set := by
  have hN : (cfg1 a).N = 16384 := N_1
  have hi0 : (i 0).val < 16384 := (i 0).isLt
  have hi1 : (i 1).val < 1 := (i 1).isLt
  have hi2 : (i 2).val < 1 := (i 2).isLt
  refine ⟨⟨(i 0).val, lt_of_lt_of_eq hi0 hN.symm⟩, flush4 a _, ?_⟩
  rw [mem_blk4]
  intro d
  match d with
  | ⟨0, _⟩ =>
    show ((cfg1 a).win (4 : Fin 5)).index _ (0 : Fin 3) * 1 ≤ (i 0).val
      ∧ (i 0).val < ((cfg1 a).win (4 : Fin 5)).index _ (0 : Fin 3) * 1 + 1
    rw [idx4]; show (i 0).val * 1 ≤ (i 0).val ∧ (i 0).val < (i 0).val * 1 + 1; omega
  | ⟨1, _⟩ =>
    show ((cfg1 a).win (4 : Fin 5)).index _ (1 : Fin 3) * 1 ≤ (i 1).val
      ∧ (i 1).val < ((cfg1 a).win (4 : Fin 5)).index _ (1 : Fin 3) * 1 + 1
    rw [idx4]; show 0 * 1 ≤ (i 1).val ∧ (i 1).val < 0 * 1 + 1; omega
  | ⟨2, _⟩ =>
    show ((cfg1 a).win (4 : Fin 5)).index _ (2 : Fin 3) * 1 ≤ (i 2).val
      ∧ (i 2).val < ((cfg1 a).win (4 : Fin 5)).index _ (2 : Fin 3) * 1 + 1
    rw [idx4]; show 0 * 1 ≤ (i 2).val ∧ (i 2).val < 0 * 1 + 1; omega

/-- After the second region its third result holds, at entry i, the logistic function of the inner product over
    the 64 columns of the user-side row and the item-side row that the two index tables' words at i name. -/
theorem region1_score (h0 : ∀ j : S16384.Idx, (Tables.tab0 a.1 j).toNat < 100000)
    (h1 : ∀ j : S16384.Idx, (Tables.tab1 a.1 j).toNat < 50000) (c : Dev nD) :
    (dat1 a V c).arrAt (4 : Fin 5) (cfg1 a).N
      = fun j : S16384x1x1.Idx => Ideal.logistic (∑ k : Fin 64,
          tblU V c (ValueIdx.ix3 (Cert.Spec.rowOf 100000 (by decide) (Tables.tab0 a.1 (ValueIdx.ix1 (j 0)))) (0 : Fin 1) k)
            * tblI V c (ValueIdx.ix3 (Cert.Spec.rowOf 50000 (by decide) (Tables.tab1 a.1 (ValueIdx.ix1 (j 0)))) (0 : Fin 1) k)) :=
  (dat1 a V c).arrAt_eq_of_cover (4 : Fin 5) (scores a V c) (fun t _ => flushed4_eq a V h0 h1 c t) (cover4 a)

end Region1

end Cert.KernelIdeal.RunValue

end
-- ==== Proof.LibFlatRows.lean ====
/-
  A rank-3 array [a, b, c] and the matrix [a·b, c] of its rows are one array in row-major order: entry (n, s, f) of
  the first is entry (n·b + s, f) of the second. Read in both directions at coordinates, generic in the extents.
-/
import Idealize.ShloMosaic.Lib.Pipeline.Value
import Idealize.ShloMosaic.Lib.ValueIdx

namespace LibFlatRows

open Idealize.ShloMosaic Idealize.ShloMosaic.ValueIdx

variable {α : Type} {a b c N : ℕ}

/-- `[a, b, c] → [N, c]` (N = a·b): row `n·b + s`, column `f` is the entry (n, s, f). -/
theorem shapeCast_abc_rows_apply (x : (⟨3, ![a, b, c]⟩ : Shape).Idx → α)
    (h : (⟨3, ![a, b, c]⟩ : Shape).ShapeCasts ⟨2, ![N, c]⟩) (n : Fin a) (s : Fin b) (f : Fin c) (p : Fin N)
    (hp : p.val = n.val * b + s.val) :
    shapeCast ⟨2, ![N, c]⟩ x h (ix2 p f) = x (ix3 n s f) :=
  shapeCast_apply x h _ _ (by
    rw [Shape.rowMajor_val_three, Shape.rowMajor_val_two]
    show (n.val * b + s.val) * c + f.val = p.val * c + f.val
    rw [hp])

/-- `[N, c] → [a, b, c]` (N = a·b): the entry (n, s, f) is row `n·b + s`, column `f`. -/
theorem shapeCast_rows_abc_apply (x : (⟨2, ![N, c]⟩ : Shape).Idx → α)
    (h : (⟨2, ![N, c]⟩ : Shape).ShapeCasts ⟨3, ![a, b, c]⟩) (n : Fin a) (s : Fin b) (f : Fin c) (p : Fin N)
    (hp : p.val = n.val * b + s.val) :
    shapeCast ⟨3, ![a, b, c]⟩ x h (ix3 n s f) = x (ix2 p f) :=
  shapeCast_apply x h _ _ (by
    rw [Shape.rowMajor_val_three, Shape.rowMajor_val_two]
    show p.val * c + f.val = (n.val * b + s.val) * c + f.val
    rw [hp])

end LibFlatRows
-- ==== Proof.KValue.lean ====
/-
  The kernel program's three results as functions of its arguments and of the four aggregates its host code
  computes.

  Reading the run's final contents backwards: the three results are the second region's result tables with their
  unit axes dropped; row i of those tables is what grid point i left, which is the user-side row and the item-side
  row the two index words name, and the logistic function of their inner product; the user-side table is the first
  region's result with a unit axis inserted, which is the combination of the embedding and the four aggregates as
  the host code left them before the region; the item-side table is the item embedding with a unit axis inserted.
-/
import proofs.«156973_j70892730188381_2_alg».proof.Proof.KFrame
import proofs.«156973_j70892730188381_2_alg».proof.Proof.KValue0
import proofs.«156973_j70892730188381_2_alg».proof.Proof.KValue1
import proofs.«156973_j70892730188381_2_alg».proof.Proof.KTables
import proofs.«156973_j70892730188381_2_alg».proof.Proof.IndexRange
import proofs.«156973_j70892730188381_2_alg».proof.Proof.LibFlatRows
import proofs.«156973_j70892730188381_2_alg».proof.Proof.Spec
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Run
open Idealize.ShloMosaic Idealize.ShloMosaic.TcCoe
open Idealize.SL Idealize.SL.Sem

variable (m : (ℓ : Loc nD τ sig) → Buf (Elt Ideal) ℓ) (ρ : Dev nD → PrngReg) (a1 : (pcfg1 (F := Ideal)).Adm)

/-! ## The five reshapes -/

/-- A [16384, 1, 1] array flattened to [16384]: entry i is the entry (i, 0, 0). -/
theorem flat_one (x : S16384x1x1.Idx → EReal) (h : S16384x1x1.ShapeCasts S16384) (i : Fin 16384) :
    shapeCast S16384 x h (ValueIdx.ix1 i) = x (ValueIdx.ix3 i (0 : Fin 1) (0 : Fin 1)) :=
  shapeCast_apply x h _ _ (by
    rw [Shape.rowMajor_val_three, Shape.rowMajor_val_one]
    show (i.val * 1 + 0) * 1 + 0 = i.val
    omega)

theorem userSide_eq (c : Dev nD) :
    W3 m ρ c (Proc.devRef .tc main_v125)
      = shapeCast S100000x1x64 (W2 m ρ c (Proc.devRef .tc main_v124)) shapeCasts_S100000x64_S100000x1x64 := by
  show StableHlo.after (hostOps1 (F := Ideal)) (W2 m ρ c) (Proc.devRef .tc main_v125) = _
  simp only [hostOps1]
  after_results
  rfl

theorem itemSide_eq (c : Dev nD) :
    W3 m ρ c (Proc.devRef .tc main_v126)
      = shapeCast S50000x1x64 (W2 m ρ c (Proc.devRef .tc main_arg1)) shapeCasts_S50000x64_S50000x1x64 := by
  show StableHlo.after (hostOps1 (F := Ideal)) (W2 m ρ c) (Proc.devRef .tc main_v126) = _
  simp only [hostOps1]
  after_results
  rfl

theorem out_user_eq (c : Dev nD) :
    W5 m ρ a1 c (Proc.devRef .tc main_v128)
      = shapeCast S16384x64 (W4 m ρ a1 c (Proc.devRef .tc main_v127_0)) shapeCasts_S16384x1x64_S16384x64 := by
  show StableHlo.after (hostOps2 (F := Ideal)) (W4 m ρ a1 c) (Proc.devRef .tc main_v128) = _
  simp only [hostOps2]
  after_results
  rfl

theorem out_item_eq (c : Dev nD) :
    W5 m ρ a1 c (Proc.devRef .tc main_v129)
      = shapeCast S16384x64 (W4 m ρ a1 c (Proc.devRef .tc main_v127_1)) shapeCasts_S16384x1x64_S16384x64 := by
  show StableHlo.after (hostOps2 (F := Ideal)) (W4 m ρ a1 c) (Proc.devRef .tc main_v129) = _
  simp only [hostOps2]
  after_results
  rfl

theorem out_score_eq (c : Dev nD) :
    W5 m ρ a1 c (Proc.devRef .tc main_v130)
      = shapeCast S16384 (W4 m ρ a1 c (Proc.devRef .tc main_v127_2)) shapeCasts_S16384x1x1_S16384 := by
  show StableHlo.after (hostOps2 (F := Ideal)) (W4 m ρ a1 c) (Proc.devRef .tc main_v130) = _
  simp only [hostOps2]
  after_results
  rfl

/-! ## The two tables the second region stages, at coordinates -/

/-- The final user table: the embedding and the four aggregates as the host code left them, combined. -/
abbrev finalTable (c : Dev nD) : Cert.Spec.SU.Idx → EReal :=
  Cert.Spec.finalUser (V1 m ρ c main_arg0) (V1 m ρ c main_v38) (V1 m ρ c main_v60) (V1 m ρ c main_v101) (V1 m ρ c main_v123)

/-- Row p of the user-side table the second region stages is row p of the final user table. -/
theorem userSide_at (c : Dev nD) (p : Fin 100000) (q : Fin 64) :
    V3 m ρ c main_v125 (ValueIdx.ix3 p (0 : Fin 1) q) = finalTable m ρ c (ValueIdx.ix2 p q) := by
  show W3 m ρ c (Proc.devRef .tc main_v125) (ValueIdx.ix3 p (0 : Fin 1) q) = _
  rw [userSide_eq]
  refine (LibFlatRows.shapeCast_rows_abc_apply _ _ p (0 : Fin 1) q p (by simp)).trans ?_
  exact congrFun ((W2_arr m ρ c 5).trans (region0_result (V1 m ρ) c)) _

/-- Row p of the item-side table the second region stages is row p of the item embedding. -/
theorem itemSide_at (c : Dev nD) (p : Fin 50000) (q : Fin 64) :
    V3 m ρ c main_v126 (ValueIdx.ix3 p (0 : Fin 1) q) = m ((c : Thread nD τ).loc main_arg1) (ValueIdx.ix2 p q) := by
  show W3 m ρ c (Proc.devRef .tc main_v126) (ValueIdx.ix3 p (0 : Fin 1) q) = _
  rw [itemSide_eq]
  refine (LibFlatRows.shapeCast_rows_abc_apply _ _ p (0 : Fin 1) q p (by simp)).trans ?_
  exact congrFun (W2_arg m ρ c main_arg1 (by decide)) _

/-! ## The three results -/

section Results

variable (hU : ∀ j : S16384.Idx, (Tables.tab0 a1.1 j).toNat < 100000) (hI : ∀ j : S16384.Idx, (Tables.tab1 a1.1 j).toNat < 50000)

/-- The row of the final user table that batch entry i names, and the row of the item embedding. -/
abbrev userRow (i : Fin 16384) : Fin 100000 := Cert.Spec.rowOf 100000 (by decide) (Tables.tab0 a1.1 (ValueIdx.ix1 i))
abbrev itemRow (i : Fin 16384) : Fin 50000 := Cert.Spec.rowOf 50000 (by decide) (Tables.tab1 a1.1 (ValueIdx.ix1 i))

include hU hI in
theorem out_user_at (c : Dev nD) (i : Fin 16384) (q : Fin 64) :
    W5 m ρ a1 c (Proc.devRef .tc main_v128) (ValueIdx.ix2 i q) = finalTable m ρ c (ValueIdx.ix2 (userRow a1 i) q) := by
  rw [out_user_eq]
  refine (LibFlatRows.shapeCast_abc_rows_apply _ _ i (0 : Fin 1) q i (by simp)).trans ?_
  refine (congrFun ((W4_arr m ρ a1 c 2).trans (region1_user a1 (V3 m ρ) hU c)) _).trans ?_
  exact userSide_at m ρ c _ q

include hU hI in
theorem out_item_at (c : Dev nD) (i : Fin 16384) (q : Fin 64) :
    W5 m ρ a1 c (Proc.devRef .tc main_v129) (ValueIdx.ix2 i q)
      = m ((c : Thread nD τ).loc main_arg1) (ValueIdx.ix2 (itemRow a1 i) q) := by
  rw [out_item_eq]
  refine (LibFlatRows.shapeCast_abc_rows_apply _ _ i (0 : Fin 1) q i (by simp)).trans ?_
  refine (congrFun ((W4_arr m ρ a1 c 3).trans (region1_item a1 (V3 m ρ) hI c)) _).trans ?_
  exact itemSide_at m ρ c _ q

include hU hI in
theorem out_score_at (c : Dev nD) (i : Fin 16384) :
    W5 m ρ a1 c (Proc.devRef .tc main_v130) (ValueIdx.ix1 i)
      = Ideal.logistic (∑ k : Fin 64, finalTable m ρ c (ValueIdx.ix2 (userRow a1 i) k)
          * m ((c : Thread nD τ).loc main_arg1) (ValueIdx.ix2 (itemRow a1 i) k)) := by
  rw [out_score_eq]
  refine (flat_one _ _ i).trans ?_
  refine (congrFun ((W4_arr m ρ a1 c 4).trans (region1_score a1 (V3 m ρ) hU hI c)) _).trans ?_
  refine congrArg Ideal.logistic (Finset.sum_congr rfl fun k _ => ?_)
  exact congrArg₂ (· * ·) (userSide_at m ρ c _ k) (itemSide_at m ρ c _ k)

include hU hI in
/-- The gathered user rows. -/
theorem out_user (c : Dev nD) :
    (W5 m ρ a1 c (Proc.devRef .tc main_v128) : Cert.Spec.SBE.Idx → EReal)
      = Cert.Spec.gatherUser (finalTable m ρ c) (Tables.tab0 a1.1) := by
  funext j
  obtain ⟨i, q, rfl⟩ : ∃ (i : Fin 16384) (q : Fin 64), j = ValueIdx.ix2 i q := ⟨j 0, j 1, ValueIdx.eq_ix2 j⟩
  exact out_user_at m ρ a1 hU hI c i q

include hU hI in
/-- The gathered item rows. -/
theorem out_item (c : Dev nD) :
    (W5 m ρ a1 c (Proc.devRef .tc main_v129) : Cert.Spec.SBE.Idx → EReal)
      = Cert.Spec.gatherItem (m ((c : Thread nD τ).loc main_arg1)) (Tables.tab1 a1.1) := by
  funext j
  obtain ⟨i, q, rfl⟩ : ∃ (i : Fin 16384) (q : Fin 64), j = ValueIdx.ix2 i q := ⟨j 0, j 1, ValueIdx.eq_ix2 j⟩
  exact out_item_at m ρ a1 hU hI c i q

include hU hI in
/-- The predictions. -/
theorem out_score (c : Dev nD) :
    (W5 m ρ a1 c (Proc.devRef .tc main_v130) : Cert.Spec.SB.Idx → EReal)
      = Cert.Spec.predict (Cert.Spec.gatherUser (finalTable m ρ c) (Tables.tab0 a1.1))
          (Cert.Spec.gatherItem (m ((c : Thread nD τ).loc main_arg1)) (Tables.tab1 a1.1)) := by
  funext j
  obtain ⟨i, rfl⟩ : ∃ i : Fin 16384, j = ValueIdx.ix1 i := ⟨j 0, ValueIdx.eq_ix1 j⟩
  exact out_score_at m ρ a1 hU hI c i

end Results

/-- The final user table in terms of the launch memory and the host code's four aggregates. -/
theorem finalTable_eq (c : Dev nD) :
    finalTable m ρ c = Cert.Spec.finalUser (m ((c : Thread nD τ).loc main_arg0)) (W1 m ρ c (Proc.devRef .tc main_v38))
      (W1 m ρ c (Proc.devRef .tc main_v60)) (W1 m ρ c (Proc.devRef .tc main_v101)) (W1 m ρ c (Proc.devRef .tc main_v123)) := by
  show Cert.Spec.finalUser (W1 m ρ c (Proc.devRef .tc main_arg0)) _ _ _ _ = _
  rw [W1_arg m ρ c main_arg0 (by decide)]

/-! ## The run with the results named -/

section Run

variable [Cert.Pre_finite_inputs.Facts]

/-- The gathered user rows and item rows of the specification, over the launch memory. -/
abbrev specUser (c : Dev nD) : Cert.Spec.SBE.Idx → EReal :=
  Cert.Spec.gatherUser (Cert.Spec.finalUser (m ((c : Thread nD τ).loc main_arg0)) (W1 m ρ c (Proc.devRef .tc main_v38))
      (W1 m ρ c (Proc.devRef .tc main_v60)) (W1 m ρ c (Proc.devRef .tc main_v101)) (W1 m ρ c (Proc.devRef .tc main_v123)))
    (m ((c : Thread nD τ).loc main_arg2))
abbrev specItem (c : Dev nD) : Cert.Spec.SBE.Idx → EReal :=
  Cert.Spec.gatherItem (m ((c : Thread nD τ).loc main_arg1)) (m ((c : Thread nD τ).loc main_arg3))

/-- Under the precondition the program runs to the end, its three results are the specification's functions of the
    launch memory and the four aggregates, and every argument ends as launched. -/
theorem run_spec (hpre : Cert.Pre_KernelIdeal m) :
    θ_run defs (onTc (τ := τ) (main (F := Ideal))) ⟨m, fun _ => 0, ρ⟩ (fun r => ∀ c : Dev nD,
      r.2.mem ((c.tc : Thread nD τ).loc main_v130) = Cert.Spec.predict (specUser m ρ c) (specItem m c)
      ∧ r.2.mem ((c.tc : Thread nD τ).loc main_v128) = specUser m ρ c
      ∧ r.2.mem ((c.tc : Thread nD τ).loc main_v129) = specItem m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hU : ∀ j : S16384.Idx, (Tables.tab0 (admOf m hpre).1 j).toNat < 100000 :=
    fun j => (Cert.IndexRange.of_pre _ _ _ _ _ _ _ _ (hpre 0)).1 j
  have hI : ∀ j : S16384.Idx, (Tables.tab1 (admOf m hpre).1 j).toNat < 50000 :=
    fun j => (Cert.IndexRange.of_pre _ _ _ _ _ _ _ _ (hpre 0)).2 j
  refine (θ_run defs _ _).mono (fun r h c => ?_) (run_of_pre m ρ hpre)
  have hc : c = 0 := Subsingleton.elim _ _
  subst hc
  have eU : specUser m ρ 0 = Cert.Spec.gatherUser (finalTable m ρ 0) (Tables.tab0 (admOf m hpre).1) := by
    rw [finalTable_eq]; rfl
  have eI : specItem m 0 = Cert.Spec.gatherItem (m (((0 : Dev nD) : Thread nD τ).loc main_arg1)) (Tables.tab1 (admOf m hpre).1) := rfl
  refine ⟨?_, ?_, ?_, (h 0 _ (mem_uc main_arg0 (by decide))).trans (W5_arg m ρ (admOf m hpre) 0 main_arg0 (by decide)),
    (h 0 _ (mem_uc main_arg1 (by decide))).trans (W5_arg m ρ (admOf m hpre) 0 main_arg1 (by decide)),
    (h 0 _ (mem_uc main_arg2 (by decide))).trans (W5_arg m ρ (admOf m hpre) 0 main_arg2 (by decide)),
    (h 0 _ (mem_uc main_arg3 (by decide))).trans (W5_arg m ρ (admOf m hpre) 0 main_arg3 (by decide)),
    (h 0 _ (mem_uc main_arg4 (by decide))).trans (W5_arg m ρ (admOf m hpre) 0 main_arg4 (by decide)),
    (h 0 _ (mem_uc main_arg5 (by decide))).trans (W5_arg m ρ (admOf m hpre) 0 main_arg5 (by decide)),
    (h 0 _ (mem_uc main_arg6 (by decide))).trans (W5_arg m ρ (admOf m hpre) 0 main_arg6 (by decide)),
    (h 0 _ (mem_uc main_arg7 (by decide))).trans (W5_arg m ρ (admOf m hpre) 0 main_arg7 (by decide))⟩
  · rw [eU, eI]; exact (h 0 _ (mem_uc main_v130 (by decide))).trans (out_score m ρ (admOf m hpre) hU hI 0)
  · rw [eU]; exact (h 0 _ (mem_uc main_v128 (by decide))).trans (out_user m ρ (admOf m hpre) hU hI 0)
  · rw [eI]; exact (h 0 _ (mem_uc main_v129 (by decide))).trans (out_item m ρ (admOf m hpre) hU hI 0)

end Run

end Cert.KernelIdeal.RunValue

end
-- ==== Proof.RefRead.lean ====
/-
  The reference program's three results are the specification's functions of its arguments and of its four
  aggregate arrays.

  * A row gather read at an index. A gather that takes whole rows of a table with N rows and C columns at a column
    of B start indices puts, at (i, q), the table's entry (r, q), where r is the i-th start index read as a signed
    integer and clamped into [0, N − 1].
  * The start indices. The program forms each start index from an index word u as: u + N when u is negative, else u.
    For a word with 0 ≤ u < N (N below 2³¹) that is u itself, already inside [0, N − 1], so row i of the gather is
    the table's row u — the row the specification names, since u mod N = u.
  * The final user table. Read at an index, the sums and products are the extended reals' and the spread weights are
    the weight's word, so the table is (a + (½·s₁ + ½·r₁)) + (½·s₂ + ½·r₂) in exactly the specification's grouping.
  * The prediction. The sum over the 64 columns from the zero word is 0 + Σ, and one over one plus the exponential of
    the negated sum is the logistic function of the sum.
  * The run. The generated run of the reference states each result as the composed term of the arguments; the
    equalities above turn its postcondition into the specification's functions, the arguments unchanged.
-/
import proofs.«156973_j70892730188381_2_alg».proof.Proof.Gen.ReferenceIdeal.Run
import proofs.«156973_j70892730188381_2_alg».proof.Proof.Spec
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.RefRead

open Idealize.ShloMosaic Idealize.ShloMosaic.ValueIdx

/-! ## A row gather read at an index -/

section Row
variable {α : Type}

/-- The dimension numbers of a row gather: a table of N rows and C columns, a column of B start indices, B rows out. -/
abbrev rowDims (N B C : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The start-indices index (i, 0) of result index (i, q). -/
abbrev rowIdx {B C : Nat} (y : (⟨2, ![B, C]⟩ : Shape).Idx) : (⟨2, ![B, 1]⟩ : Shape).Idx :=
  fun a => match a with | ⟨0, _⟩ => ⟨(y 0).val, idx2_lt0 y⟩ | ⟨1, _⟩ => ⟨0, Nat.one_pos⟩

/-- The row gather at (i, q): the table at (the i-th start index read signed and clamped into [0, N − 1], q). -/
theorem gather_row_apply {N B C w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (y : (⟨2, ![B, C]⟩ : Shape).Idx) :
    Host.gather (rowDims N B C wf) x idx y
      = x (ix2 (⟨min (idx (rowIdx y)).toInt.toNat (N - 1), by omega⟩ : Fin N) (⟨(y 1).val, idx2_lt1 y⟩ : Fin C)) := by
  unfold Host.gather
  congr 1
  funext a
  refine Fin.ext ?_
  match a with
  | ⟨0, _⟩ =>
    show (rowDims N B C wf).start y idx 0 + (rowDims N B C wf).batchCoord y 0 + (rowDims N B C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N B C wf).startIndexMap from List.mem_singleton.mpr rfl)]
    have hsi : (rowDims N B C wf).siIdx y ⟨List.idxOf (0 : Fin 2) (rowDims N B C wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N B C wf).start y idx 1 + (rowDims N B C wf).batchCoord y 1 + (rowDims N B C wf).offCoord y 1 = (y 1).val
    rw [GatherDims.batchCoord_eq_zero _ _ _ List.not_mem_nil]
    have hs : (rowDims N B C wf).start y idx 1 = 0 := by
      unfold GatherDims.start
      rw [dif_neg (show (1 : Fin 2) ∉ [0] by decide)]
    rw [hs]
    simp only [Nat.zero_add, Nat.add_zero]
    have h10 : (1 : Fin 2) ∉ ([0] : List (Fin 2)) := by decide
    have hk : (1 : Fin 2) ∈ (rowDims N B C wf).sKept :=
      (GatherDims.mem_sKept _ _).mpr ⟨h10, List.not_mem_nil⟩
    unfold GatherDims.offCoord
    rw [dif_pos hk]
    rfl

/-- A column made of a vector: entry (i, 0) of the [B, 1] array is entry i of the [B] array. -/
theorem column_apply {B : Nat} (h : (⟨1, ![B]⟩ : Shape).BroadcastsInDim ⟨2, ![B, 1]⟩ ![0])
    (x : (⟨1, ![B]⟩ : Shape).Idx → α) (j : (⟨2, ![B, 1]⟩ : Shape).Idx) :
    broadcastInDim ⟨2, ![B, 1]⟩ ![0] h x j = x (ix1 (⟨(j 0).val, idx2_lt0 j⟩ : Fin B)) := by
  unfold broadcastInDim
  congr 1
  funext a
  refine Fin.ext ?_
  match a with
  | ⟨0, _⟩ =>
    show (if h1 : (⟨1, ![B]⟩ : Shape).size 0 = 1 then (⟨0, by omega⟩ : Fin ((⟨1, ![B]⟩ : Shape).size 0)) else ⟨(j 0).val, _⟩).val = (j 0).val
    split
    · rename_i h1
      have : (j 0).val < B := idx2_lt0 j
      have h1' : B = 1 := h1
      show 0 = (j 0).val
      omega
    · rfl

end Row

/-! ## The start index of an index word in range -/

/-- For a word below the height n (n below 2³¹) the program's start index — the word, plus n when it is negative — is
    the word, and reading it signed and clamping it into [0, n − 1] gives its own number. -/
theorem start_of_lt (n : Nat) (hn : n < 2 ^ 31) (u : BitVec 32) (hu : u.toNat < n) :
    min (Scalar.select (IntOp.cmpi .slt u 0#32) (IntOp.addi u (BitVec.ofNat 32 n)) u).toInt.toNat (n - 1) = u.toNat := by
  have hlt : ¬ (u.toInt < 0) := by
    rw [BitVec.toInt_eq_toNat_cond]
    split <;> omega
  have hc : IntOp.cmpi .slt u 0#32 = 0#1 := by
    unfold IntOp.cmpi
    simp only [BitVec.slt, BitVec.toInt_zero, hlt, decide_false, BitVec.ofBool_false]
    rfl
  rw [hc, select_zero]
  have : u.toInt = (u.toNat : Int) := by
    rw [BitVec.toInt_eq_toNat_cond]
    split <;> omega
  rw [this, Int.toNat_natCast]
  omega

/-! ## The row gather at the program's start indices, for index words in range -/

section RowOfLt
variable {α : Type}

/-- A row gather whose start indices are the index words — each plus the height when negative — laid out as a column:
    for words below the height, row i of the result is the table's row numbered by the i-th word. -/
theorem gather_row_of_lt {N B C : Nat} (hN : N < 2 ^ 31)
    (wf : GatherDims.WF ⟨2, ![N, C]⟩ ⟨2, ![B, 1]⟩ ⟨2, ![B, C]⟩ [1] [0] [] [0] [] 1 ![1, C])
    (h0 : (⟨0, ![]⟩ : Shape).BroadcastsInDim ⟨1, ![B]⟩ ![])
    (h1 : (⟨1, ![B]⟩ : Shape).BroadcastsInDim ⟨2, ![B, 1]⟩ ![0])
    (x : (⟨2, ![N, C]⟩ : Shape).Idx → α) (U : IVec ⟨1, ![B]⟩ 32) (hU : ∀ i, (U i).toNat < N)
    (y : (⟨2, ![B, C]⟩ : Shape).Idx) :
    Host.gather (rowDims N B C wf) x
        (broadcastInDim ⟨2, ![B, 1]⟩ ![0] h1
          (select (cmpi .slt U (broadcastInDim ⟨1, ![B]⟩ ![] h0 (constantI ⟨0, ![]⟩ 32 0#32)))
            (addi U (broadcastInDim ⟨1, ![B]⟩ ![] h0 (constantI ⟨0, ![]⟩ 32 (BitVec.ofNat 32 N)))) U)) y
      = x (ix2 (⟨(U (ix1 (⟨(y 0).val, idx2_lt0 y⟩ : Fin B))).toNat, hU _⟩ : Fin N) (⟨(y 1).val, idx2_lt1 y⟩ : Fin C)) := by
  have hpos : 0 < N := by have := hU (ix1 (⟨(y 0).val, idx2_lt0 y⟩ : Fin B)); omega
  rw [gather_row_apply hpos wf]
  congr 1
  funext a
  match a with
  | ⟨0, _⟩ =>
    refine Fin.ext ?_
    show min (broadcastInDim ⟨2, ![B, 1]⟩ ![0] h1
          (select (cmpi .slt U (broadcastInDim ⟨1, ![B]⟩ ![] h0 (constantI ⟨0, ![]⟩ 32 0#32)))
            (addi U (broadcastInDim ⟨1, ![B]⟩ ![] h0 (constantI ⟨0, ![]⟩ 32 (BitVec.ofNat 32 N)))) U) (rowIdx y)).toInt.toNat (N - 1)
        = (U (ix1 (⟨(y 0).val, idx2_lt0 y⟩ : Fin B))).toNat
    rw [column_apply]
    exact start_of_lt N hN (U (ix1 (⟨(y 0).val, idx2_lt0 y⟩ : Fin B))) (hU _)
  | ⟨1, _⟩ => rfl

end RowOfLt

/-! ## The reference's three results

The reference forms the final user table as (a + (½·s₁ + ½·r₁)) + (½·s₂ + ½·r₂), gathers the rows the user words name
out of it and the rows the item words name out of the item table, and takes the logistic function of the rows' inner
products. Each is read at an index and identified with the specification's function. -/

section Reads

open Cert.ReferenceIdeal Cert.ReferenceIdeal.Gen

/-- The host's exponential at an index is the exponential of the element. -/
theorem hostExp_apply {s : Shape} {φ : FTy} (x : FVec Ideal s φ) (i : s.Idx) : Host.exp x i = Ideal.exp (x i) := rfl
/-- The host's negation at an index is the negation of the element. -/
theorem hostNegf_apply {s : Shape} {φ : FTy} (x : FVec Ideal s φ) (i : s.Idx) : Host.negf x i = -(x i) := rfl

/-- The gather of the final user table's rows, over abstract arrays: the specification's gathered user rows. -/
theorem gatherUser_read (A S1 R1 S2 R2 : FVec Ideal S100000x64 .f32) (U : IVec S16384 32)
    (hU : ∀ i, (U i).toNat < 100000) :
    Host.gather gather_S100000x64_S16384x1_S16384x64_1_0_n_n_0_1_164
        (addf (addf A (addf (mulf (broadcastInDim S100000x64 ![] bcast_S_S100000x64 (constant (F := Ideal) S_ .f32 0x3F000000#32)) S1)
                            (mulf (broadcastInDim S100000x64 ![] bcast_S_S100000x64 (constant (F := Ideal) S_ .f32 0x3F000000#32)) R1)))
              (addf (mulf (broadcastInDim S100000x64 ![] bcast_S_S100000x64 (constant (F := Ideal) S_ .f32 0x3F000000#32)) S2)
                    (mulf (broadcastInDim S100000x64 ![] bcast_S_S100000x64 (constant (F := Ideal) S_ .f32 0x3F000000#32)) R2)))
        (broadcastInDim S16384x1 ![0] bcast_S16384_S16384x1_0
          (select (cmpi .slt U (broadcastInDim S16384 ![] bcast_S_S16384 (constantI S_ 32 0#32)))
            (addi U (broadcastInDim S16384 ![] bcast_S_S16384 (constantI S_ 32 100000#32))) U))
      = Cert.Spec.gatherUser (Cert.Spec.finalUser A S1 R1 S2 R2) U := by
  funext j
  refine (gather_row_of_lt (N := 100000) (B := 16384) (C := 64) (by decide)
    gather_S100000x64_S16384x1_S16384x64_1_0_n_n_0_1_164_wf bcast_S_S16384 bcast_S16384_S16384x1_0 _ U hU j).trans ?_
  have hrow : (⟨(U (ix1 (⟨(j 0).val, idx2_lt0 j⟩ : Fin 16384))).toNat, hU _⟩ : Fin 100000)
      = Cert.Spec.rowOf 100000 (by decide) (U (ix1 (j 0))) :=
    Fin.ext (Cert.Spec.rowOf_of_lt 100000 (by decide) _ (hU _)).symm
  rw [hrow]
  rfl

/-- The gather of the item table's rows, over abstract arrays: the specification's gathered item rows. -/
theorem gatherItem_read (E : FVec Ideal S50000x64 .f32) (I : IVec S16384 32) (hI : ∀ i, (I i).toNat < 50000) :
    Host.gather gather_S50000x64_S16384x1_S16384x64_1_0_n_n_0_1_164 E
        (broadcastInDim S16384x1 ![0] bcast_S16384_S16384x1_0
          (select (cmpi .slt I (broadcastInDim S16384 ![] bcast_S_S16384 (constantI S_ 32 0#32)))
            (addi I (broadcastInDim S16384 ![] bcast_S_S16384 (constantI S_ 32 50000#32))) I))
      = Cert.Spec.gatherItem E I := by
  funext j
  refine (gather_row_of_lt (N := 50000) (B := 16384) (C := 64) (by decide)
    gather_S50000x64_S16384x1_S16384x64_1_0_n_n_0_1_164_wf bcast_S_S16384 bcast_S16384_S16384x1_0 _ I hI j).trans ?_
  have hrow : (⟨(I (ix1 (⟨(j 0).val, idx2_lt0 j⟩ : Fin 16384))).toNat, hI _⟩ : Fin 50000)
      = Cert.Spec.rowOf 50000 (by decide) (I (ix1 (j 0))) :=
    Fin.ext (Cert.Spec.rowOf_of_lt 50000 (by decide) _ (hI _)).symm
  rw [hrow]
  rfl

/-- The prediction over abstract gathered rows: one over one plus the exponential of minus the inner product over the
    64 columns is the logistic function of that inner product. -/
theorem predict_read (LU LI : FVec Ideal S16384x64 .f32) :
    Host.divf (broadcastInDim S16384 ![] bcast_S_S16384 (constant (F := Ideal) S_ .f32 0x3F800000#32))
        (addf (broadcastInDim S16384 ![] bcast_S_S16384 (constant (F := Ideal) S_ .f32 0x3F800000#32))
          (Host.exp (Host.negf (Host.reduceAdd (F := Ideal) (mulf LU LI) (constant (F := Ideal) S_ .f32 0x00000000#32)
            reducesTo_S16384x64_S16384_d1 h_S_))))
      = Cert.Spec.predict LU LI := by
  funext i
  have hR : S16384x64.Reduces [1] S16384 := by decide
  unfold Cert.Spec.predict
  have h1 : broadcastInDim S16384 ![] bcast_S_S16384 (constant (F := Ideal) S_ .f32 0x3F800000#32) i = 1 :=
    (broadcastInDim_scalar_apply _ _ i).trans ((constant_apply _ _).trans Ideal.ofBits_one_f32)
  simp only [hostDivf_apply, addf_apply, h1, constant_apply, hostExp_apply, hostNegf_apply,
    hostReduceAdd_apply, Ideal.ofBits_one_f32, Ideal.ofBits_zero_f32, Ideal.hostReduceAdd_single _ hR, zero_add]
  have hlift : ∀ k : Fin 64, hR.lift i k = ix2 (i 0) k := fun k => funext fun a => by
    match a with
    | ⟨0, _⟩ => exact Fin.ext rfl
    | ⟨1, _⟩ => exact Fin.ext rfl
  unfold Ideal.logistic
  refine congrArg (fun z => Ideal.div 1 (1 + Ideal.exp (-z))) ?_
  exact Finset.sum_congr rfl (fun k _ => by rw [hlift k]; rfl)

end Reads

/-! ## The generated run's results are the specification's -/

section Run

open Cert.ReferenceIdeal Cert.ReferenceIdeal.Gen Idealize.SL.Sem Idealize.ShloMosaic.StableHlo Idealize.ShloMosaic.TcCoe

variable (V' : Valuation τ sig (Elt Ideal))

/-- The reference's gathered user rows are the specification's, of the final user table formed from the user embedding,
    the two first-layer aggregates and the two second-layer aggregates. -/
theorem latest_user_eq (hU : ∀ i, ((V' (Proc.devRef .tc main_arg2) : IVec S16384 32) i).toNat < 100000) :
    Value.val4 V' (Proc.devRef .tc main_v164)
      = Cert.Spec.gatherUser (Cert.Spec.finalUser (V' (Proc.devRef .tc main_arg0)) (Value.res_main_v38 V') (Value.res_main_v60 V')
          (Value.val3 V' (Proc.devRef .tc main_v106)) (Value.val3 V' (Proc.devRef .tc main_v128))) (V' (Proc.devRef .tc main_arg2)) := by
  have h := gatherUser_read (V' (Proc.devRef .tc main_arg0)) (Value.res_main_v38 V') (Value.res_main_v60 V')
    (Value.val3 V' (Proc.devRef .tc main_v106)) (Value.val3 V' (Proc.devRef .tc main_v128)) (V' (Proc.devRef .tc main_arg2)) hU
  rw [← h]
  simp only [Value.val3_main_v106, Value.val3_main_v128]
  exact Value.val4_main_v164 V'

/-- The reference's gathered item rows are the specification's. -/
theorem latest_item_eq (hI : ∀ i, ((V' (Proc.devRef .tc main_arg3) : IVec S16384 32) i).toNat < 50000) :
    Value.val4 V' (Proc.devRef .tc main_v171)
      = Cert.Spec.gatherItem (V' (Proc.devRef .tc main_arg1)) (V' (Proc.devRef .tc main_arg3)) := by
  rw [← gatherItem_read (V' (Proc.devRef .tc main_arg1)) (V' (Proc.devRef .tc main_arg3)) hI]
  exact Value.val4_main_v171 V'

end Run

section Run2

open Cert.ReferenceIdeal Cert.ReferenceIdeal.Gen Idealize.SL.Sem Idealize.ShloMosaic.StableHlo Idealize.ShloMosaic.TcCoe

variable (V' : Valuation τ sig (Elt Ideal))

set_option maxRecDepth 8192 in
/-- The reference's prediction is the specification's, of the gathered user rows and the gathered item rows. -/
theorem predict_eq (hU : ∀ i, ((V' (Proc.devRef .tc main_arg2) : IVec S16384 32) i).toNat < 100000)
    (hI : ∀ i, ((V' (Proc.devRef .tc main_arg3) : IVec S16384 32) i).toNat < 50000) :
    Value.val4 V' (Proc.devRef .tc main_v179)
      = Cert.Spec.predict
          (Cert.Spec.gatherUser (Cert.Spec.finalUser (V' (Proc.devRef .tc main_arg0)) (Value.res_main_v38 V') (Value.res_main_v60 V')
            (Value.val3 V' (Proc.devRef .tc main_v106)) (Value.val3 V' (Proc.devRef .tc main_v128))) (V' (Proc.devRef .tc main_arg2)))
          (Cert.Spec.gatherItem (V' (Proc.devRef .tc main_arg1)) (V' (Proc.devRef .tc main_arg3))) := by
  rw [← latest_user_eq V' hU, ← latest_item_eq V' hI, Value.val4_main_v164, Value.val4_main_v171, ← predict_read]
  exact Value.val4_main_v179 V'

set_option maxRecDepth 8192 in
/-- On every device, from any memory with zero counters: every weakly fair execution of the reference terminates with
    its three results the specification's functions of the arguments' launch contents and of the four aggregates, and
    the arguments unchanged. -/
theorem run_spec (m' : (ℓ : Loc nD τ sig) → Buf (Elt Ideal) ℓ) (ρ' : Dev nD → PrngReg)
    (hU : ∀ c i, (((launchContents m' c) (Proc.devRef .tc main_arg2) : IVec S16384 32) i).toNat < 100000)
    (hI : ∀ c i, (((launchContents m' c) (Proc.devRef .tc main_arg3) : IVec S16384 32) i).toNat < 50000) :
    θ_run defs (onTc (τ := τ) (main (F := Ideal))) ⟨m', fun _ => 0, ρ'⟩ fun r => ∀ c : Dev nD,
      r.2.mem ((c.tc : Thread nD τ).loc main_v179)
        = Cert.Spec.predict
            (Cert.Spec.gatherUser (Cert.Spec.finalUser ((launchContents m' c) (Proc.devRef .tc main_arg0))
              (Value.res_main_v38 (launchContents m' c)) (Value.res_main_v60 (launchContents m' c))
              (Value.val3 (launchContents m' c) (Proc.devRef .tc main_v106)) (Value.val3 (launchContents m' c) (Proc.devRef .tc main_v128)))
              ((launchContents m' c) (Proc.devRef .tc main_arg2)))
            (Cert.Spec.gatherItem ((launchContents m' c) (Proc.devRef .tc main_arg1)) ((launchContents m' c) (Proc.devRef .tc main_arg3)))
      ∧ r.2.mem ((c.tc : Thread nD τ).loc main_v164)
        = Cert.Spec.gatherUser (Cert.Spec.finalUser ((launchContents m' c) (Proc.devRef .tc main_arg0))
            (Value.res_main_v38 (launchContents m' c)) (Value.res_main_v60 (launchContents m' c))
            (Value.val3 (launchContents m' c) (Proc.devRef .tc main_v106)) (Value.val3 (launchContents m' c) (Proc.devRef .tc main_v128)))
            ((launchContents m' c) (Proc.devRef .tc main_arg2))
      ∧ r.2.mem ((c.tc : Thread nD τ).loc main_v171)
        = Cert.Spec.gatherItem ((launchContents m' c) (Proc.devRef .tc main_arg1)) ((launchContents m' c) (Proc.devRef .tc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7) :=
  (θ_run defs _ _).mono (fun _ h c =>
      ⟨(h c).1.trans ((Value.val4_main_v179 (launchContents m' c)).symm.trans (predict_eq (launchContents m' c) (hU c) (hI c))),
       (h c).2.1.trans ((Value.val4_main_v164 (launchContents m' c)).symm.trans (latest_user_eq (launchContents m' c) (hU c))),
       (h c).2.2.1.trans ((Value.val4_main_v171 (launchContents m' c)).symm.trans (latest_item_eq (launchContents m' c) (hI c))),
       (h c).2.2.2⟩)
    (Value.run (F := Ideal) m' ρ')

end Run2

end Cert.RefRead

end
-- ==== Proof.HostPrefix.lean ====
/-
  The kernel program opens with 162 array operations that form, from the eight arguments, the four aggregates
  of the two-layer graph convolution: the first and second social aggregates (the mean, per destination user,
  of the rows at the social edges' sources) and the users' first and second rating aggregates (the user's own
  row scaled by a self-weight, plus the mean of the rows of the items the user rated). The reference program
  forms the same four arrays by the same operations in a slightly different order. Here the two are shown equal
  whenever the two programs' arguments hold the same arrays.

  No property of the operations is used: each aggregate is a composed term of the arguments, and the two
  programs' terms are the same term. The stretch is read in three consecutive pieces; after each piece the
  buffers a later piece reads are stated as terms over the reference's arguments and the reference's own named
  intermediate values, so that no term is ever written out in full.
-/
import proofs.«156973_j70892730188381_2_alg».proof.Proof.Gen.KernelIdeal.Launch
import proofs.«156973_j70892730188381_2_alg».proof.Proof.Gen.ReferenceIdeal.Run
import Idealize.ShloMosaic.Lib.Pipeline.Frame

set_option Elab.async false

noncomputable section

namespace Cert.HostPrefix

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

abbrev KV (F : FTy → Type) := Valuation Cert.KernelIdeal.τ Cert.KernelIdeal.sig (Elt F)
abbrev RV (F : FTy → Type) := Valuation Cert.ReferenceIdeal.τ Cert.ReferenceIdeal.sig (Elt F)

/-- The two programs' arguments hold the same arrays. -/
structure Agree (V : KV F) (V' : RV F) : Prop where
  a0 : V (Proc.devRef .tc Cert.KernelIdeal.main_arg0) = V' (Proc.devRef .tc main_arg0)
  a1 : V (Proc.devRef .tc Cert.KernelIdeal.main_arg1) = V' (Proc.devRef .tc main_arg1)
  a2 : V (Proc.devRef .tc Cert.KernelIdeal.main_arg2) = V' (Proc.devRef .tc main_arg2)
  a3 : V (Proc.devRef .tc Cert.KernelIdeal.main_arg3) = V' (Proc.devRef .tc main_arg3)
  a4 : V (Proc.devRef .tc Cert.KernelIdeal.main_arg4) = V' (Proc.devRef .tc main_arg4)
  a5 : V (Proc.devRef .tc Cert.KernelIdeal.main_arg5) = V' (Proc.devRef .tc main_arg5)
  a6 : V (Proc.devRef .tc Cert.KernelIdeal.main_arg6) = V' (Proc.devRef .tc main_arg6)
  a7 : V (Proc.devRef .tc Cert.KernelIdeal.main_arg7) = V' (Proc.devRef .tc main_arg7)

/-! ## The stretch of 162 operations, cut in three -/

/-- The buffers after the first 60 operations. -/
def kval1 (V : KV F) : KV F := after Cert.KernelIdeal.Gen.main_part0_ops0 V
/-- The buffers after the first 120 operations. -/
def kval2 (V : KV F) : KV F := after Cert.KernelIdeal.Gen.main_part1_ops0 (kval1 V)
/-- The buffers after all 162 operations. -/
def kval3 (V : KV F) : KV F := after Cert.KernelIdeal.Gen.main_part2_ops0 (kval2 V)

set_option maxRecDepth 8192 in
/-- The stretch is its three pieces in order. -/
theorem hostOps0_split : (Cert.KernelIdeal.Gen.hostOps0 : List (HloOp Cert.KernelIdeal.τ Cert.KernelIdeal.sig (Elt F))) =
    Cert.KernelIdeal.Gen.main_part0_ops0 ++ (Cert.KernelIdeal.Gen.main_part1_ops0 ++ Cert.KernelIdeal.Gen.main_part2_ops0) := rfl

theorem after_hostOps0 (V : KV F) : after Cert.KernelIdeal.Gen.hostOps0 V = kval3 V := by
  rw [hostOps0_split, after_append, after_append]
  rfl

/-- The buffers the first piece writes. -/
abbrev W0 : List (Ref Cert.KernelIdeal.sig .tc) := [Cert.KernelIdeal.main_cst, Cert.KernelIdeal.main_v0, Cert.KernelIdeal.main_cst_0, Cert.KernelIdeal.main_v1, Cert.KernelIdeal.main_v2, Cert.KernelIdeal.main_v3, Cert.KernelIdeal.main_v4, Cert.KernelIdeal.main_cst_1, Cert.KernelIdeal.main_v5, Cert.KernelIdeal.main_v6, Cert.KernelIdeal.main_v7, Cert.KernelIdeal.main_cst_2, Cert.KernelIdeal.main_v8, Cert.KernelIdeal.main_v9, Cert.KernelIdeal.main_cst_3, Cert.KernelIdeal.main_v10, Cert.KernelIdeal.main_cst_4, Cert.KernelIdeal.main_v11, Cert.KernelIdeal.main_v12, Cert.KernelIdeal.main_v13, Cert.KernelIdeal.main_v14, Cert.KernelIdeal.main_cst_5, Cert.KernelIdeal.main_v15, Cert.KernelIdeal.main_v16, Cert.KernelIdeal.main_v17, Cert.KernelIdeal.main_cst_6, Cert.KernelIdeal.main_v18, Cert.KernelIdeal.main_v19, Cert.KernelIdeal.main_c, Cert.KernelIdeal.main_v20, Cert.KernelIdeal.main_v21, Cert.KernelIdeal.main_c_7, Cert.KernelIdeal.main_v22, Cert.KernelIdeal.main_v23, Cert.KernelIdeal.main_v24, Cert.KernelIdeal.main_v25, Cert.KernelIdeal.main_v26, Cert.KernelIdeal.main_cst_8, Cert.KernelIdeal.main_v27, Cert.KernelIdeal.main_v28, Cert.KernelIdeal.main_v29, Cert.KernelIdeal.main_cst_9, Cert.KernelIdeal.main_v30, Cert.KernelIdeal.main_cst_10, Cert.KernelIdeal.main_v31, Cert.KernelIdeal.main_v32, Cert.KernelIdeal.main_v33, Cert.KernelIdeal.main_v34, Cert.KernelIdeal.main_cst_11, Cert.KernelIdeal.main_v35, Cert.KernelIdeal.main_v36, Cert.KernelIdeal.main_v37, Cert.KernelIdeal.main_v38, Cert.KernelIdeal.main_v39, Cert.KernelIdeal.main_v40, Cert.KernelIdeal.main_c_12, Cert.KernelIdeal.main_v41, Cert.KernelIdeal.main_v42, Cert.KernelIdeal.main_c_13, Cert.KernelIdeal.main_v43]
/-- The buffers the second piece writes. -/
abbrev W1 : List (Ref Cert.KernelIdeal.sig .tc) := [Cert.KernelIdeal.main_v44, Cert.KernelIdeal.main_v45, Cert.KernelIdeal.main_v46, Cert.KernelIdeal.main_v47, Cert.KernelIdeal.main_cst_14, Cert.KernelIdeal.main_v48, Cert.KernelIdeal.main_v49, Cert.KernelIdeal.main_v50, Cert.KernelIdeal.main_cst_15, Cert.KernelIdeal.main_v51, Cert.KernelIdeal.main_cst_16, Cert.KernelIdeal.main_v52, Cert.KernelIdeal.main_v53, Cert.KernelIdeal.main_v54, Cert.KernelIdeal.main_v55, Cert.KernelIdeal.main_cst_17, Cert.KernelIdeal.main_v56, Cert.KernelIdeal.main_v57, Cert.KernelIdeal.main_v58, Cert.KernelIdeal.main_v59, Cert.KernelIdeal.main_v60, Cert.KernelIdeal.main_v61, Cert.KernelIdeal.main_v62, Cert.KernelIdeal.main_c_18, Cert.KernelIdeal.main_v63, Cert.KernelIdeal.main_v64, Cert.KernelIdeal.main_c_19, Cert.KernelIdeal.main_v65, Cert.KernelIdeal.main_v66, Cert.KernelIdeal.main_v67, Cert.KernelIdeal.main_v68, Cert.KernelIdeal.main_v69, Cert.KernelIdeal.main_cst_20, Cert.KernelIdeal.main_v70, Cert.KernelIdeal.main_v71, Cert.KernelIdeal.main_v72, Cert.KernelIdeal.main_cst_21, Cert.KernelIdeal.main_v73, Cert.KernelIdeal.main_cst_22, Cert.KernelIdeal.main_v74, Cert.KernelIdeal.main_v75, Cert.KernelIdeal.main_v76, Cert.KernelIdeal.main_v77, Cert.KernelIdeal.main_cst_23, Cert.KernelIdeal.main_v78, Cert.KernelIdeal.main_v79, Cert.KernelIdeal.main_v80, Cert.KernelIdeal.main_v81, Cert.KernelIdeal.main_v82, Cert.KernelIdeal.main_c_24, Cert.KernelIdeal.main_v83, Cert.KernelIdeal.main_v84, Cert.KernelIdeal.main_c_25, Cert.KernelIdeal.main_v85, Cert.KernelIdeal.main_v86, Cert.KernelIdeal.main_v87, Cert.KernelIdeal.main_v88, Cert.KernelIdeal.main_v89, Cert.KernelIdeal.main_cst_26, Cert.KernelIdeal.main_v90]
/-- The buffers the third piece writes. -/
abbrev W2 : List (Ref Cert.KernelIdeal.sig .tc) := [Cert.KernelIdeal.main_v91, Cert.KernelIdeal.main_v92, Cert.KernelIdeal.main_cst_27, Cert.KernelIdeal.main_v93, Cert.KernelIdeal.main_cst_28, Cert.KernelIdeal.main_v94, Cert.KernelIdeal.main_v95, Cert.KernelIdeal.main_v96, Cert.KernelIdeal.main_v97, Cert.KernelIdeal.main_cst_29, Cert.KernelIdeal.main_v98, Cert.KernelIdeal.main_v99, Cert.KernelIdeal.main_v100, Cert.KernelIdeal.main_v101, Cert.KernelIdeal.main_v102, Cert.KernelIdeal.main_v103, Cert.KernelIdeal.main_c_30, Cert.KernelIdeal.main_v104, Cert.KernelIdeal.main_v105, Cert.KernelIdeal.main_c_31, Cert.KernelIdeal.main_v106, Cert.KernelIdeal.main_v107, Cert.KernelIdeal.main_v108, Cert.KernelIdeal.main_v109, Cert.KernelIdeal.main_v110, Cert.KernelIdeal.main_cst_32, Cert.KernelIdeal.main_v111, Cert.KernelIdeal.main_v112, Cert.KernelIdeal.main_v113, Cert.KernelIdeal.main_cst_33, Cert.KernelIdeal.main_v114, Cert.KernelIdeal.main_cst_34, Cert.KernelIdeal.main_v115, Cert.KernelIdeal.main_v116, Cert.KernelIdeal.main_v117, Cert.KernelIdeal.main_v118, Cert.KernelIdeal.main_cst_35, Cert.KernelIdeal.main_v119, Cert.KernelIdeal.main_v120, Cert.KernelIdeal.main_v121, Cert.KernelIdeal.main_v122, Cert.KernelIdeal.main_v123]

set_option maxRecDepth 8192 in
set_option maxHeartbeats 2000000 in
theorem W0_writes : (Cert.KernelIdeal.Gen.main_part0_ops0 : List (HloOp Cert.KernelIdeal.τ Cert.KernelIdeal.sig (Elt F))).Forall fun op => op.writes ⊆ (W0.map (Proc.devRef (τ := Cert.KernelIdeal.τ) .tc)).toFinset := by
  simp only [List.Forall]
  repeat' apply And.intro
  all_goals
    simp only [nullary_writes, unary_writes, binary_writes, ternary_writes, Finset.singleton_subset_iff, List.mem_toFinset]
    exact List.mem_map_of_mem (by decide)
set_option maxRecDepth 8192 in
set_option maxHeartbeats 2000000 in
theorem W1_writes : (Cert.KernelIdeal.Gen.main_part1_ops0 : List (HloOp Cert.KernelIdeal.τ Cert.KernelIdeal.sig (Elt F))).Forall fun op => op.writes ⊆ (W1.map (Proc.devRef (τ := Cert.KernelIdeal.τ) .tc)).toFinset := by
  simp only [List.Forall]
  repeat' apply And.intro
  all_goals
    simp only [nullary_writes, unary_writes, binary_writes, ternary_writes, Finset.singleton_subset_iff, List.mem_toFinset]
    exact List.mem_map_of_mem (by decide)
set_option maxRecDepth 8192 in
set_option maxHeartbeats 2000000 in
theorem W2_writes : (Cert.KernelIdeal.Gen.main_part2_ops0 : List (HloOp Cert.KernelIdeal.τ Cert.KernelIdeal.sig (Elt F))).Forall fun op => op.writes ⊆ (W2.map (Proc.devRef (τ := Cert.KernelIdeal.τ) .tc)).toFinset := by
  simp only [List.Forall]
  repeat' apply And.intro
  all_goals
    simp only [nullary_writes, unary_writes, binary_writes, ternary_writes, Finset.singleton_subset_iff, List.mem_toFinset]
    exact List.mem_map_of_mem (by decide)

/-- A buffer the first piece does not write keeps its contents through it. -/
theorem kval1_keep (V : KV F) (r : Ref Cert.KernelIdeal.sig .tc) (hr : r ∉ W0) : kval1 V (Proc.devRef .tc r) = V (Proc.devRef .tc r) :=
  after_of_writes_sub Cert.KernelIdeal.Gen.main_part0_ops0 _ W0_writes hr
/-- A buffer the second piece does not write keeps its contents through it. -/
theorem kval2_keep (V : KV F) (r : Ref Cert.KernelIdeal.sig .tc) (hr : r ∉ W1) : kval2 V (Proc.devRef .tc r) = kval1 V (Proc.devRef .tc r) :=
  after_of_writes_sub Cert.KernelIdeal.Gen.main_part1_ops0 _ W1_writes hr
/-- A buffer the third piece does not write keeps its contents through it. -/
theorem kval3_keep (V : KV F) (r : Ref Cert.KernelIdeal.sig .tc) (hr : r ∉ W2) : kval3 V (Proc.devRef .tc r) = kval2 V (Proc.devRef .tc r) :=
  after_of_writes_sub Cert.KernelIdeal.Gen.main_part2_ops0 _ W2_writes hr

/-! ## After the first piece -/

theorem k1_arg0 (V : KV F) (V' : RV F) (h : Agree V V') : kval1 V (no_index (Proc.devRef .tc Cert.KernelIdeal.main_arg0)) = V' (Proc.devRef .tc main_arg0) :=
  (kval1_keep V Cert.KernelIdeal.main_arg0 (by decide)).trans h.a0
theorem k1_arg1 (V : KV F) (V' : RV F) (h : Agree V V') : kval1 V (no_index (Proc.devRef .tc Cert.KernelIdeal.main_arg1)) = V' (Proc.devRef .tc main_arg1) :=
  (kval1_keep V Cert.KernelIdeal.main_arg1 (by decide)).trans h.a1
theorem k1_arg4 (V : KV F) (V' : RV F) (h : Agree V V') : kval1 V (no_index (Proc.devRef .tc Cert.KernelIdeal.main_arg4)) = V' (Proc.devRef .tc main_arg4) :=
  (kval1_keep V Cert.KernelIdeal.main_arg4 (by decide)).trans h.a4
theorem k1_arg5 (V : KV F) (V' : RV F) (h : Agree V V') : kval1 V (no_index (Proc.devRef .tc Cert.KernelIdeal.main_arg5)) = V' (Proc.devRef .tc main_arg5) :=
  (kval1_keep V Cert.KernelIdeal.main_arg5 (by decide)).trans h.a5
theorem k1_arg6 (V : KV F) (V' : RV F) (h : Agree V V') : kval1 V (no_index (Proc.devRef .tc Cert.KernelIdeal.main_arg6)) = V' (Proc.devRef .tc main_arg6) :=
  (kval1_keep V Cert.KernelIdeal.main_arg6 (by decide)).trans h.a6
theorem k1_arg7 (V : KV F) (V' : RV F) (h : Agree V V') : kval1 V (no_index (Proc.devRef .tc Cert.KernelIdeal.main_arg7)) = V' (Proc.devRef .tc main_arg7) :=
  (kval1_keep V Cert.KernelIdeal.main_arg7 (by decide)).trans h.a7

set_option maxRecDepth 8192 in
set_option maxHeartbeats 2000000 in
/-- The users' self-weight: one minus d / (d + ε), d the user's number of rating edges. -/
theorem k1_v9 (V : KV F) (V' : RV F) (h : Agree V V') :
    kval1 V (no_index (Proc.devRef .tc Cert.KernelIdeal.main_v9)) = res_main_v9 V' := by
  unfold kval1
  simp only [Cert.KernelIdeal.Gen.main_part0_ops0]
  after_results_simp
  simp only [h.a6] <;> rfl

set_option maxRecDepth 8192 in
set_option maxHeartbeats 2000000 in
/-- The items' self-weight: one minus d / (d + ε), d the item's number of rating edges. -/
theorem k1_v19 (V : KV F) (V' : RV F) (h : Agree V V') :
    kval1 V (no_index (Proc.devRef .tc Cert.KernelIdeal.main_v19)) = res_main_v19 V' := by
  unfold kval1
  simp only [Cert.KernelIdeal.Gen.main_part0_ops0]
  after_results_simp
  simp only [h.a7] <;> rfl

set_option maxRecDepth 8192 in
set_option maxHeartbeats 2000000 in
/-- The first social aggregate: the mean of the embeddings at the social edges' sources, per destination. -/
theorem k1_v38 (V : KV F) (V' : RV F) (h : Agree V V') :
    kval1 V (no_index (Proc.devRef .tc Cert.KernelIdeal.main_v38)) = res_main_v38 V' := by
  unfold kval1
  simp only [Cert.KernelIdeal.Gen.main_part0_ops0]
  after_results_simp
  simp only [h.a5, h.a4, h.a0] <;> rfl

set_option maxRecDepth 8192 in
set_option maxHeartbeats 2000000 in
/-- The user embedding scaled row by row by the users' self-weight. -/
theorem k1_v40 (V : KV F) (V' : RV F) (h : Agree V V') :
    kval1 V (no_index (Proc.devRef .tc Cert.KernelIdeal.main_v40)) = mulf (broadcastInDim S100000x64 ![0, 1] bcast_S100000x1_S100000x64_0_1 (res_main_v9 V')) (V' (Proc.devRef .tc main_arg0)) := by
  unfold kval1
  simp only [Cert.KernelIdeal.Gen.main_part0_ops0]
  after_results_simp
  simp only [h.a0, h.a6] <;> rfl

set_option maxRecDepth 8192 in
set_option maxHeartbeats 2000000 in
/-- Which of the rating edges' item words are negative. -/
theorem k1_v42 (V : KV F) (V' : RV F) (h : Agree V V') :
    kval1 V (no_index (Proc.devRef .tc Cert.KernelIdeal.main_v42)) = cmpi .slt (V' (Proc.devRef .tc main_arg7)) (broadcastInDim S1000000 ![] bcast_S_S1000000 (constantI S_ 32 0#32)) := by
  unfold kval1
  simp only [Cert.KernelIdeal.Gen.main_part0_ops0]
  after_results_simp
  simp only [h.a7] <;> rfl

set_option maxRecDepth 8192 in
set_option maxHeartbeats 2000000 in
/-- The item table's height, repeated at every rating edge. -/
theorem k1_v43 (V : KV F) (V' : RV F) (h : Agree V V') :
    kval1 V (no_index (Proc.devRef .tc Cert.KernelIdeal.main_v43)) = broadcastInDim S1000000 ![] bcast_S_S1000000 (constantI S_ 32 50000#32) := by
  unfold kval1
  simp only [Cert.KernelIdeal.Gen.main_part0_ops0]
  after_results_simp
  all_goals rfl

/-! ## After the second piece -/

theorem k2_arg5 (V : KV F) (V' : RV F) (h : Agree V V') : kval2 V (no_index (Proc.devRef .tc Cert.KernelIdeal.main_arg5)) = V' (Proc.devRef .tc main_arg5) :=
  (kval2_keep V Cert.KernelIdeal.main_arg5 (by decide)).trans (k1_arg5 V V' h)
theorem k2_arg6 (V : KV F) (V' : RV F) (h : Agree V V') : kval2 V (no_index (Proc.devRef .tc Cert.KernelIdeal.main_arg6)) = V' (Proc.devRef .tc main_arg6) :=
  (kval2_keep V Cert.KernelIdeal.main_arg6 (by decide)).trans (k1_arg6 V V' h)
theorem k2_arg7 (V : KV F) (V' : RV F) (h : Agree V V') : kval2 V (no_index (Proc.devRef .tc Cert.KernelIdeal.main_arg7)) = V' (Proc.devRef .tc main_arg7) :=
  (kval2_keep V Cert.KernelIdeal.main_arg7 (by decide)).trans (k1_arg7 V V' h)

theorem k2_v9 (V : KV F) (V' : RV F) (h : Agree V V') : kval2 V (no_index (Proc.devRef .tc Cert.KernelIdeal.main_v9)) = res_main_v9 V' :=
  (kval2_keep V Cert.KernelIdeal.main_v9 (by decide)).trans (k1_v9 V V' h)

theorem k2_v38 (V : KV F) (V' : RV F) (h : Agree V V') : kval2 V (no_index (Proc.devRef .tc Cert.KernelIdeal.main_v38)) = res_main_v38 V' :=
  (kval2_keep V Cert.KernelIdeal.main_v38 (by decide)).trans (k1_v38 V V' h)

set_option maxRecDepth 8192 in
set_option maxHeartbeats 2000000 in
/-- The first rating aggregate of the users. -/
theorem k2_v60 (V : KV F) (V' : RV F) (h : Agree V V') :
    kval2 V (no_index (Proc.devRef .tc Cert.KernelIdeal.main_v60)) = res_main_v60 V' := by
  unfold kval2
  simp only [Cert.KernelIdeal.Gen.main_part1_ops0]
  after_results_simp
  simp only [k1_arg6 V V' h, k1_arg7 V V' h, k1_v43 V V' h, k1_v42 V V' h, k1_arg1 V V' h, k1_v40 V V' h] <;> rfl

set_option maxRecDepth 8192 in
set_option maxHeartbeats 2000000 in
/-- The first rating aggregate of the items. -/
theorem k2_v82 (V : KV F) (V' : RV F) (h : Agree V V') :
    kval2 V (no_index (Proc.devRef .tc Cert.KernelIdeal.main_v82)) = res_main_v82 V' := by
  unfold kval2
  simp only [Cert.KernelIdeal.Gen.main_part1_ops0]
  after_results_simp
  simp only [k1_arg7 V V' h, k1_arg6 V V' h, k1_arg0 V V' h, k1_arg1 V V' h, k1_v19 V V' h] <;> rfl

set_option maxRecDepth 8192 in
set_option maxHeartbeats 2000000 in
/-- The first social aggregate's rows at the social edges' sources. -/
theorem k2_v89 (V : KV F) (V' : RV F) (h : Agree V V') :
    kval2 V (no_index (Proc.devRef .tc Cert.KernelIdeal.main_v89)) = Host.gather gather_S100000x64_S1000000x1_S1000000x64_1_0_n_n_0_1_164 (res_main_v38 V') (broadcastInDim S1000000x1 ![0] bcast_S1000000_S1000000x1_0 (select (cmpi .slt (V' (Proc.devRef .tc main_arg4)) (broadcastInDim S1000000 ![] bcast_S_S1000000 (constantI S_ 32 0#32))) (addi (V' (Proc.devRef .tc main_arg4)) (broadcastInDim S1000000 ![] bcast_S_S1000000 (constantI S_ 32 100000#32))) (V' (Proc.devRef .tc main_arg4)))) := by
  unfold kval2
  simp only [Cert.KernelIdeal.Gen.main_part1_ops0]
  after_results_simp
  simp only [k1_arg4 V V' h, k1_v38 V V' h] <;> rfl

set_option maxRecDepth 8192 in
set_option maxHeartbeats 2000000 in
/-- The zero table into which the second social aggregate is summed. -/
theorem k2_v90 (V : KV F) (V' : RV F) (h : Agree V V') :
    kval2 V (no_index (Proc.devRef .tc Cert.KernelIdeal.main_v90)) = broadcastInDim S100000x64 ![] bcast_S_S100000x64 (constant S_ .f32 0x00000000#32) := by
  unfold kval2
  simp only [Cert.KernelIdeal.Gen.main_part1_ops0]
  after_results_simp
  all_goals rfl

/-! ## After the third piece -/

theorem k3_v38 (V : KV F) (V' : RV F) (h : Agree V V') : kval3 V (no_index (Proc.devRef .tc Cert.KernelIdeal.main_v38)) = res_main_v38 V' :=
  (kval3_keep V Cert.KernelIdeal.main_v38 (by decide)).trans (k2_v38 V V' h)

theorem k3_v60 (V : KV F) (V' : RV F) (h : Agree V V') : kval3 V (no_index (Proc.devRef .tc Cert.KernelIdeal.main_v60)) = res_main_v60 V' :=
  (kval3_keep V Cert.KernelIdeal.main_v60 (by decide)).trans (k2_v60 V V' h)

set_option maxRecDepth 8192 in
set_option maxHeartbeats 2000000 in
/-- The second social aggregate: the same mean taken over the first social aggregate. -/
theorem k3_v101 (V : KV F) (V' : RV F) (h : Agree V V') :
    kval3 V (no_index (Proc.devRef .tc Cert.KernelIdeal.main_v101)) = val3 V' (Proc.devRef .tc main_v106) := by
  rw [val3_main_v106]
  unfold kval3
  simp only [Cert.KernelIdeal.Gen.main_part2_ops0]
  after_results_simp
  simp only [k2_arg5 V V' h, k2_v89 V V' h, k2_v90 V V' h] <;> rfl
set_option maxRecDepth 8192 in
set_option maxHeartbeats 2000000 in
/-- The second rating aggregate of the users, taken over the first rating aggregates. -/
theorem k3_v123 (V : KV F) (V' : RV F) (h : Agree V V') :
    kval3 V (no_index (Proc.devRef .tc Cert.KernelIdeal.main_v123)) = val3 V' (Proc.devRef .tc main_v128) := by
  rw [val3_main_v128]
  unfold kval3
  simp only [Cert.KernelIdeal.Gen.main_part2_ops0]
  after_results_simp
  simp only [k2_arg6 V V' h, k2_arg7 V V' h, k2_v82 V V' h, k2_v60 V V' h, k2_v9 V V' h] <;> rfl

/-! ## The four aggregates after the whole stretch -/

/-- On equal arguments the first social aggregate is the reference's. -/
theorem soc1_eq (V : KV F) (V' : RV F)
    (hag0 : V' (Proc.devRef .tc main_arg0) = V (Proc.devRef .tc Cert.KernelIdeal.main_arg0))
    (hag1 : V' (Proc.devRef .tc main_arg1) = V (Proc.devRef .tc Cert.KernelIdeal.main_arg1))
    (hag2 : V' (Proc.devRef .tc main_arg2) = V (Proc.devRef .tc Cert.KernelIdeal.main_arg2))
    (hag3 : V' (Proc.devRef .tc main_arg3) = V (Proc.devRef .tc Cert.KernelIdeal.main_arg3))
    (hag4 : V' (Proc.devRef .tc main_arg4) = V (Proc.devRef .tc Cert.KernelIdeal.main_arg4))
    (hag5 : V' (Proc.devRef .tc main_arg5) = V (Proc.devRef .tc Cert.KernelIdeal.main_arg5))
    (hag6 : V' (Proc.devRef .tc main_arg6) = V (Proc.devRef .tc Cert.KernelIdeal.main_arg6))
    (hag7 : V' (Proc.devRef .tc main_arg7) = V (Proc.devRef .tc Cert.KernelIdeal.main_arg7)) :
    after Cert.KernelIdeal.Gen.hostOps0 V (Proc.devRef .tc Cert.KernelIdeal.main_v38) = res_main_v38 V' :=
  (congrFun (after_hostOps0 V) _).trans (k3_v38 V V' ⟨hag0.symm, hag1.symm, hag2.symm, hag3.symm, hag4.symm, hag5.symm, hag6.symm, hag7.symm⟩)

/-- On equal arguments the users' first rating aggregate is the reference's. -/
theorem ratu1_eq (V : KV F) (V' : RV F)
    (hag0 : V' (Proc.devRef .tc main_arg0) = V (Proc.devRef .tc Cert.KernelIdeal.main_arg0))
    (hag1 : V' (Proc.devRef .tc main_arg1) = V (Proc.devRef .tc Cert.KernelIdeal.main_arg1))
    (hag2 : V' (Proc.devRef .tc main_arg2) = V (Proc.devRef .tc Cert.KernelIdeal.main_arg2))
    (hag3 : V' (Proc.devRef .tc main_arg3) = V (Proc.devRef .tc Cert.KernelIdeal.main_arg3))
    (hag4 : V' (Proc.devRef .tc main_arg4) = V (Proc.devRef .tc Cert.KernelIdeal.main_arg4))
    (hag5 : V' (Proc.devRef .tc main_arg5) = V (Proc.devRef .tc Cert.KernelIdeal.main_arg5))
    (hag6 : V' (Proc.devRef .tc main_arg6) = V (Proc.devRef .tc Cert.KernelIdeal.main_arg6))
    (hag7 : V' (Proc.devRef .tc main_arg7) = V (Proc.devRef .tc Cert.KernelIdeal.main_arg7)) :
    after Cert.KernelIdeal.Gen.hostOps0 V (Proc.devRef .tc Cert.KernelIdeal.main_v60) = res_main_v60 V' :=
  (congrFun (after_hostOps0 V) _).trans (k3_v60 V V' ⟨hag0.symm, hag1.symm, hag2.symm, hag3.symm, hag4.symm, hag5.symm, hag6.symm, hag7.symm⟩)

/-- On equal arguments the second social aggregate is the reference's. -/
theorem soc2_eq (V : KV F) (V' : RV F)
    (hag0 : V' (Proc.devRef .tc main_arg0) = V (Proc.devRef .tc Cert.KernelIdeal.main_arg0))
    (hag1 : V' (Proc.devRef .tc main_arg1) = V (Proc.devRef .tc Cert.KernelIdeal.main_arg1))
    (hag2 : V' (Proc.devRef .tc main_arg2) = V (Proc.devRef .tc Cert.KernelIdeal.main_arg2))
    (hag3 : V' (Proc.devRef .tc main_arg3) = V (Proc.devRef .tc Cert.KernelIdeal.main_arg3))
    (hag4 : V' (Proc.devRef .tc main_arg4) = V (Proc.devRef .tc Cert.KernelIdeal.main_arg4))
    (hag5 : V' (Proc.devRef .tc main_arg5) = V (Proc.devRef .tc Cert.KernelIdeal.main_arg5))
    (hag6 : V' (Proc.devRef .tc main_arg6) = V (Proc.devRef .tc Cert.KernelIdeal.main_arg6))
    (hag7 : V' (Proc.devRef .tc main_arg7) = V (Proc.devRef .tc Cert.KernelIdeal.main_arg7)) :
    after Cert.KernelIdeal.Gen.hostOps0 V (Proc.devRef .tc Cert.KernelIdeal.main_v101) = val3 V' (Proc.devRef .tc main_v106) :=
  (congrFun (after_hostOps0 V) _).trans (k3_v101 V V' ⟨hag0.symm, hag1.symm, hag2.symm, hag3.symm, hag4.symm, hag5.symm, hag6.symm, hag7.symm⟩)

/-- On equal arguments the users' second rating aggregate is the reference's. -/
theorem ratu2_eq (V : KV F) (V' : RV F)
    (hag0 : V' (Proc.devRef .tc main_arg0) = V (Proc.devRef .tc Cert.KernelIdeal.main_arg0))
    (hag1 : V' (Proc.devRef .tc main_arg1) = V (Proc.devRef .tc Cert.KernelIdeal.main_arg1))
    (hag2 : V' (Proc.devRef .tc main_arg2) = V (Proc.devRef .tc Cert.KernelIdeal.main_arg2))
    (hag3 : V' (Proc.devRef .tc main_arg3) = V (Proc.devRef .tc Cert.KernelIdeal.main_arg3))
    (hag4 : V' (Proc.devRef .tc main_arg4) = V (Proc.devRef .tc Cert.KernelIdeal.main_arg4))
    (hag5 : V' (Proc.devRef .tc main_arg5) = V (Proc.devRef .tc Cert.KernelIdeal.main_arg5))
    (hag6 : V' (Proc.devRef .tc main_arg6) = V (Proc.devRef .tc Cert.KernelIdeal.main_arg6))
    (hag7 : V' (Proc.devRef .tc main_arg7) = V (Proc.devRef .tc Cert.KernelIdeal.main_arg7)) :
    after Cert.KernelIdeal.Gen.hostOps0 V (Proc.devRef .tc Cert.KernelIdeal.main_v123) = val3 V' (Proc.devRef .tc main_v128) :=
  (congrFun (after_hostOps0 V) _).trans (k3_v123 V V' ⟨hag0.symm, hag1.symm, hag2.symm, hag3.symm, hag4.symm, hag5.symm, hag6.symm, hag7.symm⟩)

end Cert.HostPrefix

end
-- ==== Proof.lean ====
/-
  The certificate's claim: a two-layer graph convolution with a row gather and an inner-product prediction,
  computed by two kernel regions among host operations, against the same computation written with plain array
  operations.

  Both programs first form, by the same scatter-adds and gathers over the edge lists, four aggregate tables from
  the user and item embeddings: the first and second social aggregates s₁, s₂ and the first and second rating
  aggregates r₁, r₂. The final user table is  a + (½·s₁ + ½·r₁) + (½·s₂ + ½·r₂)  entry by entry (a the user
  embedding); the three results are the rows of that table named by the user indices, the rows of the item
  embedding named by the item indices, and the logistic function of each pair of rows' inner product.

  The kernel program forms the final user table in its first region, block by block, and gathers rows in its second
  region through the two index tables, which it prefetches; a row index outside its table would send a block
  outside the table, so the claims are stated where every user index lies in [0, 100000) and every item index in
  [0, 50000). There each program's three results are the same three functions of the arguments and of the four
  aggregates; the aggregates are the same terms of the arguments in both programs, operation for operation; and
  the two sums of 64 products, the two logistic functions and the two weighted combinations are read at an index as
  the same extended-real expressions, in the same grouping, so that no arithmetic law beyond that reading is used
  and the float inputs' finiteness is never opened.

  The three frames: each kernel program's run ends with every argument as launched because no host operation and no
  region writes an argument; the reference's run is its operations' composed terms, the arguments untouched. The
  idealization rewrote nothing, so there is nothing to preserve.
-/
import proofs.«156973_j70892730188381_2_alg».proof.Defs
import proofs.«156973_j70892730188381_2_alg».proof.Proof.Gen.Kernel
import proofs.«156973_j70892730188381_2_alg».proof.Proof.Gen.KernelIdeal
import proofs.«156973_j70892730188381_2_alg».proof.Proof.Gen.ReferenceIdeal
import proofs.«156973_j70892730188381_2_alg».proof.Proof.Gen.ReferenceIdeal.Run
import proofs.«156973_j70892730188381_2_alg».proof.Proof.Gen.Pre_finite_inputs
import proofs.«156973_j70892730188381_2_alg».proof.Proof.KFrame
import proofs.«156973_j70892730188381_2_alg».proof.Proof.KFrameBits
import proofs.«156973_j70892730188381_2_alg».proof.Proof.KValue
import proofs.«156973_j70892730188381_2_alg».proof.Proof.RefRead
import proofs.«156973_j70892730188381_2_alg».proof.Proof.HostPrefix
import proofs.«156973_j70892730188381_2_alg».proof.Proof.IndexRange
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched. -/
theorem frame_k : Cert.frame_Kernel := fun m ρ hpre => Cert.Kernel.Run.frame_of_pre m ρ hpre

/-- So does the kernel program read over the extended reals. -/
theorem frame_ki : Cert.frame_KernelIdeal := fun m ρ hpre => Cert.KernelIdeal.Run.frame_of_pre m ρ hpre

/-- The reference's run is its operations' composed terms; the arguments are among the buffers it never writes. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs end with the specification's three functions of the
    arguments and the four aggregates, and the aggregates agree. -/
theorem algebraic : Cert.algebraic_KernelIdeal_ReferenceIdeal := by
  intro m ρ m' ρ' hpre hagree
  have hr := Cert.IndexRange.of_pre _ _ _ _ _ _ _ _ (hpre 0)
  refine ⟨fun c => Cert.Spec.predict (Cert.KernelIdeal.RunValue.specUser m ρ c) (Cert.KernelIdeal.RunValue.specItem m c),
    fun c => Cert.KernelIdeal.RunValue.specUser m ρ c, fun c => Cert.KernelIdeal.RunValue.specItem m c,
    Cert.KernelIdeal.RunValue.run_spec m ρ hpre, ?_⟩
  have hU : ∀ c i, (((StableHlo.launchContents m' c) (Proc.devRef .tc Cert.ReferenceIdeal.main_arg2) : IVec Cert.ReferenceIdeal.S16384 32) i).toNat < 100000 := by
    intro c i
    have hc : c = 0 := Subsingleton.elim _ _
    subst hc
    have e : (StableHlo.launchContents m' 0) (Proc.devRef .tc Cert.ReferenceIdeal.main_arg2) = m (((0 : Dev Cert.KernelIdeal.nD).tc : Thread Cert.KernelIdeal.nD Cert.KernelIdeal.τ).loc Cert.KernelIdeal.main_arg2) := (hagree 0).2.2.1
    rw [e]; exact hr.1 i
  have hI : ∀ c i, (((StableHlo.launchContents m' c) (Proc.devRef .tc Cert.ReferenceIdeal.main_arg3) : IVec Cert.ReferenceIdeal.S16384 32) i).toNat < 50000 := by
    intro c i
    have hc : c = 0 := Subsingleton.elim _ _
    subst hc
    have e : (StableHlo.launchContents m' 0) (Proc.devRef .tc Cert.ReferenceIdeal.main_arg3) = m (((0 : Dev Cert.KernelIdeal.nD).tc : Thread Cert.KernelIdeal.nD Cert.KernelIdeal.τ).loc Cert.KernelIdeal.main_arg3) := (hagree 0).2.2.2.1
    rw [e]; exact hr.2 i
  refine (θ_run Cert.ReferenceIdeal.defs _ _).mono (fun r h c => ?_) (Cert.RefRead.run_spec m' ρ' hU hI)
  obtain ⟨h0, h1, h2, h3, h4, h5, h6, h7⟩ := hagree c
  have e38 := Cert.HostPrefix.soc1_eq (Cert.KernelIdeal.Run.W0 m ρ c) (StableHlo.launchContents m' c) h0 h1 h2 h3 h4 h5 h6 h7
  have e60 := Cert.HostPrefix.ratu1_eq (Cert.KernelIdeal.Run.W0 m ρ c) (StableHlo.launchContents m' c) h0 h1 h2 h3 h4 h5 h6 h7
  have e106 := Cert.HostPrefix.soc2_eq (Cert.KernelIdeal.Run.W0 m ρ c) (StableHlo.launchContents m' c) h0 h1 h2 h3 h4 h5 h6 h7
  have e128 := Cert.HostPrefix.ratu2_eq (Cert.KernelIdeal.Run.W0 m ρ c) (StableHlo.launchContents m' c) h0 h1 h2 h3 h4 h5 h6 h7
  have eU : Cert.Spec.gatherUser (Cert.Spec.finalUser ((StableHlo.launchContents m' c) (Proc.devRef .tc Cert.ReferenceIdeal.main_arg0))
        (Cert.ReferenceIdeal.Value.res_main_v38 (StableHlo.launchContents m' c)) (Cert.ReferenceIdeal.Value.res_main_v60 (StableHlo.launchContents m' c))
        (Cert.ReferenceIdeal.Value.val3 (StableHlo.launchContents m' c) (Proc.devRef .tc Cert.ReferenceIdeal.main_v106))
        (Cert.ReferenceIdeal.Value.val3 (StableHlo.launchContents m' c) (Proc.devRef .tc Cert.ReferenceIdeal.main_v128)))
        ((StableHlo.launchContents m' c) (Proc.devRef .tc Cert.ReferenceIdeal.main_arg2))
      = Cert.KernelIdeal.RunValue.specUser m ρ c := by
    rw [← e38, ← e60, ← e106, ← e128]
    exact congrArg₂ (fun a u => Cert.Spec.gatherUser (Cert.Spec.finalUser a _ _ _ _) u) h0 h2
  have eI : Cert.Spec.gatherItem ((StableHlo.launchContents m' c) (Proc.devRef .tc Cert.ReferenceIdeal.main_arg1))
        ((StableHlo.launchContents m' c) (Proc.devRef .tc Cert.ReferenceIdeal.main_arg3))
      = Cert.KernelIdeal.RunValue.specItem m c :=
    congrArg₂ Cert.Spec.gatherItem h1 h3
  obtain ⟨r0, r1, r2, rest⟩ := h c
  refine ⟨?_, ?_, ?_, rest⟩
  · rw [r0, eU, eI]
  · rw [r1, eU]
  · rw [r2, eI]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
